-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S8x2048 : Shape := ⟨2, ![8, 2048]⟩
abbrev S256x256 : Shape := ⟨2, ![256, 256]⟩
abbrev S256 : Shape := ⟨1, ![256]⟩
abbrev S3x256x256 : Shape := ⟨3, ![3, 256, 256]⟩
abbrev S3x256 : Shape := ⟨2, ![3, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part6 {F : FTy → Type} [FloatOps F] (main_arg21 : FVec F S256x256 .f32) (main_arg22 : FVec F S256 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x256 .f32 := Host.absf main_arg21
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  main_v113

def fn_part5 {F : FTy → Type} [FloatOps F] (main_arg18 : FVec F S256 .f32) (main_arg19 : FVec F S256x256 .f32) (main_arg20 : FVec F S256 .f32) (main_arg21 : FVec F S256x256 .f32) (main_arg22 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x256 .f32 := Host.absf main_arg19
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S256x256 .f32) (main_arg15 : FVec F S256 .f32) (main_arg16 : FVec F S256 .f32) (main_arg17 : FVec F S256 .f32) (main_arg18 : FVec F S256 .f32) (main_arg19 : FVec F S256x256 .f32) (main_arg20 : FVec F S256 .f32) (main_arg21 : FVec F S256x256 .f32) (main_arg22 : FVec F S256 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S256x256 .f32) (main_arg12 : FVec F S256x256 .f32) (main_arg13 : FVec F S256x256 .f32) (main_arg14 : FVec F S256x256 .f32) (main_arg15 : FVec F S256 .f32) (main_arg16 : FVec F S256 .f32) (main_arg17 : FVec F S256 .f32) (main_arg18 : FVec F S256 .f32) (main_arg19 : FVec F S256x256 .f32) (main_arg20 : FVec F S256 .f32) (main_arg21 : FVec F S256x256 .f32) (main_arg22 : FVec F S256 .f32) (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S3x256x256 .f32) (main_arg8 : FVec F S3x256 .f32) (main_arg9 : FVec F S3x256x256 .f32) (main_arg10 : FVec F S3x256 .f32) (main_arg11 : FVec F S256x256 .f32) (main_arg12 : FVec F S256x256 .f32) (main_arg13 : FVec F S256x256 .f32) (main_arg14 : FVec F S256x256 .f32) (main_arg15 : FVec F S256 .f32) (main_arg16 : FVec F S256 .f32) (main_arg17 : FVec F S256 .f32) (main_arg18 : FVec F S256 .f32) (main_arg19 : FVec F S256x256 .f32) (main_arg20 : FVec F S256 .f32) (main_arg21 : FVec F S256x256 .f32) (main_arg22 : FVec F S256 .f32) (main_v33 : IVec S_ 1) : IVec S_ 1 :=
  let main_v34 : FVec F S3x256x256 .f32 := Host.absf main_arg7
  let main_cst_12 : FVec F S_ .f32 := constant S_ .f32 0x7F800000#32
  let main_v35 : FVec F S3x256x256 .f32 := broadcastInDim S3x256x256 ![] bcast_S_S3x256x256 main_cst_12
  let main_v36 : IVec S3x256x256 1 := cmpf .olt main_v34 main_v35
  let main_c_13 : IVec S_ 1 := constantI S_ 1 1#1
  let main_v37 : IVec S_ 1 := (fun x v => Host.reduce IntOp.andi x v reducesTo_S3x256x256_S_d0_1_2 h_S_) main_v36 main_c_13
  let main_v38 : IVec S_ 1 := andi main_v33 main_v37
  let main_v39 : FVec F S3x256 .f32 := Host.absf main_arg8
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S3x256x256 .f32 := Host.absf main_arg9
  let main_cst_16 : FVec F S_ .f32 := constant S_ .f32 0x7F800000#32
  let main_v45 : FVec F S3x256x256 .f32 := broadcastInDim S3x256x256 ![] bcast_S_S3x256x256 main_cst_16
  let main_v46 : IVec S3x256x256 1 := cmpf .olt main_v44 main_v45
  let main_c_17 : IVec S_ 1 := constantI S_ 1 1#1
  let main_v47 : IVec S_ 1 := (fun x v => Host.reduce IntOp.andi x v reducesTo_S3x256x256_S_d0_1_2 h_S_) main_v46 main_c_17
  let main_v48 : IVec S_ 1 := andi main_v43 main_v47
  let main_v49 : FVec F S3x256 .f32 := Host.absf main_arg10
  let main_cst_18 : FVec F S_ .f32 := constant S_ .f32 0x7F800000#32
  let main_v50 : FVec F S3x256 .f32 := broadcastInDim S3x256 ![] bcast_S_S3x256 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S256 .f32) (main_arg5 : FVec F S3x256x256 .f32) (main_arg6 : FVec F S3x256 .f32) (main_arg7 : FVec F S3x256x256 .f32) (main_arg8 : FVec F S3x256 .f32) (main_arg9 : FVec F S3x256x256 .f32) (main_arg10 : FVec F S3x256 .f32) (main_arg11 : FVec F S256x256 .f32) (main_arg12 : FVec F S256x256 .f32) (main_arg13 : FVec F S256x256 .f32) (main_arg14 : FVec F S256x256 .f32) (main_arg15 : FVec F S256 .f32) (main_arg16 : FVec F S256 .f32) (main_arg17 : FVec F S256 .f32) (main_arg18 : FVec F S256 .f32) (main_arg19 : FVec F S256x256 .f32) (main_arg20 : FVec F S256 .f32) (main_arg21 : FVec F S256x256 .f32) (main_arg22 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S3x256x256 .f32 := Host.absf main_arg5
  let main_cst_8 : FVec F S_ .f32 := constant S_ .f32 0x7F800000#32
  let main_v25 : FVec F S3x256x256 .f32 := broadcastInDim S3x256x256 ![] bcast_S_S3x256x256 main_cst_8
  let main_v26 : IVec S3x256x256 1 := cmpf .olt main_v24 main_v25
  let main_c_9 : IVec S_ 1 := constantI S_ 1 1#1
  let main_v27 : IVec S_ 1 := (fun x v => Host.reduce IntOp.andi x v reducesTo_S3x256x256_S_d0_1_2 h_S_) main_v26 main_c_9
  let main_v28 : IVec S_ 1 := andi main_v23 main_v27
  let main_v29 : FVec F S3x256 .f32 := Host.absf main_arg6
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S8x2048x256 .f32) (main_arg1 : FVec F S8x2048x2048 .f32) (main_arg2 : FVec F S8x2048 .f32) (main_arg3 : FVec F S256x256 .f32) (main_arg4 : FVec F S256 .f32) (main_arg5 : FVec F S3x256x256 .f32) (main_arg6 : FVec F S3x256 .f32) (main_arg7 : FVec F S3x256x256 .f32) (main_arg8 : FVec F S3x256 .f32) (main_arg9 : FVec F S3x256x256 .f32) (main_arg10 : FVec F S3x256 .f32) (main_arg11 : FVec F S256x256 .f32) (main_arg12 : FVec F S256x256 .f32) (main_arg13 : FVec F S256x256 .f32) (main_arg14 : FVec F S256x256 .f32) (main_arg15 : FVec F S256 .f32) (main_arg16 : FVec F S256 .f32) (main_arg17 : FVec F S256 .f32) (main_arg18 : FVec F S256 .f32) (main_arg19 : FVec F S256x256 .f32) (main_arg20 : FVec F S256 .f32) (main_arg21 : FVec F S256x256 .f32) (main_arg22 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S8x2048x256 : Shape := ⟨3, ![8, 2048, 256]⟩
abbrev S8x2048x2048 : Shape := ⟨3, ![8, 2048, 2048]⟩
abbrev S8x2048 : Shape := ⟨2, ![8, 2048]⟩
abbrev S256x256 : Shape := ⟨2, ![256, 256]⟩
abbrev S256 : Shape := ⟨1, ![256]⟩
abbrev S3x256x256 : Shape := ⟨3, ![3, 256, 256]⟩
abbrev S3x256 : Shape := ⟨2, ![3, 256]⟩
abbrev S8x2048x1 : Shape := ⟨3, ![8, 2048, 1]⟩
abbrev S1x2048x256 : Shape := ⟨3, ![1, 2048, 256]⟩
abbrev S1x2048x2048 : Shape := ⟨3, ![1, 2048, 2048]⟩
abbrev S1x2048x1 : Shape := ⟨3, ![1, 2048, 1]⟩
abbrev S2048x256 : Shape := ⟨2, ![2048, 256]⟩
abbrev S2048x1 : Shape := ⟨2, ![2048, 1]⟩
abbrev S1x256 : Shape := ⟨2, ![1, 256]⟩
abbrev S1x256x256 : Shape := ⟨3, ![1, 256, 256]⟩
abbrev S2048x2048 : Shape := ⟨2, ![2048, 2048]⟩

abbrev nBuf : Space → Nat
  | .hbm => 26
  | .vmem => 31
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S8x2048, .f32⟩
  | .hbm, ⟨3, _⟩ => ⟨S256x256, .f32⟩
  | .hbm, ⟨4, _⟩ => ⟨S256, .f32⟩
  | .hbm, ⟨5, _⟩ => ⟨S3x256x256, .f32⟩
  | .hbm, ⟨6, _⟩ => ⟨S3x256, .f32⟩
  | .hbm, ⟨7, _⟩ => ⟨S3x256x256, .f32⟩
  | .hbm, ⟨8, _⟩ => ⟨S3x256, .f32⟩
  | .hbm, ⟨9, _⟩ => ⟨S3x256x256, .f32⟩
  | .hbm, ⟨10, _⟩ => ⟨S3x256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256x256, .f32⟩
  | .hbm, ⟨20, _⟩ => ⟨S256, .f32⟩
  | .hbm, ⟨21, _⟩ => ⟨S256x256, .f32⟩
  | .hbm, ⟨22, _⟩ => ⟨S256, .f32⟩
  | .hbm, ⟨23, _⟩ => ⟨S8x2048x2048, .bf16⟩
  | .hbm, ⟨24, _⟩ => ⟨S8x2048x1, .f32⟩
  | .hbm, ⟨25, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x2048, .bf16⟩
  | .local _ .vmem, ⟨3, _⟩ => ⟨S1x2048x2048, .bf16⟩
  | .local _ .vmem, ⟨4, _⟩ => ⟨S1x2048x1, .f32⟩
  | .local _ .vmem, ⟨5, _⟩ => ⟨S1x2048x1, .f32⟩
  | .local _ .vmem, ⟨6, _⟩ => ⟨S256x256, .f32⟩
  | .local _ .vmem, ⟨7, _⟩ => ⟨S256, .f32⟩
  | .local _ .vmem, ⟨8, _⟩ => ⟨S3x256x256, .f32⟩
  | .local _ .vmem, ⟨9, _⟩ => ⟨S3x256, .f32⟩
  | .local _ .vmem, ⟨10, _⟩ => ⟨S3x256x256, .f32⟩
  | .local _ .vmem, ⟨11, _⟩ => ⟨S3x256, .f32⟩
  | .local _ .vmem, ⟨12, _⟩ => ⟨S3x256x256, .f32⟩
  | .local _ .vmem, ⟨13, _⟩ => ⟨S3x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256, .f32⟩
  | .local _ .vmem, ⟨19, _⟩ => ⟨S256, .f32⟩
  | .local _ .vmem, ⟨20, _⟩ => ⟨S256, .f32⟩
  | .local _ .vmem, ⟨21, _⟩ => ⟨S256, .f32⟩
  | .local _ .vmem, ⟨22, _⟩ => ⟨S256x256, .f32⟩
  | .local _ .vmem, ⟨23, _⟩ => ⟨S256, .f32⟩
  | .local _ .vmem, ⟨24, _⟩ => ⟨S256x256, .f32⟩
  | .local _ .vmem, ⟨25, _⟩ => ⟨S256, .f32⟩
  | .local _ .vmem, ⟨26, _⟩ => ⟨S1x2048x256, .f32⟩
  | .local _ .vmem, ⟨27, _⟩ => ⟨S1x2048x256, .f32⟩
  | .local _ .vmem, ⟨28, _⟩ => ⟨S2048x256, .bf16⟩
  | .local _ .vmem, ⟨29, _⟩ => ⟨S2048x256, .bf16⟩
  | .local _ .vmem, ⟨30, _⟩ => ⟨S2048x256, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg23_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem23_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1x2048x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  bitsLt_bf16_f32 : FTy.bits .bf16 < FTy.bits .f32
  bcast_S8x2048_S8x2048x1_0_1 : S8x2048.BroadcastsInDim S8x2048x1 (![0, 1] : Fin 2 → Fin S8x2048x1.rank)
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S256_S1x256 : S256.ShapeCasts S1x256
  broadcasts_S1x256_S2048x256 : S1x256.Broadcasts S2048x256
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256_S1x256_0_0 : ∀ a, (![0, 0] : Fin 2 → Nat) a + S1x256.size a ≤ S3x256.size a
  h_S1x256 : 0 < S1x256.numel
  shapeCasts_S1x256_S256 : S1x256.ShapeCasts S256
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S3x256x256_S1x256x256_1_0_0 : ∀ a, (![1, 0, 0] : Fin 3 → Nat) a + S1x256x256.size a ≤ S3x256x256.size a
  inb_S3x256_S1x256_1_0 : ∀ a, (![1, 0] : Fin 2 → Nat) a + S1x256.size a ≤ S3x256.size a
  inb_S3x256x256_S1x256x256_2_0_0 : ∀ a, (![2, 0, 0] : Fin 3 → Nat) a + S1x256x256.size a ≤ S3x256x256.size a
  inb_S3x256_S1x256_2_0 : ∀ a, (![2, 0] : Fin 2 → Nat) a + S1x256.size a ≤ S3x256.size a
  broadcasts_S2048x1_S2048x256 : S2048x1.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  shapeCasts_S2048x256_S1x2048x256 : S2048x256.ShapeCasts S1x2048x256
  dot_S2048x256_S256x256_S2048x256_1_0_0_1_n_n_wf : DotDims.WF S2048x256 S256x256 S2048x256 [1] [0] [0] [1] [] []
  dot_S2048x2048_S2048x256_S2048x256_1_0_0_1_n_n_wf : DotDims.WF S2048x2048 S2048x256 S2048x256 [1] [0] [0] [1] [] []
  dot_S2048x256_S2048x256_S256x256_0_0_1_1_n_n_wf : DotDims.WF S2048x256 S2048x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S8x2048x2048.size a
  hwx0_1 : ∀ i : grid0.Coords, EltTy.bits .bf16 = 32 ∨ (Rect.block (s := S8x2048x2048) S1x2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S8x2048x1.size a
  hwx0_2 : ∀ i : grid0.Coords, EltTy.bits .f32 = 32 ∨ (Rect.block (s := S8x2048x1) S1x2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x256x256.size a ≤ S3x256x256.size a
  hwx0_5 : ∀ i : grid0.Coords, EltTy.bits .f32 = 32 ∨ (Rect.block (s := S3x256x256) S3x256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x256.size a ≤ S3x256.size a
  hwx0_6 : ∀ i : grid0.Coords, EltTy.bits .f32 = 32 ∨ (Rect.block (s := S3x256) S3x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x256x256.size a ≤ S3x256x256.size a
  hwx0_7 : ∀ i : grid0.Coords, EltTy.bits .f32 = 32 ∨ (Rect.block (s := S3x256x256) S3x256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x256.size a ≤ S3x256.size a
  hwx0_8 : ∀ i : grid0.Coords, EltTy.bits .f32 = 32 ∨ (Rect.block (s := S3x256) S3x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x256x256.size a ≤ S3x256x256.size a
  hwx0_9 : ∀ i : grid0.Coords, EltTy.bits .f32 = 32 ∨ (Rect.block (s := S3x256x256) S3x256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x256.size a ≤ S3x256.size a
  hwx0_10 : ∀ i : grid0.Coords, EltTy.bits .f32 = 32 ∨ (Rect.block (s := S3x256) S3x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .f32 = 32 ∨ (Rect.block (s := S256x256) S256x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .f32 = 32 ∨ (Rect.block (s := S256x256) S256x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .f32 = 32 ∨ (Rect.block (s := S256x256) S256x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256.size a ≤ S256.size a
  hwx0_17 : ∀ i : grid0.Coords, EltTy.bits .f32 = 32 ∨ (Rect.block (s := S256) S256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256.size a ≤ S256.size a
  hwx0_18 : ∀ i : grid0.Coords, EltTy.bits .f32 = 32 ∨ (Rect.block (s := S256) S256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x256.size a ≤ S256x256.size a
  hwx0_19 : ∀ i : grid0.Coords, EltTy.bits .f32 = 32 ∨ (Rect.block (s := S256x256) S256x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256.size a ≤ S256.size a
  hwx0_20 : ∀ i : grid0.Coords, EltTy.bits .f32 = 32 ∨ (Rect.block (s := S256) S256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x256.size a ≤ S256x256.size a
  hwx0_21 : ∀ i : grid0.Coords, EltTy.bits .f32 = 32 ∨ (Rect.block (s := S256x256) S256x256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256.size a ≤ S256.size a
  hwx0_22 : ∀ i : grid0.Coords, EltTy.bits .f32 = 32 ∨ (Rect.block (s := S256) S256.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1x2048x256.size a ≤ S8x2048x256.size a
  hwx0_23 : ∀ i : grid0.Coords, EltTy.bits .f32 = 32 ∨ (Rect.block (s := S8x2048x256) S1x2048x256.size (cc0_transform_23 i) (hinb0_23 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S3x256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S3x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S3x256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S3x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S256x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S256x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v2) S1x2048x256.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S8x2048 : Shape := ⟨2, ![8, 2048]⟩
abbrev S256x256 : Shape := ⟨2, ![256, 256]⟩
abbrev S256 : Shape := ⟨1, ![256]⟩
abbrev S3x256x256 : Shape := ⟨3, ![3, 256, 256]⟩
abbrev S3x256 : Shape := ⟨2, ![3, 256]⟩
abbrev S1x1x256 : Shape := ⟨3, ![1, 1, 256]⟩
abbrev S1x256x256 : Shape := ⟨3, ![1, 256, 256]⟩
abbrev S1x256 : Shape := ⟨2, ![1, 256]⟩
abbrev S_ : Shape := ⟨0, ![]⟩
abbrev S8x2048x1 : Shape := ⟨3, ![8, 2048, 1]⟩
abbrev S8x256x256 : Shape := ⟨3, ![8, 256, 256]⟩

abbrev nBuf : Space → Nat
  | .hbm => 418
  | .vmem => 0
  | .smem => 0
  | _ => 0

abbrev hbmTy0_0 (i : Nat) : BufTy := match i % 128 with
  | 0 => ⟨S8x2048x256, .f32⟩
  | 1 => ⟨S8x2048x2048, .f32⟩
  | 2 => ⟨S8x2048, .f32⟩
  | 3 => ⟨S256x256, .f32⟩
  | 4 => ⟨S256, .f32⟩
  | 5 => ⟨S3x256x256, .f32⟩
  | 6 => ⟨S3x256, .f32⟩
  | 7 => ⟨S3x256x256, .f32⟩
  | 8 => ⟨S3x256, .f32⟩
  | 9 => ⟨S3x256x256, .f32⟩
  | 10 => ⟨S3x256, .f32⟩
  | 11 => ⟨S256x256, .f32⟩
  | 12 => ⟨S256x256, .f32⟩
  | 13 => ⟨S256x256, .f32⟩
  | 14 => ⟨S256x256, .f32⟩
  | 15 => ⟨S256, .f32⟩
  | 16 => ⟨S256, .f32⟩
  | 17 => ⟨S256, .f32⟩
  | 18 => ⟨S256, .f32⟩
  | 19 => ⟨S256x256, .f32⟩
  | 20 => ⟨S256, .f32⟩
  | 21 => ⟨S256x256, .f32⟩
  | 22 => ⟨S256, .f32⟩
  | 23 => ⟨S8x2048x256, .f32⟩
  | 24 => ⟨S1x1x256, .f32⟩
  | 25 => ⟨S8x2048x256, .f32⟩
  | 26 => ⟨S8x2048x256, .f32⟩
  | 27 => ⟨S8x2048x256, .f32⟩
  | 28 => ⟨S1x256x256, .f32⟩
  | 29 => ⟨S256x256, .f32⟩
  | 30 => ⟨S8x2048x256, .f32⟩
  | 31 => ⟨S1x256, .f32⟩
  | 32 => ⟨S256, .f32⟩
  | 33 => ⟨S1x1x256, .f32⟩
  | 34 => ⟨S8x2048x256, .f32⟩
  | 35 => ⟨S8x2048x256, .f32⟩
  | 36 => ⟨S8x2048x256, .f32⟩
  | 37 => ⟨S8x2048x256, .f32⟩
  | 38 => ⟨S_, .f32⟩
  | 39 => ⟨S8x2048x256, .f32⟩
  | 40 => ⟨S8x2048x256, .f32⟩
  | 41 => ⟨S_, .f32⟩
  | 42 => ⟨S8x2048x256, .f32⟩
  | 43 => ⟨S8x2048x256, .f32⟩
  | 44 => ⟨S8x2048x256, .f32⟩
  | 45 => ⟨S8x2048x256, .f32⟩
  | 46 => ⟨S1x256x256, .f32⟩
  | 47 => ⟨S256x256, .f32⟩
  | 48 => ⟨S8x2048x256, .f32⟩
  | 49 => ⟨S1x256, .f32⟩
  | 50 => ⟨S256, .f32⟩
  | 51 => ⟨S1x1x256, .f32⟩
  | 52 => ⟨S8x2048x256, .f32⟩
  | 53 => ⟨S8x2048x256, .f32⟩
  | 54 => ⟨S8x2048x256, .f32⟩
  | 55 => ⟨S8x2048x256, .f32⟩
  | 56 => ⟨S_, .f32⟩
  | 57 => ⟨S8x2048x256, .f32⟩
  | 58 => ⟨S8x2048x256, .f32⟩
  | 59 => ⟨S_, .f32⟩
  | 60 => ⟨S8x2048x256, .f32⟩
  | 61 => ⟨S8x2048x256, .f32⟩
  | 62 => ⟨S8x2048x256, .f32⟩
  | 63 => ⟨S8x2048x256, .f32⟩
  | 64 => ⟨S1x256x256, .f32⟩
  | 65 => ⟨S256x256, .f32⟩
  | 66 => ⟨S8x2048x256, .f32⟩
  | 67 => ⟨S1x256, .f32⟩
  | 68 => ⟨S256, .f32⟩
  | 69 => ⟨S1x1x256, .f32⟩
  | 70 => ⟨S8x2048x256, .f32⟩
  | 71 => ⟨S8x2048x256, .f32⟩
  | 72 => ⟨S8x2048x256, .f32⟩
  | 73 => ⟨S8x2048x256, .f32⟩
  | 74 => ⟨S_, .f32⟩
  | 75 => ⟨S8x2048x256, .f32⟩
  | 76 => ⟨S8x2048x256, .f32⟩
  | 77 => ⟨S_, .f32⟩
  | 78 => ⟨S8x2048x256, .f32⟩
  | 79 => ⟨S8x2048x256, .f32⟩
  | 80 => ⟨S8x2048x256, .f32⟩
  | 81 => ⟨S8x2048x256, .f32⟩
  | 82 => ⟨S1x256x256, .f32⟩
  | 83 => ⟨S256x256, .f32⟩
  | 84 => ⟨S8x2048x256, .f32⟩
  | 85 => ⟨S1x256, .f32⟩
  | 86 => ⟨S256, .f32⟩
  | 87 => ⟨S1x1x256, .f32⟩
  | 88 => ⟨S8x2048x256, .f32⟩
  | 89 => ⟨S8x2048x256, .f32⟩
  | 90 => ⟨S8x2048x256, .f32⟩
  | 91 => ⟨S8x2048x256, .f32⟩
  | 92 => ⟨S_, .f32⟩
  | 93 => ⟨S8x2048x256, .f32⟩
  | 94 => ⟨S8x2048x256, .f32⟩
  | 95 => ⟨S_, .f32⟩
  | 96 => ⟨S8x2048x256, .f32⟩
  | 97 => ⟨S8x2048x256, .f32⟩
  | 98 => ⟨S8x2048x256, .f32⟩
  | 99 => ⟨S8x2048x256, .f32⟩
  | 100 => ⟨S1x256x256, .f32⟩
  | 101 => ⟨S256x256, .f32⟩
  | 102 => ⟨S8x2048x256, .f32⟩
  | 103 => ⟨S1x256, .f32⟩
  | 104 => ⟨S256, .f32⟩
  | 105 => ⟨S1x1x256, .f32⟩
  | 106 => ⟨S8x2048x256, .f32⟩
  | 107 => ⟨S8x2048x256, .f32⟩
  | 108 => ⟨S8x2048x256, .f32⟩
  | 109 => ⟨S8x2048x256, .f32⟩
  | 110 => ⟨S_, .f32⟩
  | 111 => ⟨S8x2048x256, .f32⟩
  | 112 => ⟨S8x2048x256, .f32⟩
  | 113 => ⟨S_, .f32⟩
  | 114 => ⟨S8x2048x256, .f32⟩
  | 115 => ⟨S8x2048x256, .f32⟩
  | 116 => ⟨S8x2048x256, .f32⟩
  | 117 => ⟨S8x2048x256, .f32⟩
  | 118 => ⟨S1x256x256, .f32⟩
  | 119 => ⟨S256x256, .f32⟩
  | 120 => ⟨S8x2048x256, .f32⟩
  | 121 => ⟨S1x256, .f32⟩
  | 122 => ⟨S256, .f32⟩
  | 123 => ⟨S1x1x256, .f32⟩
  | 124 => ⟨S8x2048x256, .f32⟩
  | 125 => ⟨S8x2048x256, .f32⟩
  | 126 => ⟨S8x2048x256, .f32⟩
  | 127 => ⟨S8x2048x256, .f32⟩
  | _ => ⟨S8x2048x256, .f32⟩

abbrev hbmTy0_1 (i : Nat) : BufTy := match i % 128 with
  | 0 => ⟨S_, .f32⟩
  | 1 => ⟨S8x2048x256, .f32⟩
  | 2 => ⟨S8x2048x256, .f32⟩
  | 3 => ⟨S_, .f32⟩
  | 4 => ⟨S8x2048x256, .f32⟩
  | 5 => ⟨S8x2048x256, .f32⟩
  | 6 => ⟨S8x2048x256, .f32⟩
  | 7 => ⟨S8x2048x1, .f32⟩
  | 8 => ⟨S8x2048x256, .f32⟩
  | 9 => ⟨S8x2048x256, .f32⟩
  | 10 => ⟨S8x2048x256, .f32⟩
  | 11 => ⟨S1x256x256, .f32⟩
  | 12 => ⟨S256x256, .f32⟩
  | 13 => ⟨S8x2048x256, .f32⟩
  | 14 => ⟨S1x256, .f32⟩
  | 15 => ⟨S256, .f32⟩
  | 16 => ⟨S1x1x256, .f32⟩
  | 17 => ⟨S8x2048x256, .f32⟩
  | 18 => ⟨S8x2048x256, .f32⟩
  | 19 => ⟨S8x2048x256, .f32⟩
  | 20 => ⟨S8x2048x256, .f32⟩
  | 21 => ⟨S_, .f32⟩
  | 22 => ⟨S8x2048x256, .f32⟩
  | 23 => ⟨S8x2048x256, .f32⟩
  | 24 => ⟨S_, .f32⟩
  | 25 => ⟨S8x2048x256, .f32⟩
  | 26 => ⟨S8x2048x256, .f32⟩
  | 27 => ⟨S8x2048x256, .f32⟩
  | 28 => ⟨S8x2048x256, .f32⟩
  | 29 => ⟨S1x256x256, .f32⟩
  | 30 => ⟨S256x256, .f32⟩
  | 31 => ⟨S8x2048x256, .f32⟩
  | 32 => ⟨S1x256, .f32⟩
  | 33 => ⟨S256, .f32⟩
  | 34 => ⟨S1x1x256, .f32⟩
  | 35 => ⟨S8x2048x256, .f32⟩
  | 36 => ⟨S8x2048x256, .f32⟩
  | 37 => ⟨S8x2048x256, .f32⟩
  | 38 => ⟨S8x2048x256, .f32⟩
  | 39 => ⟨S_, .f32⟩
  | 40 => ⟨S8x2048x256, .f32⟩
  | 41 => ⟨S8x2048x256, .f32⟩
  | 42 => ⟨S_, .f32⟩
  | 43 => ⟨S8x2048x256, .f32⟩
  | 44 => ⟨S8x2048x256, .f32⟩
  | 45 => ⟨S8x2048x256, .f32⟩
  | 46 => ⟨S8x2048x256, .f32⟩
  | 47 => ⟨S1x256x256, .f32⟩
  | 48 => ⟨S256x256, .f32⟩
  | 49 => ⟨S8x2048x256, .f32⟩
  | 50 => ⟨S1x256, .f32⟩
  | 51 => ⟨S256, .f32⟩
  | 52 => ⟨S1x1x256, .f32⟩
  | 53 => ⟨S8x2048x256, .f32⟩
  | 54 => ⟨S8x2048x256, .f32⟩
  | 55 => ⟨S8x2048x256, .f32⟩
  | 56 => ⟨S8x2048x256, .f32⟩
  | 57 => ⟨S_, .f32⟩
  | 58 => ⟨S8x2048x256, .f32⟩
  | 59 => ⟨S8x2048x256, .f32⟩
  | 60 => ⟨S_, .f32⟩
  | 61 => ⟨S8x2048x256, .f32⟩
  | 62 => ⟨S8x2048x256, .f32⟩
  | 63 => ⟨S8x2048x256, .f32⟩
  | 64 => ⟨S8x2048x256, .f32⟩
  | 65 => ⟨S1x256x256, .f32⟩
  | 66 => ⟨S256x256, .f32⟩
  | 67 => ⟨S8x2048x256, .f32⟩
  | 68 => ⟨S1x256, .f32⟩
  | 69 => ⟨S256, .f32⟩
  | 70 => ⟨S1x1x256, .f32⟩
  | 71 => ⟨S8x2048x256, .f32⟩
  | 72 => ⟨S8x2048x256, .f32⟩
  | 73 => ⟨S8x2048x256, .f32⟩
  | 74 => ⟨S8x2048x256, .f32⟩
  | 75 => ⟨S_, .f32⟩
  | 76 => ⟨S8x2048x256, .f32⟩
  | 77 => ⟨S8x2048x256, .f32⟩
  | 78 => ⟨S_, .f32⟩
  | 79 => ⟨S8x2048x256, .f32⟩
  | 80 => ⟨S8x2048x256, .f32⟩
  | 81 => ⟨S8x2048x256, .f32⟩
  | 82 => ⟨S8x2048x256, .f32⟩
  | 83 => ⟨S1x256x256, .f32⟩
  | 84 => ⟨S256x256, .f32⟩
  | 85 => ⟨S8x2048x256, .f32⟩
  | 86 => ⟨S1x256, .f32⟩
  | 87 => ⟨S256, .f32⟩
  | 88 => ⟨S1x1x256, .f32⟩
  | 89 => ⟨S8x2048x256, .f32⟩
  | 90 => ⟨S8x2048x256, .f32⟩
  | 91 => ⟨S8x2048x256, .f32⟩
  | 92 => ⟨S8x2048x256, .f32⟩
  | 93 => ⟨S_, .f32⟩
  | 94 => ⟨S8x2048x256, .f32⟩
  | 95 => ⟨S8x2048x256, .f32⟩
  | 96 => ⟨S_, .f32⟩
  | 97 => ⟨S8x2048x256, .f32⟩
  | 98 => ⟨S8x2048x256, .f32⟩
  | 99 => ⟨S8x2048x256, .f32⟩
  | 100 => ⟨S8x2048x256, .f32⟩
  | 101 => ⟨S1x256x256, .f32⟩
  | 102 => ⟨S256x256, .f32⟩
  | 103 => ⟨S8x2048x256, .f32⟩
  | 104 => ⟨S1x256, .f32⟩
  | 105 => ⟨S256, .f32⟩
  | 106 => ⟨S1x1x256, .f32⟩
  | 107 => ⟨S8x2048x256, .f32⟩
  | 108 => ⟨S8x2048x256, .f32⟩
  | 109 => ⟨S8x2048x256, .f32⟩
  | 110 => ⟨S8x2048x256, .f32⟩
  | 111 => ⟨S_, .f32⟩
  | 112 => ⟨S8x2048x256, .f32⟩
  | 113 => ⟨S8x2048x256, .f32⟩
  | 114 => ⟨S_, .f32⟩
  | 115 => ⟨S8x2048x256, .f32⟩
  | 116 => ⟨S8x2048x256, .f32⟩
  | 117 => ⟨S8x2048x256, .f32⟩
  | 118 => ⟨S8x2048x1, .f32⟩
  | 119 => ⟨S8x2048x256, .f32⟩
  | 120 => ⟨S8x2048x256, .f32⟩
  | 121 => ⟨S8x2048x256, .f32⟩
  | 122 => ⟨S1x256x256, .f32⟩
  | 123 => ⟨S256x256, .f32⟩
  | 124 => ⟨S8x2048x256, .f32⟩
  | 125 => ⟨S1x256, .f32⟩
  | 126 => ⟨S256, .f32⟩
  | 127 => ⟨S1x1x256, .f32⟩
  | _ => ⟨S8x2048x256, .f32⟩

abbrev hbmTy0_2 (i : Nat) : BufTy := match i % 128 with
  | 0 => ⟨S8x2048x256, .f32⟩
  | 1 => ⟨S8x2048x256, .f32⟩
  | 2 => ⟨S8x2048x256, .f32⟩
  | 3 => ⟨S8x2048x256, .f32⟩
  | 4 => ⟨S_, .f32⟩
  | 5 => ⟨S8x2048x256, .f32⟩
  | 6 => ⟨S8x2048x256, .f32⟩
  | 7 => ⟨S_, .f32⟩
  | 8 => ⟨S8x2048x256, .f32⟩
  | 9 => ⟨S8x2048x256, .f32⟩
  | 10 => ⟨S8x2048x256, .f32⟩
  | 11 => ⟨S8x2048x256, .f32⟩
  | 12 => ⟨S1x256x256, .f32⟩
  | 13 => ⟨S256x256, .f32⟩
  | 14 => ⟨S8x2048x256, .f32⟩
  | 15 => ⟨S1x256, .f32⟩
  | 16 => ⟨S256, .f32⟩
  | 17 => ⟨S1x1x256, .f32⟩
  | 18 => ⟨S8x2048x256, .f32⟩
  | 19 => ⟨S8x2048x256, .f32⟩
  | 20 => ⟨S8x2048x256, .f32⟩
  | 21 => ⟨S8x2048x256, .f32⟩
  | 22 => ⟨S_, .f32⟩
  | 23 => ⟨S8x2048x256, .f32⟩
  | 24 => ⟨S8x2048x256, .f32⟩
  | 25 => ⟨S_, .f32⟩
  | 26 => ⟨S8x2048x256, .f32⟩
  | 27 => ⟨S8x2048x256, .f32⟩
  | 28 => ⟨S8x2048x256, .f32⟩
  | 29 => ⟨S8x2048x256, .f32⟩
  | 30 => ⟨S1x256x256, .f32⟩
  | 31 => ⟨S256x256, .f32⟩
  | 32 => ⟨S8x2048x256, .f32⟩
  | 33 => ⟨S1x256, .f32⟩
  | 34 => ⟨S256, .f32⟩
  | 35 => ⟨S1x1x256, .f32⟩
  | 36 => ⟨S8x2048x256, .f32⟩
  | 37 => ⟨S8x2048x256, .f32⟩
  | 38 => ⟨S8x2048x256, .f32⟩
  | 39 => ⟨S8x2048x256, .f32⟩
  | 40 => ⟨S_, .f32⟩
  | 41 => ⟨S8x2048x256, .f32⟩
  | 42 => ⟨S8x2048x256, .f32⟩
  | 43 => ⟨S_, .f32⟩
  | 44 => ⟨S8x2048x256, .f32⟩
  | 45 => ⟨S8x2048x256, .f32⟩
  | 46 => ⟨S8x2048x256, .f32⟩
  | 47 => ⟨S8x2048x256, .f32⟩
  | 48 => ⟨S1x256x256, .f32⟩
  | 49 => ⟨S256x256, .f32⟩
  | 50 => ⟨S8x2048x256, .f32⟩
  | 51 => ⟨S1x256, .f32⟩
  | 52 => ⟨S256, .f32⟩
  | 53 => ⟨S1x1x256, .f32⟩
  | 54 => ⟨S8x2048x256, .f32⟩
  | 55 => ⟨S8x2048x256, .f32⟩
  | 56 => ⟨S8x2048x256, .f32⟩
  | 57 => ⟨S8x2048x256, .f32⟩
  | 58 => ⟨S_, .f32⟩
  | 59 => ⟨S8x2048x256, .f32⟩
  | 60 => ⟨S8x2048x256, .f32⟩
  | 61 => ⟨S_, .f32⟩
  | 62 => ⟨S8x2048x256, .f32⟩
  | 63 => ⟨S8x2048x256, .f32⟩
  | 64 => ⟨S8x2048x256, .f32⟩
  | 65 => ⟨S8x2048x256, .f32⟩
  | 66 => ⟨S1x256x256, .f32⟩
  | 67 => ⟨S256x256, .f32⟩
  | 68 => ⟨S8x2048x256, .f32⟩
  | 69 => ⟨S1x256, .f32⟩
  | 70 => ⟨S256, .f32⟩
  | 71 => ⟨S1x1x256, .f32⟩
  | 72 => ⟨S8x2048x256, .f32⟩
  | 73 => ⟨S8x2048x256, .f32⟩
  | 74 => ⟨S8x2048x256, .f32⟩
  | 75 => ⟨S8x2048x256, .f32⟩
  | 76 => ⟨S_, .f32⟩
  | 77 => ⟨S8x2048x256, .f32⟩
  | 78 => ⟨S8x2048x256, .f32⟩
  | 79 => ⟨S_, .f32⟩
  | 80 => ⟨S8x2048x256, .f32⟩
  | 81 => ⟨S8x2048x256, .f32⟩
  | 82 => ⟨S8x2048x256, .f32⟩
  | 83 => ⟨S8x2048x256, .f32⟩
  | 84 => ⟨S1x256x256, .f32⟩
  | 85 => ⟨S256x256, .f32⟩
  | 86 => ⟨S8x2048x256, .f32⟩
  | 87 => ⟨S1x256, .f32⟩
  | 88 => ⟨S256, .f32⟩
  | 89 => ⟨S1x1x256, .f32⟩
  | 90 => ⟨S8x2048x256, .f32⟩
  | 91 => ⟨S8x2048x256, .f32⟩
  | 92 => ⟨S8x2048x256, .f32⟩
  | 93 => ⟨S8x2048x256, .f32⟩
  | 94 => ⟨S_, .f32⟩
  | 95 => ⟨S8x2048x256, .f32⟩
  | 96 => ⟨S8x2048x256, .f32⟩
  | 97 => ⟨S_, .f32⟩
  | 98 => ⟨S8x2048x256, .f32⟩
  | 99 => ⟨S8x2048x256, .f32⟩
  | 100 => ⟨S8x2048x256, .f32⟩
  | 101 => ⟨S8x2048x1, .f32⟩
  | 102 => ⟨S8x2048x256, .f32⟩
  | 103 => ⟨S8x2048x256, .f32⟩
  | 104 => ⟨S8x2048x1, .f32⟩
  | 105 => ⟨S8x2048x256, .f32⟩
  | 106 => ⟨S8x2048x256, .f32⟩
  | 107 => ⟨S8x2048x256, .f32⟩
  | 108 => ⟨S8x2048x256, .f32⟩
  | 109 => ⟨S8x2048x256, .f32⟩
  | 110 => ⟨S_, .f32⟩
  | 111 => ⟨S8x2048x256, .f32⟩
  | 112 => ⟨S8x2048x256, .f32⟩
  | 113 => ⟨S_, .f32⟩
  | 114 => ⟨S8x2048x256, .f32⟩
  | 115 => ⟨S8x2048x256, .f32⟩
  | 116 => ⟨S8x2048x256, .f32⟩
  | 117 => ⟨S8x2048x256, .f32⟩
  | 118 => ⟨S8x2048x256, .f32⟩
  | 119 => ⟨S8x2048x256, .f32⟩
  | 120 => ⟨S8x2048x256, .f32⟩
  | 121 => ⟨S8x256x256, .f32⟩
  | 122 => ⟨S8x2048x256, .f32⟩
  | 123 => ⟨S8x2048x256, .f32⟩
  | 124 => ⟨S8x2048x256, .f32⟩
  | 125 => ⟨S1x1x256, .f32⟩
  | 126 => ⟨S8x2048x256, .f32⟩
  | 127 => ⟨S8x2048x256, .f32⟩
  | _ => ⟨S8x2048x256, .f32⟩

abbrev hbmTy0_3 (i : Nat) : BufTy := match i % 128 with
  | 0 => ⟨S1x1x256, .f32⟩
  | 1 => ⟨S8x2048x256, .f32⟩
  | 2 => ⟨S8x2048x256, .f32⟩
  | 3 => ⟨S_, .f32⟩
  | 4 => ⟨S256, .f32⟩
  | 5 => ⟨S256, .f32⟩
  | 6 => ⟨S256, .f32⟩
  | 7 => ⟨S1x1x256, .f32⟩
  | 8 => ⟨S8x2048x256, .f32⟩
  | 9 => ⟨S8x2048x256, .f32⟩
  | 10 => ⟨S1x1x256, .f32⟩
  | 11 => ⟨S8x2048x256, .f32⟩
  | 12 => ⟨S8x2048x256, .f32⟩
  | 13 => ⟨S8x2048x256, .f32⟩
  | 14 => ⟨S1x1x256, .f32⟩
  | 15 => ⟨S8x2048x256, .f32⟩
  | 16 => ⟨S8x2048x256, .f32⟩
  | 17 => ⟨S8x2048x256, .f32⟩
  | 18 => ⟨S8x2048x256, .f32⟩
  | 19 => ⟨S_, .f32⟩
  | 20 => ⟨S8x2048x256, .f32⟩
  | 21 => ⟨S8x2048x256, .f32⟩
  | 22 => ⟨S_, .f32⟩
  | 23 => ⟨S8x2048x256, .f32⟩
  | 24 => ⟨S8x2048x256, .f32⟩
  | 25 => ⟨S8x2048x256, .f32⟩
  | 26 => ⟨S8x2048x256, .f32⟩
  | 27 => ⟨S8x2048x256, .f32⟩
  | 28 => ⟨S1x1x256, .f32⟩
  | 29 => ⟨S8x2048x256, .f32⟩
  | 30 => ⟨S8x2048x256, .f32⟩
  | 31 => ⟨S8x2048x1, .f32⟩
  | 32 => ⟨S8x2048x256, .f32⟩
  | 33 => ⟨S8x2048x256, .f32⟩
  | _ => ⟨S8x2048x256, .f32⟩

abbrev hbmTy (i : Nat) : BufTy := match i / 128 with
  | 0 => hbmTy0_0 i
  | 1 => hbmTy0_1 i
  | 2 => hbmTy0_2 i
  | 3 => hbmTy0_3 i
  | _ => ⟨S8x2048x256, .f32⟩

abbrev bufTy : (tb : Table) → Fin (tcTables nBuf tb) → BufTy
  | .hbm, ⟨i, _⟩ => hbmTy i
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_call3_v0 : Ref sig .tc := ⟨.hbm, 90, rfl⟩
abbrev main_call3_v1 : Ref sig .tc := ⟨.hbm, 91, rfl⟩
abbrev main_call3_cst : Ref sig .tc := ⟨.hbm, 92, rfl⟩
abbrev main_call3_v2 : Ref sig .tc := ⟨.hbm, 93, rfl⟩
abbrev main_call3_v3 : Ref sig .tc := ⟨.hbm, 94, rfl⟩
abbrev main_call3_cst_0 : Ref sig .tc := ⟨.hbm, 95, rfl⟩
abbrev main_call3_v4 : Ref sig .tc := ⟨.hbm, 96, rfl⟩
abbrev main_call3_v5 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_call4_v0 : Ref sig .tc := ⟨.hbm, 108, rfl⟩
abbrev main_call4_v1 : Ref sig .tc := ⟨.hbm, 109, rfl⟩
abbrev main_call4_cst : Ref sig .tc := ⟨.hbm, 110, rfl⟩
abbrev main_call4_v2 : Ref sig .tc := ⟨.hbm, 111, rfl⟩
abbrev main_call4_v3 : Ref sig .tc := ⟨.hbm, 112, rfl⟩
abbrev main_call4_cst_0 : Ref sig .tc := ⟨.hbm, 113, rfl⟩
abbrev main_call4_v4 : Ref sig .tc := ⟨.hbm, 114, rfl⟩
abbrev main_call4_v5 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_call5_v0 : Ref sig .tc := ⟨.hbm, 126, rfl⟩
abbrev main_call5_v1 : Ref sig .tc := ⟨.hbm, 127, rfl⟩
abbrev main_call5_cst : Ref sig .tc := ⟨.hbm, 128, rfl⟩
abbrev main_call5_v2 : Ref sig .tc := ⟨.hbm, 129, rfl⟩
abbrev main_call5_v3 : Ref sig .tc := ⟨.hbm, 130, rfl⟩
abbrev main_call5_cst_0 : Ref sig .tc := ⟨.hbm, 131, rfl⟩
abbrev main_call5_v4 : Ref sig .tc := ⟨.hbm, 132, rfl⟩
abbrev main_call5_v5 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_call6_v0 : Ref sig .tc := ⟨.hbm, 147, rfl⟩
abbrev main_call6_v1 : Ref sig .tc := ⟨.hbm, 148, rfl⟩
abbrev main_call6_cst : Ref sig .tc := ⟨.hbm, 149, rfl⟩
abbrev main_call6_v2 : Ref sig .tc := ⟨.hbm, 150, rfl⟩
abbrev main_call6_v3 : Ref sig .tc := ⟨.hbm, 151, rfl⟩
abbrev main_call6_cst_0 : Ref sig .tc := ⟨.hbm, 152, rfl⟩
abbrev main_call6_v4 : Ref sig .tc := ⟨.hbm, 153, rfl⟩
abbrev main_call6_v5 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_call7_v0 : Ref sig .tc := ⟨.hbm, 165, rfl⟩
abbrev main_call7_v1 : Ref sig .tc := ⟨.hbm, 166, rfl⟩
abbrev main_call7_cst : Ref sig .tc := ⟨.hbm, 167, rfl⟩
abbrev main_call7_v2 : Ref sig .tc := ⟨.hbm, 168, rfl⟩
abbrev main_call7_v3 : Ref sig .tc := ⟨.hbm, 169, rfl⟩
abbrev main_call7_cst_0 : Ref sig .tc := ⟨.hbm, 170, rfl⟩
abbrev main_call7_v4 : Ref sig .tc := ⟨.hbm, 171, rfl⟩
abbrev main_call7_v5 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_call8_v0 : Ref sig .tc := ⟨.hbm, 183, rfl⟩
abbrev main_call8_v1 : Ref sig .tc := ⟨.hbm, 184, rfl⟩
abbrev main_call8_cst : Ref sig .tc := ⟨.hbm, 185, rfl⟩
abbrev main_call8_v2 : Ref sig .tc := ⟨.hbm, 186, rfl⟩
abbrev main_call8_v3 : Ref sig .tc := ⟨.hbm, 187, rfl⟩
abbrev main_call8_cst_0 : Ref sig .tc := ⟨.hbm, 188, rfl⟩
abbrev main_call8_v4 : Ref sig .tc := ⟨.hbm, 189, rfl⟩
abbrev main_call8_v5 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_call9_v0 : Ref sig .tc := ⟨.hbm, 201, rfl⟩
abbrev main_call9_v1 : Ref sig .tc := ⟨.hbm, 202, rfl⟩
abbrev main_call9_cst : Ref sig .tc := ⟨.hbm, 203, rfl⟩
abbrev main_call9_v2 : Ref sig .tc := ⟨.hbm, 204, rfl⟩
abbrev main_call9_v3 : Ref sig .tc := ⟨.hbm, 205, rfl⟩
abbrev main_call9_cst_0 : Ref sig .tc := ⟨.hbm, 206, rfl⟩
abbrev main_call9_v4 : Ref sig .tc := ⟨.hbm, 207, rfl⟩
abbrev main_call9_v5 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_call10_v0 : Ref sig .tc := ⟨.hbm, 219, rfl⟩
abbrev main_call10_v1 : Ref sig .tc := ⟨.hbm, 220, rfl⟩
abbrev main_call10_cst : Ref sig .tc := ⟨.hbm, 221, rfl⟩
abbrev main_call10_v2 : Ref sig .tc := ⟨.hbm, 222, rfl⟩
abbrev main_call10_v3 : Ref sig .tc := ⟨.hbm, 223, rfl⟩
abbrev main_call10_cst_0 : Ref sig .tc := ⟨.hbm, 224, rfl⟩
abbrev main_call10_v4 : Ref sig .tc := ⟨.hbm, 225, rfl⟩
abbrev main_call10_v5 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩
abbrev main_call11_v0 : Ref sig .tc := ⟨.hbm, 237, rfl⟩
abbrev main_call11_v1 : Ref sig .tc := ⟨.hbm, 238, rfl⟩
abbrev main_call11_cst : Ref sig .tc := ⟨.hbm, 239, rfl⟩
abbrev main_call11_v2 : Ref sig .tc := ⟨.hbm, 240, rfl⟩
abbrev main_call11_v3 : Ref sig .tc := ⟨.hbm, 241, rfl⟩
abbrev main_call11_cst_0 : Ref sig .tc := ⟨.hbm, 242, rfl⟩
abbrev main_call11_v4 : Ref sig .tc := ⟨.hbm, 243, rfl⟩
abbrev main_call11_v5 : Ref sig .tc := ⟨.hbm, 244, rfl⟩
abbrev main_v126 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_v131 : Ref sig .tc := ⟨.hbm, 250, rfl⟩
abbrev main_v132 : Ref sig .tc := ⟨.hbm, 251, rfl⟩
abbrev main_v133 : Ref sig .tc := ⟨.hbm, 252, rfl⟩
abbrev main_v134 : Ref sig .tc := ⟨.hbm, 253, rfl⟩
abbrev main_v135 : Ref sig .tc := ⟨.hbm, 254, rfl⟩
abbrev main_v136 : Ref sig .tc := ⟨.hbm, 255, rfl⟩
abbrev main_v137 : Ref sig .tc := ⟨.hbm, 256, rfl⟩
abbrev main_v138 : Ref sig .tc := ⟨.hbm, 257, rfl⟩
abbrev main_call12_v0 : Ref sig .tc := ⟨.hbm, 258, rfl⟩
abbrev main_call12_v1 : Ref sig .tc := ⟨.hbm, 259, rfl⟩
abbrev main_call12_cst : Ref sig .tc := ⟨.hbm, 260, rfl⟩
abbrev main_call12_v2 : Ref sig .tc := ⟨.hbm, 261, rfl⟩
abbrev main_call12_v3 : Ref sig .tc := ⟨.hbm, 262, rfl⟩
abbrev main_call12_cst_0 : Ref sig .tc := ⟨.hbm, 263, rfl⟩
abbrev main_call12_v4 : Ref sig .tc := ⟨.hbm, 264, rfl⟩
abbrev main_call12_v5 : Ref sig .tc := ⟨.hbm, 265, rfl⟩
abbrev main_v139 : Ref sig .tc := ⟨.hbm, 266, rfl⟩
abbrev main_v140 : Ref sig .tc := ⟨.hbm, 267, rfl⟩
abbrev main_v141 : Ref sig .tc := ⟨.hbm, 268, rfl⟩
abbrev main_v142 : Ref sig .tc := ⟨.hbm, 269, rfl⟩
abbrev main_v143 : Ref sig .tc := ⟨.hbm, 270, rfl⟩
abbrev main_v144 : Ref sig .tc := ⟨.hbm, 271, rfl⟩
abbrev main_v145 : Ref sig .tc := ⟨.hbm, 272, rfl⟩
abbrev main_v146 : Ref sig .tc := ⟨.hbm, 273, rfl⟩
abbrev main_v147 : Ref sig .tc := ⟨.hbm, 274, rfl⟩
abbrev main_v148 : Ref sig .tc := ⟨.hbm, 275, rfl⟩
abbrev main_call13_v0 : Ref sig .tc := ⟨.hbm, 276, rfl⟩
abbrev main_call13_v1 : Ref sig .tc := ⟨.hbm, 277, rfl⟩
abbrev main_call13_cst : Ref sig .tc := ⟨.hbm, 278, rfl⟩
abbrev main_call13_v2 : Ref sig .tc := ⟨.hbm, 279, rfl⟩
abbrev main_call13_v3 : Ref sig .tc := ⟨.hbm, 280, rfl⟩
abbrev main_call13_cst_0 : Ref sig .tc := ⟨.hbm, 281, rfl⟩
abbrev main_call13_v4 : Ref sig .tc := ⟨.hbm, 282, rfl⟩
abbrev main_call13_v5 : Ref sig .tc := ⟨.hbm, 283, rfl⟩
abbrev main_v149 : Ref sig .tc := ⟨.hbm, 284, rfl⟩
abbrev main_v150 : Ref sig .tc := ⟨.hbm, 285, rfl⟩
abbrev main_v151 : Ref sig .tc := ⟨.hbm, 286, rfl⟩
abbrev main_v152 : Ref sig .tc := ⟨.hbm, 287, rfl⟩
abbrev main_v153 : Ref sig .tc := ⟨.hbm, 288, rfl⟩
abbrev main_v154 : Ref sig .tc := ⟨.hbm, 289, rfl⟩
abbrev main_v155 : Ref sig .tc := ⟨.hbm, 290, rfl⟩
abbrev main_v156 : Ref sig .tc := ⟨.hbm, 291, rfl⟩
abbrev main_v157 : Ref sig .tc := ⟨.hbm, 292, rfl⟩
abbrev main_v158 : Ref sig .tc := ⟨.hbm, 293, rfl⟩
abbrev main_call14_v0 : Ref sig .tc := ⟨.hbm, 294, rfl⟩
abbrev main_call14_v1 : Ref sig .tc := ⟨.hbm, 295, rfl⟩
abbrev main_call14_cst : Ref sig .tc := ⟨.hbm, 296, rfl⟩
abbrev main_call14_v2 : Ref sig .tc := ⟨.hbm, 297, rfl⟩
abbrev main_call14_v3 : Ref sig .tc := ⟨.hbm, 298, rfl⟩
abbrev main_call14_cst_0 : Ref sig .tc := ⟨.hbm, 299, rfl⟩
abbrev main_call14_v4 : Ref sig .tc := ⟨.hbm, 300, rfl⟩
abbrev main_call14_v5 : Ref sig .tc := ⟨.hbm, 301, rfl⟩
abbrev main_v159 : Ref sig .tc := ⟨.hbm, 302, rfl⟩
abbrev main_v160 : Ref sig .tc := ⟨.hbm, 303, rfl⟩
abbrev main_v161 : Ref sig .tc := ⟨.hbm, 304, rfl⟩
abbrev main_v162 : Ref sig .tc := ⟨.hbm, 305, rfl⟩
abbrev main_v163 : Ref sig .tc := ⟨.hbm, 306, rfl⟩
abbrev main_v164 : Ref sig .tc := ⟨.hbm, 307, rfl⟩
abbrev main_v165 : Ref sig .tc := ⟨.hbm, 308, rfl⟩
abbrev main_v166 : Ref sig .tc := ⟨.hbm, 309, rfl⟩
abbrev main_v167 : Ref sig .tc := ⟨.hbm, 310, rfl⟩
abbrev main_v168 : Ref sig .tc := ⟨.hbm, 311, rfl⟩
abbrev main_call15_v0 : Ref sig .tc := ⟨.hbm, 312, rfl⟩
abbrev main_call15_v1 : Ref sig .tc := ⟨.hbm, 313, rfl⟩
abbrev main_call15_cst : Ref sig .tc := ⟨.hbm, 314, rfl⟩
abbrev main_call15_v2 : Ref sig .tc := ⟨.hbm, 315, rfl⟩
abbrev main_call15_v3 : Ref sig .tc := ⟨.hbm, 316, rfl⟩
abbrev main_call15_cst_0 : Ref sig .tc := ⟨.hbm, 317, rfl⟩
abbrev main_call15_v4 : Ref sig .tc := ⟨.hbm, 318, rfl⟩
abbrev main_call15_v5 : Ref sig .tc := ⟨.hbm, 319, rfl⟩
abbrev main_v169 : Ref sig .tc := ⟨.hbm, 320, rfl⟩
abbrev main_v170 : Ref sig .tc := ⟨.hbm, 321, rfl⟩
abbrev main_v171 : Ref sig .tc := ⟨.hbm, 322, rfl⟩
abbrev main_v172 : Ref sig .tc := ⟨.hbm, 323, rfl⟩
abbrev main_v173 : Ref sig .tc := ⟨.hbm, 324, rfl⟩
abbrev main_v174 : Ref sig .tc := ⟨.hbm, 325, rfl⟩
abbrev main_v175 : Ref sig .tc := ⟨.hbm, 326, rfl⟩
abbrev main_v176 : Ref sig .tc := ⟨.hbm, 327, rfl⟩
abbrev main_v177 : Ref sig .tc := ⟨.hbm, 328, rfl⟩
abbrev main_v178 : Ref sig .tc := ⟨.hbm, 329, rfl⟩
abbrev main_call16_v0 : Ref sig .tc := ⟨.hbm, 330, rfl⟩
abbrev main_call16_v1 : Ref sig .tc := ⟨.hbm, 331, rfl⟩
abbrev main_call16_cst : Ref sig .tc := ⟨.hbm, 332, rfl⟩
abbrev main_call16_v2 : Ref sig .tc := ⟨.hbm, 333, rfl⟩
abbrev main_call16_v3 : Ref sig .tc := ⟨.hbm, 334, rfl⟩
abbrev main_call16_cst_0 : Ref sig .tc := ⟨.hbm, 335, rfl⟩
abbrev main_call16_v4 : Ref sig .tc := ⟨.hbm, 336, rfl⟩
abbrev main_call16_v5 : Ref sig .tc := ⟨.hbm, 337, rfl⟩
abbrev main_v179 : Ref sig .tc := ⟨.hbm, 338, rfl⟩
abbrev main_v180 : Ref sig .tc := ⟨.hbm, 339, rfl⟩
abbrev main_v181 : Ref sig .tc := ⟨.hbm, 340, rfl⟩
abbrev main_v182 : Ref sig .tc := ⟨.hbm, 341, rfl⟩
abbrev main_v183 : Ref sig .tc := ⟨.hbm, 342, rfl⟩
abbrev main_v184 : Ref sig .tc := ⟨.hbm, 343, rfl⟩
abbrev main_v185 : Ref sig .tc := ⟨.hbm, 344, rfl⟩
abbrev main_v186 : Ref sig .tc := ⟨.hbm, 345, rfl⟩
abbrev main_v187 : Ref sig .tc := ⟨.hbm, 346, rfl⟩
abbrev main_v188 : Ref sig .tc := ⟨.hbm, 347, rfl⟩
abbrev main_call17_v0 : Ref sig .tc := ⟨.hbm, 348, rfl⟩
abbrev main_call17_v1 : Ref sig .tc := ⟨.hbm, 349, rfl⟩
abbrev main_call17_cst : Ref sig .tc := ⟨.hbm, 350, rfl⟩
abbrev main_call17_v2 : Ref sig .tc := ⟨.hbm, 351, rfl⟩
abbrev main_call17_v3 : Ref sig .tc := ⟨.hbm, 352, rfl⟩
abbrev main_call17_cst_0 : Ref sig .tc := ⟨.hbm, 353, rfl⟩
abbrev main_call17_v4 : Ref sig .tc := ⟨.hbm, 354, rfl⟩
abbrev main_call17_v5 : Ref sig .tc := ⟨.hbm, 355, rfl⟩
abbrev main_v189 : Ref sig .tc := ⟨.hbm, 356, rfl⟩
abbrev main_v190 : Ref sig .tc := ⟨.hbm, 357, rfl⟩
abbrev main_v191 : Ref sig .tc := ⟨.hbm, 358, rfl⟩
abbrev main_v192 : Ref sig .tc := ⟨.hbm, 359, rfl⟩
abbrev main_v193 : Ref sig .tc := ⟨.hbm, 360, rfl⟩
abbrev main_v194 : Ref sig .tc := ⟨.hbm, 361, rfl⟩
abbrev main_v195 : Ref sig .tc := ⟨.hbm, 362, rfl⟩
abbrev main_v196 : Ref sig .tc := ⟨.hbm, 363, rfl⟩
abbrev main_call18_v0 : Ref sig .tc := ⟨.hbm, 364, rfl⟩
abbrev main_call18_v1 : Ref sig .tc := ⟨.hbm, 365, rfl⟩
abbrev main_call18_cst : Ref sig .tc := ⟨.hbm, 366, rfl⟩
abbrev main_call18_v2 : Ref sig .tc := ⟨.hbm, 367, rfl⟩
abbrev main_call18_v3 : Ref sig .tc := ⟨.hbm, 368, rfl⟩
abbrev main_call18_cst_0 : Ref sig .tc := ⟨.hbm, 369, rfl⟩
abbrev main_call18_v4 : Ref sig .tc := ⟨.hbm, 370, rfl⟩
abbrev main_call18_v5 : Ref sig .tc := ⟨.hbm, 371, rfl⟩
abbrev main_v197 : Ref sig .tc := ⟨.hbm, 372, rfl⟩
abbrev main_v198 : Ref sig .tc := ⟨.hbm, 373, rfl⟩
abbrev main_v199 : Ref sig .tc := ⟨.hbm, 374, rfl⟩
abbrev main_v200 : Ref sig .tc := ⟨.hbm, 375, rfl⟩
abbrev main_v201 : Ref sig .tc := ⟨.hbm, 376, rfl⟩
abbrev main_v202 : Ref sig .tc := ⟨.hbm, 377, rfl⟩
abbrev main_v203 : Ref sig .tc := ⟨.hbm, 378, rfl⟩
abbrev main_v204 : Ref sig .tc := ⟨.hbm, 379, rfl⟩
abbrev main_v205 : Ref sig .tc := ⟨.hbm, 380, rfl⟩
abbrev main_v206 : Ref sig .tc := ⟨.hbm, 381, rfl⟩
abbrev main_v207 : Ref sig .tc := ⟨.hbm, 382, rfl⟩
abbrev main_v208 : Ref sig .tc := ⟨.hbm, 383, rfl⟩
abbrev main_v209 : Ref sig .tc := ⟨.hbm, 384, rfl⟩
abbrev main_v210 : Ref sig .tc := ⟨.hbm, 385, rfl⟩
abbrev main_v211 : Ref sig .tc := ⟨.hbm, 386, rfl⟩
abbrev main_cst : Ref sig .tc := ⟨.hbm, 387, rfl⟩
abbrev main_v212 : Ref sig .tc := ⟨.hbm, 388, rfl⟩
abbrev main_v213 : Ref sig .tc := ⟨.hbm, 389, rfl⟩
abbrev main_v214 : Ref sig .tc := ⟨.hbm, 390, rfl⟩
abbrev main_v215 : Ref sig .tc := ⟨.hbm, 391, rfl⟩
abbrev main_v216 : Ref sig .tc := ⟨.hbm, 392, rfl⟩
abbrev main_v217 : Ref sig .tc := ⟨.hbm, 393, rfl⟩
abbrev main_v218 : Ref sig .tc := ⟨.hbm, 394, rfl⟩
abbrev main_v219 : Ref sig .tc := ⟨.hbm, 395, rfl⟩
abbrev main_v220 : Ref sig .tc := ⟨.hbm, 396, rfl⟩
abbrev main_v221 : Ref sig .tc := ⟨.hbm, 397, rfl⟩
abbrev main_v222 : Ref sig .tc := ⟨.hbm, 398, rfl⟩
abbrev main_v223 : Ref sig .tc := ⟨.hbm, 399, rfl⟩
abbrev main_v224 : Ref sig .tc := ⟨.hbm, 400, rfl⟩
abbrev main_call19_v0 : Ref sig .tc := ⟨.hbm, 401, rfl⟩
abbrev main_call19_v1 : Ref sig .tc := ⟨.hbm, 402, rfl⟩
abbrev main_call19_cst : Ref sig .tc := ⟨.hbm, 403, rfl⟩
abbrev main_call19_v2 : Ref sig .tc := ⟨.hbm, 404, rfl⟩
abbrev main_call19_v3 : Ref sig .tc := ⟨.hbm, 405, rfl⟩
abbrev main_call19_cst_0 : Ref sig .tc := ⟨.hbm, 406, rfl⟩
abbrev main_call19_v4 : Ref sig .tc := ⟨.hbm, 407, rfl⟩
abbrev main_call19_v5 : Ref sig .tc := ⟨.hbm, 408, rfl⟩
abbrev main_v225 : Ref sig .tc := ⟨.hbm, 409, rfl⟩
abbrev main_v226 : Ref sig .tc := ⟨.hbm, 410, rfl⟩
abbrev main_v227 : Ref sig .tc := ⟨.hbm, 411, rfl⟩
abbrev main_v228 : Ref sig .tc := ⟨.hbm, 412, rfl⟩
abbrev main_v229 : Ref sig .tc := ⟨.hbm, 413, rfl⟩
abbrev main_v230 : Ref sig .tc := ⟨.hbm, 414, rfl⟩
abbrev main_v231 : Ref sig .tc := ⟨.hbm, 415, rfl⟩
abbrev main_v232 : Ref sig .tc := ⟨.hbm, 416, rfl⟩
abbrev main_v233 : Ref sig .tc := ⟨.hbm, 417, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S_S8x2048x256 : S_.BroadcastsInDim S8x2048x256 (![] : Fin 0 → Fin S8x2048x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S8x2048_S8x2048x1_0_1 : S8x2048.BroadcastsInDim S8x2048x1 (![0, 1] : Fin 2 → Fin S8x2048x1.rank)
  bcast_S8x2048x1_S8x2048x256_0_1_2 : S8x2048x1.BroadcastsInDim S8x2048x256 (![0, 1, 2] : Fin 3 → Fin S8x2048x256.rank)
  bcast_S_S256 : S_.BroadcastsInDim S256 (![] : Fin 0 → Fin S256.rank)
  dot_S8x2048x256_S256x256_S8x2048x256_2_0_01_1_n_n_wf : DotDims.WF S8x2048x256 S256x256 S8x2048x256 [2] [0] [0, 1] [1] [] []
  dot_S8x2048x2048_S8x2048x256_S8x2048x256_2_1_1_2_0_0_wf : DotDims.WF S8x2048x2048 S8x2048x256 S8x2048x256 [2] [1] [1] [2] [0] [0]
  dot_S8x2048x256_S8x2048x256_S8x256x256_1_1_2_2_0_0_wf : DotDims.WF S8x2048x256 S8x2048x256 S8x256x256 [1] [1] [2] [2] [0] [0]
  dot_S8x2048x256_S8x256x256_S8x2048x256_2_1_1_2_0_0_wf : DotDims.WF S8x2048x256 S8x256x256 S8x2048x256 [2] [1] [1] [2] [0] [0]

variable [Facts₀]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf
def dot_S8x2048x256_S8x2048x256_S8x256x256_1_1_2_2_0_0 : DotDims S8x2048x256 S8x2048x256 S8x256x256 where
  lhsContracting := [1]
  rhsContracting := [1]
  lhsNonContracting := [2]
  rhsNonContracting := [2]
  lhsBatch := [0]
  rhsBatch := [0]
  wf := dot_S8x2048x256_S8x2048x256_S8x256x256_1_1_2_2_0_0_wf
def dot_S8x2048x256_S8x256x256_S8x2048x256_2_1_1_2_0_0 : DotDims S8x2048x256 S8x256x256 S8x2048x256 where
  lhsContracting := [2]
  rhsContracting := [1]
  lhsNonContracting := [1]
  rhsNonContracting := [2]
  lhsBatch := [0]
  rhsBatch := [0]
  wf := dot_S8x2048x256_S8x256x256_S8x2048x256_2_1_1_2_0_0_wf

class Facts : Prop extends Facts₀ where

variable [Facts]
-- ==== Proof.Layers.lean ====
/-
  The mathematics of one graph-attention block on a single sample, as functions on matrices of extended reals.

  A sample has N nodes with U features each.  With A the N×N adjacency, a message-passing step sends X to
  silu ((A · X) · W + b); three weight slabs are each applied twice, and the result is multiplied row by row
  by the node mask.  Three such stacks (queries, keys, values) start from the same h = x · W_lin + b_lin.
  Linear attention contracts keys against values over the NODES first, kv = silu(k W_k ∘ mask)ᵀ · (v W_v ∘ mask),
  a U×U matrix, and then multiplies (q W_q) · kv · W_o.  The residual sum attn + x is normalised feature by
  feature with fixed statistics, projected through a silu layer, added to a linear image of x, and masked.

  Everything here is over abstract finite index types, with the extended reals' own + and ·: the two programs
  compute these layers entry for entry, so no law beyond commutativity and associativity of + is needed, and
  none of them asks the entries to be finite.
-/
import Idealize.ShloMosaic.PureOps.Ideal

noncomputable section

open scoped BigOperators

namespace Cert.Layers

open Idealize.ShloMosaic

/-- An M×N matrix of extended reals. -/
abbrev Mat (M N : ℕ) := Fin M → Fin N → EReal

variable {M K N U : ℕ}

/-- The matrix product A · B. -/
def mm (A : Mat M K) (B : Mat K N) : Mat M N := fun p q => ∑ l : Fin K, A p l * B l q

/-- The product Aᵀ · B: entry (a, b) pairs column a of A with column b of B. -/
def mmT (A : Mat K M) (B : Mat K N) : Mat M N := fun a b => ∑ c : Fin K, A c a * B c b

/-- Entrywise sum, difference and product. -/
def add (X Y : Mat M N) : Mat M N := fun p q => X p q + Y p q
def sub (X Y : Mat M N) : Mat M N := fun p q => X p q - Y p q
def mul (X Y : Mat M N) : Mat M N := fun p q => X p q * Y p q

/-- A vector of length N repeated in every row; a vector of length M repeated in every column. -/
def rowB (v : Fin N → EReal) : Mat M N := fun _ q => v q
def colB (c : Fin M → EReal) : Mat M N := fun p _ => c p

/-- silu, entry by entry: t · 1/(1 + e^(-t)). -/
def silu (X : Mat M N) : Mat M N := fun p q => X p q * Ideal.logistic (X p q)

/-- The reciprocal square root of a shifted vector, entry by entry. -/
def rsqrtShift (v : Fin N → EReal) (ε : EReal) : Fin N → EReal := fun d => Ideal.rsqrt (v d + ε)

/-- One message-passing step: silu ((A · X) · W + b). -/
def step (A : Mat N N) (W : Mat U U) (b : Fin U → EReal) (X : Mat N U) : Mat N U :=
  silu (add (mm (mm A X) W) (rowB b))

/-- Three weight slabs, each applied twice, then the node mask. -/
def stack (A : Mat N N) (Ws : Fin 3 → Mat U U) (bs : Fin 3 → Fin U → EReal) (mask : Fin N → EReal) (h : Mat N U) :
    Mat N U :=
  mul (step A (Ws 2) (bs 2) (step A (Ws 2) (bs 2) (step A (Ws 1) (bs 1) (step A (Ws 1) (bs 1)
    (step A (Ws 0) (bs 0) (step A (Ws 0) (bs 0) h)))))) (colB mask)

/-- Linear attention: (q W_q) · (silu (k W_k ∘ mask)ᵀ · (v W_v ∘ mask)) · W_o. -/
def attention (q k v : Mat N U) (mask : Fin N → EReal) (Wk Wv Wq Wo : Mat U U) : Mat N U :=
  mm (mm (mm q Wq) (mmT (silu (mul (mm k Wk) (colB mask))) (mul (mm v Wv) (colB mask)))) Wo

/-- Normalisation with fixed statistics: γ · (y - mean) · rsqrt (var + ε) + β, feature by feature. -/
def normalise (y : Mat N U) (γ β mean var : Fin U → EReal) (ε : EReal) : Mat N U :=
  add (mul (mul (rowB γ) (sub y (rowB mean))) (rowB (rsqrtShift var ε))) (rowB β)

/-- The whole block on one sample. -/
def block (x : Mat N U) (A : Mat N N) (mask : Fin N → EReal) (Wlin : Mat U U) (blin : Fin U → EReal)
    (Wq : Fin 3 → Mat U U) (bq : Fin 3 → Fin U → EReal) (Wk : Fin 3 → Mat U U) (bk : Fin 3 → Fin U → EReal)
    (Wv : Fin 3 → Mat U U) (bv : Fin 3 → Fin U → EReal) (Wka Wva Wqa Woa : Mat U U)
    (γ β mean var : Fin U → EReal) (Wproj : Mat U U) (bproj : Fin U → EReal) (Wres : Mat U U) (bres : Fin U → EReal)
    (ε : EReal) : Mat N U :=
  mul (add
      (silu (add (mm (normalise (add
        (attention (stack A Wq bq mask (add (mm x Wlin) (rowB blin))) (stack A Wk bk mask (add (mm x Wlin) (rowB blin)))
          (stack A Wv bv mask (add (mm x Wlin) (rowB blin))) mask Wka Wva Wqa Woa) x) γ β mean var ε) Wproj) (rowB bproj)))
      (add (mm x Wres) (rowB bres)))
    (colB mask)

/-- The last sum may be associated either way: (s + r) + b = s + (r + b), entry by entry. -/
theorem add_add_rowB (S R : Mat M N) (b : Fin N → EReal) : add (add S R) (rowB b) = add S (add R (rowB b)) := by
  funext p q
  exact add_assoc _ _ _

end Cert.Layers

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Views.lean ====
/-
  Arrays read as matrices.

  A rank-2 array is a matrix; one slab of a rank-3 array is a matrix; a rank-1 array, one row of a rank-2 array, or
  the single column of a [m, a, 1] array, is a vector.  Read this way, each array operation the two programs use is
  one of the layer operations: a product into the zero accumulator is the matrix product, a row or a column
  repeated is the corresponding constant-along-an-axis matrix, entrywise arithmetic is entrywise arithmetic, and a
  change of number format or a cast that only adds or drops a unit axis changes nothing.
-/
import Idealize.ShloMosaic.Lib.ValueIdx
import Idealize.ShloMosaic.Lib.ValueLayout
import Idealize.ShloMosaic.Lib.Pipeline.Value
import Idealize.ShloMosaic.PureOps.Ideal.Laws
import proofs.«111816_j43181601194857_2_alg».proof.Proof.Layers
import proofs.«111816_j43181601194857_2_alg».proof.Proof.LibColumn

noncomputable section

open scoped BigOperators

namespace Cert.Views

open Idealize.ShloMosaic Idealize.ShloMosaic.ValueIdx Cert.Layers

variable {a b m : ℕ} {φ ψ : FTy}

/-- A rank-2 array as a matrix. -/
def mat (X : (⟨2, ![a, b]⟩ : Shape).Idx → EReal) : Mat a b := fun p q => X (ix2 p q)

/-- Slab j of a rank-3 array as a matrix. -/
def slab (X : (⟨3, ![m, a, b]⟩ : Shape).Idx → EReal) (j : Fin m) : Mat a b := fun p q => X (ix3 j p q)

/-- A rank-1 array as a vector. -/
def vec (v : (⟨1, ![a]⟩ : Shape).Idx → EReal) : Fin a → EReal := fun d => v (ix1 d)

/-- Row j of a rank-2 array as a vector. -/
def rowOf (X : (⟨2, ![m, a]⟩ : Shape).Idx → EReal) (j : Fin m) : Fin a → EReal := fun d => X (ix2 j d)

/-- The column of slab j of a [m, a, 1] array as a vector. -/
def colOf (X : (⟨3, ![m, a, 1]⟩ : Shape).Idx → EReal) (j : Fin m) : Fin a → EReal := fun n => X (ix3 j n (0 : Fin 1))

/-- A rank-2 array is determined by its matrix. -/
theorem eq_of_mat {X Y : (⟨2, ![a, b]⟩ : Shape).Idx → EReal} (h : mat X = mat Y) : X = Y := by
  funext i
  rw [eq_ix2 i]
  exact congrFun (congrFun h (i 0)) (i 1)

/-- A rank-3 array is determined by its slabs. -/
theorem eq_of_slab {X Y : (⟨3, ![m, a, b]⟩ : Shape).Idx → EReal} (h : ∀ j, slab X j = slab Y j) : X = Y := by
  funext i
  rw [eq_ix3 i]
  exact congrFun (congrFun (h (i 0)) (i 1)) (i 2)

/-! ## Entrywise operations -/

theorem mat_addf (X Y : FVec Ideal ⟨2, ![a, b]⟩ φ) : mat (addf X Y) = add (mat X) (mat Y) := rfl
theorem mat_subf (X Y : FVec Ideal ⟨2, ![a, b]⟩ φ) : mat (subf X Y) = sub (mat X) (mat Y) := rfl
theorem mat_mulf (X Y : FVec Ideal ⟨2, ![a, b]⟩ φ) : mat (mulf X Y) = mul (mat X) (mat Y) := rfl

/-- t · logistic t is silu. -/
theorem mat_silu (X : FVec Ideal ⟨2, ![a, b]⟩ φ) : mat (mulf X (logistic X)) = silu (mat X) := rfl

/-- The logistic function entry by entry; t · logistic t is silu t. -/
def lgs (X : Mat a b) : Mat a b := fun p q => Ideal.logistic (X p q)
theorem mat_logistic (X : FVec Ideal ⟨2, ![a, b]⟩ φ) : mat (logistic X) = lgs (mat X) := rfl
theorem mul_lgs (X : Mat a b) : mul X (lgs X) = silu X := rfl

/-- Rounding to a narrower format is the identity on exact values. -/
theorem mat_truncf (X : FVec Ideal ⟨2, ![a, b]⟩ φ) (h : ψ.bits < φ.bits) :
    mat (truncf ψ X h : FVec Ideal ⟨2, ![a, b]⟩ ψ) = mat X := rfl

theorem slab_addf (X Y : FVec Ideal ⟨3, ![m, a, b]⟩ φ) (j : Fin m) : slab (addf X Y) j = add (slab X j) (slab Y j) := rfl
theorem slab_subf (X Y : FVec Ideal ⟨3, ![m, a, b]⟩ φ) (j : Fin m) : slab (subf X Y) j = sub (slab X j) (slab Y j) := rfl
theorem slab_mulf (X Y : FVec Ideal ⟨3, ![m, a, b]⟩ φ) (j : Fin m) : slab (mulf X Y) j = mul (slab X j) (slab Y j) := rfl

/-! ## Casts that add or drop a leading unit axis, and the identity cast -/

theorem mat_dropUnit (x : (⟨3, ![1, a, b]⟩ : Shape).Idx → EReal) (h : (⟨3, ![1, a, b]⟩ : Shape).ShapeCasts ⟨2, ![a, b]⟩) :
    mat (shapeCast ⟨2, ![a, b]⟩ x h) = slab x 0 :=
  funext fun p => funext fun q => shapeCast_1ab_ab_apply x h p q

theorem slab_addUnit (x : (⟨2, ![a, b]⟩ : Shape).Idx → EReal) (h : (⟨2, ![a, b]⟩ : Shape).ShapeCasts ⟨3, ![1, a, b]⟩)
    (u : Fin 1) : slab (shapeCast ⟨3, ![1, a, b]⟩ x h) u = mat x :=
  funext fun p => funext fun q => shapeCast_ab_1ab_apply x h u p q

theorem mat_castSelf (x : (⟨2, ![a, b]⟩ : Shape).Idx → EReal) (h : (⟨2, ![a, b]⟩ : Shape).ShapeCasts ⟨2, ![a, b]⟩) :
    mat (shapeCast ⟨2, ![a, b]⟩ x h) = mat x := by rw [shapeCast_self]

theorem vec_dropUnit (x : (⟨2, ![1, a]⟩ : Shape).Idx → EReal) (h : (⟨2, ![1, a]⟩ : Shape).ShapeCasts ⟨1, ![a]⟩) :
    vec (shapeCast ⟨1, ![a]⟩ x h) = rowOf x 0 :=
  funext fun d => shapeCast_1a_a_apply x h d

/-! ## A row repeated along rows, a column repeated along columns -/

/-- The column of an [a, 1] array as a vector. -/
def colV (c : (⟨2, ![a, 1]⟩ : Shape).Idx → EReal) : Fin a → EReal := fun p => c (ix2 p (0 : Fin 1))

/-- A [1, b] array repeated in every row. -/
theorem mat_rowRepeat (r : (⟨2, ![1, b]⟩ : Shape).Idx → EReal) (h : (⟨2, ![1, b]⟩ : Shape).Broadcasts ⟨2, ![a, b]⟩) :
    mat (broadcastTo ⟨2, ![a, b]⟩ r h) = rowB (rowOf r 0) :=
  funext fun p => funext fun q => broadcastTo_1b_ab_apply r h p q

/-- A length-b vector cast to [1, b]: its one row is the vector. -/
theorem rowOf_addUnit (v : (⟨1, ![b]⟩ : Shape).Idx → EReal) (h : (⟨1, ![b]⟩ : Shape).ShapeCasts ⟨2, ![1, b]⟩) (u : Fin 1) :
    rowOf (shapeCast ⟨2, ![1, b]⟩ v h) u = vec v :=
  funext fun d => shapeCast_a_1a_apply v h u d

/-- An [a, 1] column repeated in every column. -/
theorem mat_colRepeat (c : (⟨2, ![a, 1]⟩ : Shape).Idx → EReal) (h : (⟨2, ![a, 1]⟩ : Shape).Broadcasts ⟨2, ![a, b]⟩) :
    mat (broadcastTo ⟨2, ![a, b]⟩ c h) = colB (colV c) :=
  funext fun p => funext fun q => Cert.LibColumn.broadcastTo_a1_ab_apply c h p q

/-- A [1, a, 1] array cast to [a, 1]: the same column. -/
theorem colV_dropUnit (x : (⟨3, ![1, a, 1]⟩ : Shape).Idx → EReal) (h : (⟨3, ![1, a, 1]⟩ : Shape).ShapeCasts ⟨2, ![a, 1]⟩) :
    colV (shapeCast ⟨2, ![a, 1]⟩ x h) = colOf x 0 :=
  funext fun p => shapeCast_1ab_ab_apply x h p (0 : Fin 1)

/-! ## Vectors -/

/-- The reciprocal square root of a vector shifted by a splatted scalar. -/
theorem vec_rsqrt_shift (v : FVec Ideal ⟨1, ![a]⟩ φ) (c : Ideal φ) :
    vec (rsqrt (addf v (broadcast ⟨1, ![a]⟩ c))) = rsqrtShift (vec v) c := rfl

end Cert.Views

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibMatmulTN.lean ====
/-
  The product Aᵀ · B of a k × m and a k × n matrix — a matrix unit's product whose dimension numbers contract the
  FIRST axis of both operands and keep no batch axis — accumulated into the zero matrix, read at (a, b), is the
  inner product of column a of A with column b of B:  Σ_{c < k} A[c, a] · B[c, b].
-/
import Idealize.ShloMosaic.PureOps.Ideal
import Idealize.ShloMosaic.PureOps.Ideal.Laws
import Idealize.ShloMosaic.Lib.ValueIdx

noncomputable section

open scoped BigOperators

namespace Cert.LibMatmulTN

open Idealize.ShloMosaic Idealize.ShloMosaic.ValueIdx

/-- `Aᵀ · B` into the zero accumulator, read at `(a, b)`: the inner product of the two columns. `w` is the record's
    well-formedness, which a program states. -/
theorem matmul_tn_zero_apply {m n k : ℕ} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    matmul (⟨[0], [0], [1], [1], [], [], w⟩ : DotDims _ _ _) prec A B (constant ⟨2, ![m, n]⟩ .f32 0x00000000#32) (ix2 a b)
      = ∑ c : Fin k, A (ix2 c a) * B (ix2 c b) := by
  show FloatOps.matmul _ prec A B _ (ix2 a b) = _
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulTN

end
-- ==== Proof.KernelOps.lean ====
/-
  The kernel's three matrix products, into the zero accumulator, as matrix products: features times a U×U weight,
  the N×N adjacency times features, and keys-transposed times values (contracting the node axis of both).
-/
import proofs.«111816_j43181601194857_2_alg».proof.Proof.Gen.KernelIdeal.Skeleton
import proofs.«111816_j43181601194857_2_alg».proof.Proof.Views
import proofs.«111816_j43181601194857_2_alg».proof.Proof.LibPlainDot
import proofs.«111816_j43181601194857_2_alg».proof.Proof.LibMatmulTN

noncomputable section

namespace Cert.KernelOps

open Cert.KernelIdeal Cert.KernelIdeal.Gen
open Idealize.ShloMosaic Idealize.ShloMosaic.ValueIdx Cert.Layers Cert.Views

variable {φ₁ φ₂ : FTy}

theorem mat_matmulFeat (prec : Option ContractPrecision) (A : FVec Ideal S2048x256 φ₁) (W : FVec Ideal S256x256 φ₂) :
    mat (matmul dot_S2048x256_S256x256_S2048x256_1_0_0_1_n_n prec A W (constant S2048x256 .f32 0x00000000#32))
      = mm (mat A) (mat W) :=
  funext fun p => funext fun q => Cert.LibPlainDot.matmul_zero_apply prec A W p q

theorem mat_matmulAdj (prec : Option ContractPrecision) (A : FVec Ideal S2048x2048 φ₁) (X : FVec Ideal S2048x256 φ₂) :
    mat (matmul dot_S2048x2048_S2048x256_S2048x256_1_0_0_1_n_n prec A X (constant S2048x256 .f32 0x00000000#32))
      = mm (mat A) (mat X) :=
  funext fun p => funext fun q => Cert.LibPlainDot.matmul_zero_apply prec A X p q

theorem mat_matmulKV (prec : Option ContractPrecision) (P : FVec Ideal S2048x256 φ₁) (V : FVec Ideal S2048x256 φ₂) :
    mat (matmul dot_S2048x256_S2048x256_S256x256_0_0_1_1_n_n prec P V (constant S256x256 .f32 0x00000000#32))
      = mmT (mat P) (mat V) :=
  funext fun p => funext fun q =>
    Cert.LibMatmulTN.matmul_tn_zero_apply dot_S2048x256_S2048x256_S256x256_0_0_1_1_n_n.wf prec P V p q

end Cert.KernelOps

end
-- ==== Proof.KernelPayloads.lean ====
/-
  Each pure value the kernel body computes between its loads and stores, as layers.

  The body reads the sample's feature block, adjacency block and mask column and the weights; it runs the three
  message-passing stacks (parking each result in a scratch buffer and reading it back), the attention, the
  normalisation and the two output layers.  The statements below follow that order; a value is described as a
  function of the earlier values it uses, so that the pieces compose by substitution.
-/
import proofs.«111816_j43181601194857_2_alg».proof.Proof.KernelOps

noncomputable section

namespace Cert.KernelPayloads

open Cert.KernelIdeal Cert.KernelIdeal.Gen
open Idealize.ShloMosaic Idealize.ShloMosaic.ValueIdx Cert.Layers Cert.Views Cert.KernelOps

/-- The value the kernel adds to the variance before the reciprocal square root. -/
abbrev eps : EReal := Ideal.ofBits .f32 0x3A83126F#32

/-! ## Loads re-laid: a leading unit axis dropped, a format changed -/

theorem pay1 (v343 : FVec Ideal S2048x256 .f32) (u : Fin 1) :
    slab (k0_pay1 (F := Ideal) v343) u = mat v343 := by
  unfold k0_pay1
  simp only [slab_addUnit, step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay2 (v0 : Vec Ideal S1x2048x1 .f32) :
    colV (k0_pay2 (F := Ideal) v0) = colOf v0 0 := by
  unfold k0_pay2
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay4 (v15 : Vec Ideal S1x256 .f32) :
    vec (k0_pay4 (F := Ideal) v15) = rowOf v15 0 := by
  unfold k0_pay4
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay7 (v66 : Vec Ideal S1x256x256 .f32) :
    mat (k0_pay7 (F := Ideal) v66) = slab v66 0 := by
  unfold k0_pay7
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay8 (v69 : Vec Ideal S1x256 .f32) :
    vec (k0_pay8 (F := Ideal) v69) = rowOf v69 0 := by
  unfold k0_pay8
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay10 (v99 : Vec Ideal S1x256x256 .f32) :
    mat (k0_pay10 (F := Ideal) v99) = slab v99 0 := by
  unfold k0_pay10
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay11 (v102 : Vec Ideal S1x256 .f32) :
    vec (k0_pay11 (F := Ideal) v102) = rowOf v102 0 := by
  unfold k0_pay11
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay13 (v102 : Vec Ideal S1x256 .f32) (u : Fin 1) :
    rowOf (k0_pay13 (F := Ideal) v102) u = rowOf v102 0 := by
  unfold k0_pay13
  simp only [pay11, step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay16 (v186 : Vec Ideal S1x256x256 .f32) :
    mat (k0_pay16 (F := Ideal) v186) = slab v186 0 := by
  unfold k0_pay16
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay17 (v213 : Vec Ideal S1x256x256 .f32) :
    mat (k0_pay17 (F := Ideal) v213) = slab v213 0 := by
  unfold k0_pay17
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay18 (v216 : Vec Ideal S1x256 .f32) :
    vec (k0_pay18 (F := Ideal) v216) = rowOf v216 0 := by
  unfold k0_pay18
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay22 (v1 : FVec Ideal S2048x1 .f32) :
    mat (k0_pay22 (F := Ideal) v1) = colB (colV v1) := by
  unfold k0_pay22
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

/-! ## The input layer and the query stack -/

theorem pay3 (v2 : Vec Ideal S256x256 .f32) (v4 : Vec Ideal S256 .f32) (v5 : Vec Ideal S1x2048x256 .f32) :
    mat (k0_pay3 (F := Ideal) v2 v4 v5) = add (mm (slab v5 0) (mat v2)) (rowB (vec v4)) := by
  unfold k0_pay3
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay5 (v2 : Vec Ideal S256x256 .f32) (v4 : Vec Ideal S256 .f32) (v5 : Vec Ideal S1x2048x256 .f32) (v12 : Vec Ideal S1x256x256 .f32) (v15 : Vec Ideal S1x256 .f32) (v17 : Vec Ideal S1x2048x2048 .bf16) (v28 : Vec Ideal S1x2048x2048 .bf16) :
    mat (k0_pay5 (F := Ideal) v2 v4 v5 v12 v15 v17 v28)
      = mm (mm (slab v28 0) (step (slab v17 0) (slab v12 0) (rowOf v15 0) (add (mm (slab v5 0) (mat v2)) (rowB (vec v4))))) (slab v12 0) := by
  unfold k0_pay5
  simp only [pay3, pay4, step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay6 (v16 : FVec Ideal S256 .f32) (v33 : FVec Ideal S2048x256 .f32) (v39 : Vec Ideal S1x256x256 .f32) (v42 : Vec Ideal S1x256 .f32) (v44 : Vec Ideal S1x2048x2048 .bf16) (v55 : Vec Ideal S1x2048x2048 .bf16) :
    mat (k0_pay6 (F := Ideal) v16 v33 v39 v42 v44 v55)
      = step (slab v55 0) (slab v39 0) (rowOf v42 0) (step (slab v44 0) (slab v39 0) (rowOf v42 0) (silu (add (mat v33) (rowB (vec v16))))) := by
  unfold k0_pay6
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay9 (v1 : FVec Ideal S2048x1 .f32) (v65 : FVec Ideal S2048x256 .f32) (v68 : FVec Ideal S256x256 .bf16) (v70 : FVec Ideal S256 .f32) (v71 : Vec Ideal S1x2048x2048 .bf16) (v82 : Vec Ideal S1x2048x2048 .bf16) :
    mat (k0_pay9 (F := Ideal) v1 v65 v68 v70 v71 v82)
      = mul (step (slab v82 0) (mat v68) (vec v70) (step (slab v71 0) (mat v68) (vec v70) (mat v65))) (colB (colV v1)) := by
  unfold k0_pay9
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

/-! ## The key stack -/

theorem pay12 (v11 : FVec Ideal S2048x256 .f32) (v99 : Vec Ideal S1x256x256 .f32) (v104 : Vec Ideal S1x2048x2048 .bf16) :
    mat (k0_pay12 (F := Ideal) v11 v99 v104) = mm (mm (slab v104 0) (mat v11)) (slab v99 0) := by
  unfold k0_pay12
  simp only [pay10, step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay14 (v101 : FVec Ideal S256x256 .bf16) (v103 : FVec Ideal S256 .f32) (v109 : FVec Ideal S2048x256 .f32) (v110 : FVec Ideal S1x256 .f32) (v115 : Vec Ideal S1x2048x2048 .bf16) (v126 : Vec Ideal S1x256x256 .f32) (v129 : Vec Ideal S1x256 .f32) (v131 : Vec Ideal S1x2048x2048 .bf16) (v142 : Vec Ideal S1x2048x2048 .bf16) :
    mat (k0_pay14 (F := Ideal) v101 v103 v109 v110 v115 v126 v129 v131 v142)
      = add (mm (mm (slab v142 0) (step (slab v131 0) (slab v126 0) (rowOf v129 0)
          (step (slab v115 0) (mat v101) (vec v103) (silu (add (mat v109) (rowB (rowOf v110 0))))))) (slab v126 0)) (rowB (rowOf v129 0)) := by
  unfold k0_pay14
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay15 (v1 : FVec Ideal S2048x1 .f32) (v150 : FVec Ideal S2048x256 .f32) (v153 : Vec Ideal S1x256x256 .f32) (v156 : Vec Ideal S1x256 .f32) (v158 : Vec Ideal S1x2048x2048 .bf16) (v169 : Vec Ideal S1x2048x2048 .bf16) :
    mat (k0_pay15 (F := Ideal) v1 v150 v153 v156 v158 v169)
      = mul (step (slab v169 0) (slab v153 0) (rowOf v156 0) (step (slab v158 0) (slab v153 0) (rowOf v156 0) (silu (mat v150)))) (colB (colV v1)) := by
  unfold k0_pay15
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

/-! ## The value stack -/

theorem pay19 (v11 : FVec Ideal S2048x256 .f32) (v188 : FVec Ideal S256x256 .bf16) (v189 : Vec Ideal S1x256 .f32) (v191 : Vec Ideal S1x2048x2048 .bf16) (v202 : Vec Ideal S1x2048x2048 .bf16) (v213 : Vec Ideal S1x256x256 .f32) (v216 : Vec Ideal S1x256 .f32) (v218 : Vec Ideal S1x2048x2048 .bf16) :
    mat (k0_pay19 (F := Ideal) v11 v188 v189 v191 v202 v213 v216 v218)
      = add (mm (mm (slab v218 0) (step (slab v202 0) (mat v188) (rowOf v189 0) (step (slab v191 0) (mat v188) (rowOf v189 0) (mat v11)))) (slab v213 0))
          (rowB (rowOf v216 0)) := by
  unfold k0_pay19
  simp only [pay17, pay18, step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay20 (v11 : FVec Ideal S2048x256 .f32) (v188 : FVec Ideal S256x256 .bf16) (v189 : Vec Ideal S1x256 .f32) (v191 : Vec Ideal S1x2048x2048 .bf16) (v202 : Vec Ideal S1x2048x2048 .bf16) (v213 : Vec Ideal S1x256x256 .f32) (v216 : Vec Ideal S1x256 .f32) (v218 : Vec Ideal S1x2048x2048 .bf16) :
    mat (k0_pay20 (F := Ideal) v11 v188 v189 v191 v202 v213 v216 v218) = lgs (mat (k0_pay19 (F := Ideal) v11 v188 v189 v191 v202 v213 v216 v218)) := by
  unfold k0_pay20
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay21 (v215 : FVec Ideal S256x256 .bf16) (v217 : FVec Ideal S256 .f32) (v226 : FVec Ideal S2048x256 .f32) (v227 : FVec Ideal S2048x256 .f32) (v229 : Vec Ideal S1x2048x2048 .bf16) (v240 : Vec Ideal S1x256x256 .f32) (v243 : Vec Ideal S1x256 .f32) (v245 : Vec Ideal S1x2048x2048 .bf16) (v256 : Vec Ideal S1x2048x2048 .bf16) :
    mat (k0_pay21 (F := Ideal) v215 v217 v226 v227 v229 v240 v243 v245 v256)
      = step (slab v256 0) (slab v240 0) (rowOf v243 0) (step (slab v245 0) (slab v240 0) (rowOf v243 0)
          (step (slab v229 0) (mat v215) (vec v217) (mul (mat v226) (mat v227)))) := by
  unfold k0_pay21
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay23 (v266 : FVec Ideal S2048x256 .f32) (v267 : FVec Ideal S2048x256 .f32) :
    mat (k0_pay23 (F := Ideal) v266 v267) = mul (mat v266) (mat v267) := by
  unfold k0_pay23
  simp only [step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

/-! ## Attention with the residual, then normalisation and the two output layers -/

theorem pay24 (v1 : FVec Ideal S2048x1 .f32) (v273 : Vec Ideal S2048x256 .bf16) (v274 : Vec Ideal S2048x256 .bf16) (v275 : Vec Ideal S2048x256 .bf16) (v276 : Vec Ideal S256x256 .f32) (v278 : Vec Ideal S256x256 .f32) (v280 : Vec Ideal S256x256 .f32) (v282 : Vec Ideal S256x256 .f32) (v299 : Vec Ideal S1x2048x256 .f32) :
    mat (k0_pay24 (F := Ideal) v1 v273 v274 v275 v276 v278 v280 v282 v299)
      = add (attention (mat v273) (mat v274) (mat v275) (colV v1) (mat v276) (mat v278) (mat v280) (mat v282)) (slab v299 0) := by
  unfold k0_pay24
  simp only [attention, step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

theorem pay25 (v1 : FVec Ideal S2048x1 .f32) (v301 : FVec Ideal S2048x256 .f32) (v302 : Vec Ideal S256 .f32) (v303 : Vec Ideal S256 .f32) (v304 : Vec Ideal S256 .f32) (v305 : Vec Ideal S256 .f32) (v321 : Vec Ideal S256x256 .f32) (v323 : Vec Ideal S256 .f32) (v331 : Vec Ideal S256x256 .f32) (v333 : Vec Ideal S256 .f32) (v334 : Vec Ideal S1x2048x256 .f32) :
    mat (k0_pay25 (F := Ideal) v1 v301 v302 v303 v304 v305 v321 v323 v331 v333 v334)
      = mul (add (silu (add (mm (normalise (mat v301) (vec v302) (vec v303) (vec v304) (vec v305) eps) (mat v321)) (rowB (vec v323))))
          (add (mm (slab v334 0) (mat v331)) (rowB (vec v333)))) (colB (colV v1)) := by
  unfold k0_pay25
  simp only [normalise, eps, Ideal.ofBits_def, step, mat_addf, mat_subf, mat_mulf, mat_silu, mat_logistic, mul_lgs, mat_truncf, mat_dropUnit, mat_castSelf, vec_dropUnit,
    mat_rowRepeat, rowOf_addUnit, mat_colRepeat, colV_dropUnit, vec_rsqrt_shift, mat_matmulFeat, mat_matmulAdj, mat_matmulKV]

end Cert.KernelPayloads

end
-- ==== Proof.KernelBlock.lean ====
/-
  The block the kernel stores for one sample is the block function of that sample's input blocks.

  The body's values compose by substitution: the input layer feeds the three stacks, whose masked results (parked
  in scratch and read back) feed the attention; its residual sum is normalised and sent through the two output
  layers.  The weight slabs and bias rows the body reads one at a time enter as hypotheses — "what was read is
  slab j of the stacked weight" — so that the statement is about the mathematics only.
-/
import proofs.«111816_j43181601194857_2_alg».proof.Proof.KernelPayloads

set_option maxRecDepth 16384

noncomputable section

namespace Cert.KernelBlock

open Cert.KernelIdeal Cert.KernelIdeal.Gen
open Idealize.ShloMosaic Idealize.ShloMosaic.ValueIdx Cert.Layers Cert.Views Cert.KernelOps Cert.KernelPayloads

/-- The stored block, as the body's values are wired together, from the input blocks and the slabs read. -/
def stored (x0 : Vec Ideal S1x2048x256 .f32) (x1 : Vec Ideal S1x2048x2048 .bf16) (x2 : Vec Ideal S1x2048x1 .f32) (x3 : Vec Ideal S256x256 .f32) (x4 : Vec Ideal S256 .f32) (x5 : Vec Ideal S3x256x256 .f32) (x6 : Vec Ideal S3x256 .f32) (x7 : Vec Ideal S3x256x256 .f32) (x8 : Vec Ideal S3x256 .f32) (x9 : Vec Ideal S3x256x256 .f32) (x10 : Vec Ideal S3x256 .f32) (x11 : Vec Ideal S256x256 .f32) (x12 : Vec Ideal S256x256 .f32) (x13 : Vec Ideal S256x256 .f32) (x14 : Vec Ideal S256x256 .f32) (x15 : Vec Ideal S256 .f32) (x16 : Vec Ideal S256 .f32) (x17 : Vec Ideal S256 .f32) (x18 : Vec Ideal S256 .f32) (x19 : Vec Ideal S256x256 .f32) (x20 : Vec Ideal S256 .f32) (x21 : Vec Ideal S256x256 .f32) (x22 : Vec Ideal S256 .f32)
    (w5_0 : Vec Ideal S1x256x256 .f32) (w5_1 : Vec Ideal S1x256x256 .f32) (w5_2 : Vec Ideal S1x256x256 .f32) (w7_0 : Vec Ideal S1x256x256 .f32) (w7_1 : Vec Ideal S1x256x256 .f32) (w7_2 : Vec Ideal S1x256x256 .f32) (w9_0 : Vec Ideal S1x256x256 .f32) (w9_1 : Vec Ideal S1x256x256 .f32) (w9_2 : Vec Ideal S1x256x256 .f32) (b6_0 : Vec Ideal S1x256 .f32) (b6_1 : Vec Ideal S1x256 .f32) (b6_2 : Vec Ideal S1x256 .f32) (b8_0 : Vec Ideal S1x256 .f32) (b8_1 : Vec Ideal S1x256 .f32) (b8_2 : Vec Ideal S1x256 .f32) (b10_0 : Vec Ideal S1x256 .f32) (b10_1 : Vec Ideal S1x256 .f32) (b10_2 : Vec Ideal S1x256 .f32) : FVec Ideal S1x2048x256 .f32 :=
  k0_pay1 (F := Ideal) (k0_pay25 (F := Ideal) (k0_pay2 (F := Ideal) x2) (k0_pay24 (F := Ideal) (k0_pay2 (F := Ideal) x2) (k0_pay9 (F := Ideal) (k0_pay2 (F := Ideal) x2) (k0_pay6 (F := Ideal) (k0_pay4 (F := Ideal) b6_0) (k0_pay5 (F := Ideal) x3 x4 x0 w5_0 b6_0 x1 x1) w5_1 b6_1 x1 x1) (k0_pay7 (F := Ideal) w5_2) (k0_pay8 (F := Ideal) b6_2) x1 x1) (k0_pay15 (F := Ideal) (k0_pay2 (F := Ideal) x2) (k0_pay14 (F := Ideal) (k0_pay10 (F := Ideal) w7_0) (k0_pay11 (F := Ideal) b8_0) (k0_pay12 (F := Ideal) (k0_pay3 (F := Ideal) x3 x4 x0) w7_0 x1) (k0_pay13 (F := Ideal) b8_0) x1 w7_1 b8_1 x1 x1) w7_2 b8_2 x1 x1) (k0_pay23 (F := Ideal) (k0_pay21 (F := Ideal) (k0_pay17 (F := Ideal) w9_1) (k0_pay18 (F := Ideal) b10_1) (k0_pay19 (F := Ideal) (k0_pay3 (F := Ideal) x3 x4 x0) (k0_pay16 (F := Ideal) w9_0) b10_0 x1 x1 w9_1 b10_1 x1) (k0_pay20 (F := Ideal) (k0_pay3 (F := Ideal) x3 x4 x0) (k0_pay16 (F := Ideal) w9_0) b10_0 x1 x1 w9_1 b10_1 x1) x1 w9_2 b10_2 x1 x1) (k0_pay22 (F := Ideal) (k0_pay2 (F := Ideal) x2))) x11 x12 x13 x14 x0) x15 x16 x17 x18 x19 x20 x21 x22 x0)

/-- Its one slab is the block function of the input blocks. -/
theorem slab_stored (x0 : Vec Ideal S1x2048x256 .f32) (x1 : Vec Ideal S1x2048x2048 .bf16) (x2 : Vec Ideal S1x2048x1 .f32) (x3 : Vec Ideal S256x256 .f32) (x4 : Vec Ideal S256 .f32) (x5 : Vec Ideal S3x256x256 .f32) (x6 : Vec Ideal S3x256 .f32) (x7 : Vec Ideal S3x256x256 .f32) (x8 : Vec Ideal S3x256 .f32) (x9 : Vec Ideal S3x256x256 .f32) (x10 : Vec Ideal S3x256 .f32) (x11 : Vec Ideal S256x256 .f32) (x12 : Vec Ideal S256x256 .f32) (x13 : Vec Ideal S256x256 .f32) (x14 : Vec Ideal S256x256 .f32) (x15 : Vec Ideal S256 .f32) (x16 : Vec Ideal S256 .f32) (x17 : Vec Ideal S256 .f32) (x18 : Vec Ideal S256 .f32) (x19 : Vec Ideal S256x256 .f32) (x20 : Vec Ideal S256 .f32) (x21 : Vec Ideal S256x256 .f32) (x22 : Vec Ideal S256 .f32)
    (w5_0 : Vec Ideal S1x256x256 .f32) (w5_1 : Vec Ideal S1x256x256 .f32) (w5_2 : Vec Ideal S1x256x256 .f32) (w7_0 : Vec Ideal S1x256x256 .f32) (w7_1 : Vec Ideal S1x256x256 .f32) (w7_2 : Vec Ideal S1x256x256 .f32) (w9_0 : Vec Ideal S1x256x256 .f32) (w9_1 : Vec Ideal S1x256x256 .f32) (w9_2 : Vec Ideal S1x256x256 .f32) (b6_0 : Vec Ideal S1x256 .f32) (b6_1 : Vec Ideal S1x256 .f32) (b6_2 : Vec Ideal S1x256 .f32) (b8_0 : Vec Ideal S1x256 .f32) (b8_1 : Vec Ideal S1x256 .f32) (b8_2 : Vec Ideal S1x256 .f32) (b10_0 : Vec Ideal S1x256 .f32) (b10_1 : Vec Ideal S1x256 .f32) (b10_2 : Vec Ideal S1x256 .f32)
    (hw5_0 : slab w5_0 0 = slab x5 0) (hw5_1 : slab w5_1 0 = slab x5 1) (hw5_2 : slab w5_2 0 = slab x5 2)
    (hw7_0 : slab w7_0 0 = slab x7 0) (hw7_1 : slab w7_1 0 = slab x7 1) (hw7_2 : slab w7_2 0 = slab x7 2)
    (hw9_0 : slab w9_0 0 = slab x9 0) (hw9_1 : slab w9_1 0 = slab x9 1) (hw9_2 : slab w9_2 0 = slab x9 2)
    (hb6_0 : rowOf b6_0 0 = rowOf x6 0) (hb6_1 : rowOf b6_1 0 = rowOf x6 1) (hb6_2 : rowOf b6_2 0 = rowOf x6 2)
    (hb8_0 : rowOf b8_0 0 = rowOf x8 0) (hb8_1 : rowOf b8_1 0 = rowOf x8 1) (hb8_2 : rowOf b8_2 0 = rowOf x8 2)
    (hb10_0 : rowOf b10_0 0 = rowOf x10 0) (hb10_1 : rowOf b10_1 0 = rowOf x10 1) (hb10_2 : rowOf b10_2 0 = rowOf x10 2) (u : Fin 1) :
    slab (stored x0 x1 x2 x3 x4 x5 x6 x7 x8 x9 x10 x11 x12 x13 x14 x15 x16 x17 x18 x19 x20 x21 x22 w5_0 w5_1 w5_2 w7_0 w7_1 w7_2 w9_0 w9_1 w9_2 b6_0 b6_1 b6_2 b8_0 b8_1 b8_2 b10_0 b10_1 b10_2) u
      = block (slab x0 0) (slab x1 0) (colOf x2 0) (mat x3) (vec x4) (slab x5) (rowOf x6) (slab x7) (rowOf x8) (slab x9) (rowOf x10)
        (mat x11) (mat x12) (mat x13) (mat x14) (vec x15) (vec x16) (vec x17) (vec x18) (mat x19) (vec x20) (mat x21) (vec x22) eps := by
  unfold stored
  simp only [pay1, pay2, pay3, pay4, pay5, pay6, pay7, pay8, pay9, pay10, pay11, pay12, pay13, pay14, pay15, pay16, pay17, pay18, pay19,
    pay20, pay21, pay22, pay23, pay24, pay25, mul_lgs, hw5_0, hw5_1, hw5_2, hw7_0, hw7_1, hw7_2, hw9_0, hw9_1, hw9_2, hb6_0, hb6_1, hb6_2, hb8_0, hb8_1, hb8_2, hb10_0, hb10_1, hb10_2, block, stack, step]

end Cert.KernelBlock

end
-- ==== Proof.KernelPiece.lean ====
/-
  What the kernel body leaves in the output's staging buffer: one whole-block store of the value the body's
  payloads compose to.  Reads of whole input buffers return the buffer's block; a read of one slab of a stacked
  weight (or one row of a stacked bias) returns that slab (row); a read-back of a scratch buffer returns what the
  body stored there just before.
-/
import proofs.«111816_j43181601194857_2_alg».proof.Proof.KernelIdealValue
import proofs.«111816_j43181601194857_2_alg».proof.Proof.KernelBlock
import Idealize.ShloMosaic.Lib.Tactic

set_option maxRecDepth 16384

noncomputable section

namespace Cert.KernelPiece

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
open Idealize.ShloMosaic.ValueIdx Cert.Layers Cert.Views

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## One slab of a stacked weight, one row of a stacked bias, as read -/

theorem slab_read0 (x : Vec Ideal S3x256x256 .f32) : slab (View.ld x (Rect.unit (s := S3x256x256) ![0, 0, 0] S1x256x256.size inb_S3x256x256_S1x256x256_0_0_0)) 0 = slab x 0 := by
  funext p q
  show x ((Rect.unit (s := S3x256x256) ![0, 0, 0] S1x256x256.size inb_S3x256x256_S1x256x256_0_0_0).emb (ix3 (0 : Fin 1) p q)) = x (ix3 (0 : Fin 3) p q)
  refine congrArg x (funext fun a => Fin.ext ?_)
  match a with
  | ⟨0, _⟩ => rfl
  | ⟨1, _⟩ => show 0 + 1 * p.val = p.val; omega
  | ⟨2, _⟩ => show 0 + 1 * q.val = q.val; omega

theorem row_read0 (x : Vec Ideal S3x256 .f32) : rowOf (View.ld x (Rect.unit (s := S3x256) ![0, 0] S1x256.size inb_S3x256_S1x256_0_0)) 0 = rowOf x 0 := by
  funext d
  show x ((Rect.unit (s := S3x256) ![0, 0] S1x256.size inb_S3x256_S1x256_0_0).emb (ix2 (0 : Fin 1) d)) = x (ix2 (0 : Fin 3) d)
  refine congrArg x (funext fun a => Fin.ext ?_)
  match a with
  | ⟨0, _⟩ => rfl
  | ⟨1, _⟩ => show 0 + 1 * d.val = d.val; omega

theorem slab_read1 (x : Vec Ideal S3x256x256 .f32) : slab (View.ld x (Rect.unit (s := S3x256x256) ![1, 0, 0] S1x256x256.size inb_S3x256x256_S1x256x256_1_0_0)) 0 = slab x 1 := by
  funext p q
  show x ((Rect.unit (s := S3x256x256) ![1, 0, 0] S1x256x256.size inb_S3x256x256_S1x256x256_1_0_0).emb (ix3 (0 : Fin 1) p q)) = x (ix3 (1 : Fin 3) p q)
  refine congrArg x (funext fun a => Fin.ext ?_)
  match a with
  | ⟨0, _⟩ => rfl
  | ⟨1, _⟩ => show 0 + 1 * p.val = p.val; omega
  | ⟨2, _⟩ => show 0 + 1 * q.val = q.val; omega

theorem row_read1 (x : Vec Ideal S3x256 .f32) : rowOf (View.ld x (Rect.unit (s := S3x256) ![1, 0] S1x256.size inb_S3x256_S1x256_1_0)) 0 = rowOf x 1 := by
  funext d
  show x ((Rect.unit (s := S3x256) ![1, 0] S1x256.size inb_S3x256_S1x256_1_0).emb (ix2 (0 : Fin 1) d)) = x (ix2 (1 : Fin 3) d)
  refine congrArg x (funext fun a => Fin.ext ?_)
  match a with
  | ⟨0, _⟩ => rfl
  | ⟨1, _⟩ => show 0 + 1 * d.val = d.val; omega

theorem slab_read2 (x : Vec Ideal S3x256x256 .f32) : slab (View.ld x (Rect.unit (s := S3x256x256) ![2, 0, 0] S1x256x256.size inb_S3x256x256_S1x256x256_2_0_0)) 0 = slab x 2 := by
  funext p q
  show x ((Rect.unit (s := S3x256x256) ![2, 0, 0] S1x256x256.size inb_S3x256x256_S1x256x256_2_0_0).emb (ix3 (0 : Fin 1) p q)) = x (ix3 (2 : Fin 3) p q)
  refine congrArg x (funext fun a => Fin.ext ?_)
  match a with
  | ⟨0, _⟩ => rfl
  | ⟨1, _⟩ => show 0 + 1 * p.val = p.val; omega
  | ⟨2, _⟩ => show 0 + 1 * q.val = q.val; omega

theorem row_read2 (x : Vec Ideal S3x256 .f32) : rowOf (View.ld x (Rect.unit (s := S3x256) ![2, 0] S1x256.size inb_S3x256_S1x256_2_0)) 0 = rowOf x 2 := by
  funext d
  show x ((Rect.unit (s := S3x256) ![2, 0] S1x256.size inb_S3x256_S1x256_2_0).emb (ix2 (0 : Fin 1) d)) = x (ix2 (2 : Fin 3) d)
  refine congrArg x (funext fun a => Fin.ext ?_)
  match a with
  | ⟨0, _⟩ => rfl
  | ⟨1, _⟩ => show 0 + 1 * d.val = d.val; omega

/-! ## The stored block -/

/-- The body's one store into the output's buffer is the composed value of the input blocks. -/
theorem out_eq_stored (c : Dev nD) (i : grid0.Coords) (arg1 : Memref sig .tc .vmem S1x2048x256 .f32) (harg1 : arg1.IsWhole) (arg2 : Memref sig .tc .vmem S1x2048x2048 .bf16) (harg2 : arg2.IsWhole) (arg3 : Memref sig .tc .vmem S1x2048x1 .f32) (harg3 : arg3.IsWhole) (arg4 : Memref sig .tc .vmem S256x256 .f32) (harg4 : arg4.IsWhole) (arg5 : Memref sig .tc .vmem S256 .f32) (harg5 : arg5.IsWhole) (arg6 : Memref sig .tc .vmem S3x256x256 .f32) (harg6 : arg6.IsWhole) (arg7 : Memref sig .tc .vmem S3x256 .f32) (harg7 : arg7.IsWhole) (arg8 : Memref sig .tc .vmem S3x256x256 .f32) (harg8 : arg8.IsWhole) (arg9 : Memref sig .tc .vmem S3x256 .f32) (harg9 : arg9.IsWhole) (arg10 : Memref sig .tc .vmem S3x256x256 .f32) (harg10 : arg10.IsWhole) (arg11 : Memref sig .tc .vmem S3x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S256 .f32) (harg17 : arg17.IsWhole) (arg18 : Memref sig .tc .vmem S256 .f32) (harg18 : arg18.IsWhole) (arg19 : Memref sig .tc .vmem S256 .f32) (harg19 : arg19.IsWhole) (arg20 : Memref sig .tc .vmem S256x256 .f32) (harg20 : arg20.IsWhole) (arg21 : Memref sig .tc .vmem S256 .f32) (harg21 : arg21.IsWhole) (arg22 : Memref sig .tc .vmem S256x256 .f32) (harg22 : arg22.IsWhole) (arg23 : Memref sig .tc .vmem S256 .f32) (harg23 : arg23.IsWhole) (arg24 : Memref sig .tc .vmem S1x2048x256 .f32) (harg24 : arg24.IsWhole) (arg25 : Memref sig .tc .vmem S2048x256 .bf16) (harg25 : arg25.IsWhole) (arg26 : Memref sig .tc .vmem S2048x256 .bf16) (harg26 : arg26.IsWhole) (arg27 : Memref sig .tc .vmem S2048x256 .bf16) (harg27 : arg27.IsWhole) (x0 : Vec Ideal S1x2048x256 .f32) (x1 : Vec Ideal S1x2048x2048 .bf16) (x2 : Vec Ideal S1x2048x1 .f32) (x3 : Vec Ideal S256x256 .f32) (x4 : Vec Ideal S256 .f32) (x5 : Vec Ideal S3x256x256 .f32) (x6 : Vec Ideal S3x256 .f32) (x7 : Vec Ideal S3x256x256 .f32) (x8 : Vec Ideal S3x256 .f32) (x9 : Vec Ideal S3x256x256 .f32) (x10 : Vec Ideal S3x256 .f32) (x11 : Vec Ideal S256x256 .f32) (x12 : Vec Ideal S256x256 .f32) (x13 : Vec Ideal S256x256 .f32) (x14 : Vec Ideal S256x256 .f32) (x15 : Vec Ideal S256 .f32) (x16 : Vec Ideal S256 .f32) (x17 : Vec Ideal S256 .f32) (x18 : Vec Ideal S256 .f32) (x19 : Vec Ideal S256x256 .f32) (x20 : Vec Ideal S256 .f32) (x21 : Vec Ideal S256x256 .f32) (x22 : Vec Ideal S256 .f32) :
    out0_A_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22
      = Cert.KernelBlock.stored x0 x1 x2 x3 x4 x5 x6 x7 x8 x9 x10 x11 x12 x13 x14 x15 x16 x17 x18 x19 x20 x21 x22 (View.ld x5 (Rect.unit (s := S3x256x256) ![0, 0, 0] S1x256x256.size inb_S3x256x256_S1x256x256_0_0_0)) (View.ld x5 (Rect.unit (s := S3x256x256) ![1, 0, 0] S1x256x256.size inb_S3x256x256_S1x256x256_1_0_0)) (View.ld x5 (Rect.unit (s := S3x256x256) ![2, 0, 0] S1x256x256.size inb_S3x256x256_S1x256x256_2_0_0)) (View.ld x7 (Rect.unit (s := S3x256x256) ![0, 0, 0] S1x256x256.size inb_S3x256x256_S1x256x256_0_0_0)) (View.ld x7 (Rect.unit (s := S3x256x256) ![1, 0, 0] S1x256x256.size inb_S3x256x256_S1x256x256_1_0_0)) (View.ld x7 (Rect.unit (s := S3x256x256) ![2, 0, 0] S1x256x256.size inb_S3x256x256_S1x256x256_2_0_0)) (View.ld x9 (Rect.unit (s := S3x256x256) ![0, 0, 0] S1x256x256.size inb_S3x256x256_S1x256x256_0_0_0)) (View.ld x9 (Rect.unit (s := S3x256x256) ![1, 0, 0] S1x256x256.size inb_S3x256x256_S1x256x256_1_0_0)) (View.ld x9 (Rect.unit (s := S3x256x256) ![2, 0, 0] S1x256x256.size inb_S3x256x256_S1x256x256_2_0_0)) (View.ld x6 (Rect.unit (s := S3x256) ![0, 0] S1x256.size inb_S3x256_S1x256_0_0)) (View.ld x6 (Rect.unit (s := S3x256) ![1, 0] S1x256.size inb_S3x256_S1x256_1_0)) (View.ld x6 (Rect.unit (s := S3x256) ![2, 0] S1x256.size inb_S3x256_S1x256_2_0)) (View.ld x8 (Rect.unit (s := S3x256) ![0, 0] S1x256.size inb_S3x256_S1x256_0_0)) (View.ld x8 (Rect.unit (s := S3x256) ![1, 0] S1x256.size inb_S3x256_S1x256_1_0)) (View.ld x8 (Rect.unit (s := S3x256) ![2, 0] S1x256.size inb_S3x256_S1x256_2_0)) (View.ld x10 (Rect.unit (s := S3x256) ![0, 0] S1x256.size inb_S3x256_S1x256_0_0)) (View.ld x10 (Rect.unit (s := S3x256) ![1, 0] S1x256.size inb_S3x256_S1x256_1_0)) (View.ld x10 (Rect.unit (s := S3x256) ![2, 0] S1x256.size inb_S3x256_S1x256_2_0)) := by
  unfold out0_A_23
  rw [View.read_writes_eq_canon _ _ _ (cover0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22)]
  unfold kernelRun0_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1x2048x256) hz3, View.ld_unit_zero (S := S1x2048x2048) hz3, View.ld_unit_zero (S := S1x2048x1) hz3,
    View.ld_unit_zero (S := S256x256) hz2, View.ld_unit_zero (S := S256) hz1, View.readCov_unit_zero (S := S2048x256) _ hz2]
  rfl

/-- So the stored block's one slab is the block function of the input blocks. -/
theorem slab_out (c : Dev nD) (i : grid0.Coords) (arg1 : Memref sig .tc .vmem S1x2048x256 .f32) (harg1 : arg1.IsWhole) (arg2 : Memref sig .tc .vmem S1x2048x2048 .bf16) (harg2 : arg2.IsWhole) (arg3 : Memref sig .tc .vmem S1x2048x1 .f32) (harg3 : arg3.IsWhole) (arg4 : Memref sig .tc .vmem S256x256 .f32) (harg4 : arg4.IsWhole) (arg5 : Memref sig .tc .vmem S256 .f32) (harg5 : arg5.IsWhole) (arg6 : Memref sig .tc .vmem S3x256x256 .f32) (harg6 : arg6.IsWhole) (arg7 : Memref sig .tc .vmem S3x256 .f32) (harg7 : arg7.IsWhole) (arg8 : Memref sig .tc .vmem S3x256x256 .f32) (harg8 : arg8.IsWhole) (arg9 : Memref sig .tc .vmem S3x256 .f32) (harg9 : arg9.IsWhole) (arg10 : Memref sig .tc .vmem S3x256x256 .f32) (harg10 : arg10.IsWhole) (arg11 : Memref sig .tc .vmem S3x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S256 .f32) (harg17 : arg17.IsWhole) (arg18 : Memref sig .tc .vmem S256 .f32) (harg18 : arg18.IsWhole) (arg19 : Memref sig .tc .vmem S256 .f32) (harg19 : arg19.IsWhole) (arg20 : Memref sig .tc .vmem S256x256 .f32) (harg20 : arg20.IsWhole) (arg21 : Memref sig .tc .vmem S256 .f32) (harg21 : arg21.IsWhole) (arg22 : Memref sig .tc .vmem S256x256 .f32) (harg22 : arg22.IsWhole) (arg23 : Memref sig .tc .vmem S256 .f32) (harg23 : arg23.IsWhole) (arg24 : Memref sig .tc .vmem S1x2048x256 .f32) (harg24 : arg24.IsWhole) (arg25 : Memref sig .tc .vmem S2048x256 .bf16) (harg25 : arg25.IsWhole) (arg26 : Memref sig .tc .vmem S2048x256 .bf16) (harg26 : arg26.IsWhole) (arg27 : Memref sig .tc .vmem S2048x256 .bf16) (harg27 : arg27.IsWhole) (x0 : Vec Ideal S1x2048x256 .f32) (x1 : Vec Ideal S1x2048x2048 .bf16) (x2 : Vec Ideal S1x2048x1 .f32) (x3 : Vec Ideal S256x256 .f32) (x4 : Vec Ideal S256 .f32) (x5 : Vec Ideal S3x256x256 .f32) (x6 : Vec Ideal S3x256 .f32) (x7 : Vec Ideal S3x256x256 .f32) (x8 : Vec Ideal S3x256 .f32) (x9 : Vec Ideal S3x256x256 .f32) (x10 : Vec Ideal S3x256 .f32) (x11 : Vec Ideal S256x256 .f32) (x12 : Vec Ideal S256x256 .f32) (x13 : Vec Ideal S256x256 .f32) (x14 : Vec Ideal S256x256 .f32) (x15 : Vec Ideal S256 .f32) (x16 : Vec Ideal S256 .f32) (x17 : Vec Ideal S256 .f32) (x18 : Vec Ideal S256 .f32) (x19 : Vec Ideal S256x256 .f32) (x20 : Vec Ideal S256 .f32) (x21 : Vec Ideal S256x256 .f32) (x22 : Vec Ideal S256 .f32) (u : Fin 1) :
    slab (out0_A_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22) u
      = block (slab x0 0) (slab x1 0) (colOf x2 0) (mat x3) (vec x4) (slab x5) (rowOf x6) (slab x7) (rowOf x8) (slab x9) (rowOf x10)
        (mat x11) (mat x12) (mat x13) (mat x14) (vec x15) (vec x16) (vec x17) (vec x18) (mat x19) (vec x20) (mat x21) (vec x22)
        Cert.KernelPayloads.eps := by
  rw [out_eq_stored]
  exact Cert.KernelBlock.slab_stored _ _ _ _ _ _ _ _ _ _ _ _ _ _ _ _ _ _ _ _ _ _ _ _ _ _ _ _ _ _ _ _ _ _ _ _ _ _ _ _ _
    (slab_read0 x5) (slab_read1 x5) (slab_read2 x5) (slab_read0 x7) (slab_read1 x7) (slab_read2 x7) (slab_read0 x9) (slab_read1 x9) (slab_read2 x9)
    (row_read0 x6) (row_read1 x6) (row_read2 x6) (row_read0 x8) (row_read1 x8) (row_read2 x8) (row_read0 x10) (row_read1 x10) (row_read2 x10) u

end Cert.KernelPiece

end
-- ==== Proof.KernelReads.lean ====
/-
  What each grid point reads: point t works on sample t.  The feature block, the adjacency block and the mask
  column of point t are sample t of their arrays; every weight window is its whole array at every point.
-/
import proofs.«111816_j43181601194857_2_alg».proof.Proof.KernelIdealValue
import proofs.«111816_j43181601194857_2_alg».proof.Proof.Views

set_option maxRecDepth 16384

noncomputable section

namespace Cert.KernelReads

open Idealize.ShloMosaic Idealize.ShloMosaic.TcCoe Idealize.SL.Sem
open Idealize.ShloMosaic.Pipeline (Dat)
open Cert.KernelIdeal Cert.KernelIdeal.Gen Cert.KernelIdeal.GenP Cert.KernelIdeal.ValueP
open Idealize.ShloMosaic.ValueIdx Cert.Layers Cert.Views

variable (m : (ℓ : Loc nD τ sig) → Buf (Elt Ideal) ℓ) (ρ : Dev nD → PrngReg)

/-- The sample a grid point works on. -/
def sample (t : Fin cfg0.N) : Fin 8 := ⟨t.val, by have h : cfg0.N = 8 := N_0; have := t.isLt; omega⟩

/-- The printed index maps, decided over the eight grid points: the three per-sample windows and the output sit at
    block (t, 0, 0); every weight window sits at block 0 on every axis. -/
theorem index_facts : ∀ t : Fin cfg0.N,
    win0_0.index t (0 : Fin 3) = t.val
    ∧ win0_0.index t (1 : Fin 3) = 0
    ∧ win0_0.index t (2 : Fin 3) = 0
    ∧ win0_1.index t (0 : Fin 3) = t.val
    ∧ win0_1.index t (1 : Fin 3) = 0
    ∧ win0_1.index t (2 : Fin 3) = 0
    ∧ win0_2.index t (0 : Fin 3) = t.val
    ∧ win0_2.index t (1 : Fin 3) = 0
    ∧ win0_2.index t (2 : Fin 3) = 0
    ∧ win0_23.index t (0 : Fin 3) = t.val
    ∧ win0_23.index t (1 : Fin 3) = 0
    ∧ win0_23.index t (2 : Fin 3) = 0
    ∧ win0_3.index t (0 : Fin 2) = 0
    ∧ win0_3.index t (1 : Fin 2) = 0
    ∧ win0_4.index t (0 : Fin 1) = 0
    ∧ win0_5.index t (0 : Fin 3) = 0
    ∧ win0_5.index t (1 : Fin 3) = 0
    ∧ win0_5.index t (2 : Fin 3) = 0
    ∧ win0_6.index t (0 : Fin 2) = 0
    ∧ win0_6.index t (1 : Fin 2) = 0
    ∧ win0_7.index t (0 : Fin 3) = 0
    ∧ win0_7.index t (1 : Fin 3) = 0
    ∧ win0_7.index t (2 : Fin 3) = 0
    ∧ win0_8.index t (0 : Fin 2) = 0
    ∧ win0_8.index t (1 : Fin 2) = 0
    ∧ win0_9.index t (0 : Fin 3) = 0
    ∧ win0_9.index t (1 : Fin 3) = 0
    ∧ win0_9.index t (2 : Fin 3) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 1) = 0
    ∧ win0_16.index t (0 : Fin 1) = 0
    ∧ win0_17.index t (0 : Fin 1) = 0
    ∧ win0_18.index t (0 : Fin 1) = 0
    ∧ win0_19.index t (0 : Fin 2) = 0
    ∧ win0_19.index t (1 : Fin 2) = 0
    ∧ win0_20.index t (0 : Fin 1) = 0
    ∧ win0_21.index t (0 : Fin 2) = 0
    ∧ win0_21.index t (1 : Fin 2) = 0
    ∧ win0_22.index t (0 : Fin 1) = 0 :=
  (by decide +kernel : ∀ t : Fin grid0.N, _)

/-! ## The weight windows: the whole array at every point -/

theorem block3 (c : Dev nD) (t : Fin cfg0.N) : (iblk m c 3 t : Vec Ideal S256x256 .f32) = V m c main_arg3 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg3 _ = V m c main_arg3 y
  refine congrArg (V m c main_arg3) (funext fun a => Fin.ext ?_)
  match a with
    | ⟨0, _⟩ => show win0_3.index t (0 : Fin 2) * 256 + 1 * (y 0).val = (y 0).val; rw [e3_0]; omega
    | ⟨1, _⟩ => show win0_3.index t (1 : Fin 2) * 256 + 1 * (y 1).val = (y 1).val; rw [e3_1]; omega

theorem block4 (c : Dev nD) (t : Fin cfg0.N) : (iblk m c 4 t : Vec Ideal S256 .f32) = V m c main_arg4 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg4 _ = V m c main_arg4 y
  refine congrArg (V m c main_arg4) (funext fun a => Fin.ext ?_)
  match a with
    | ⟨0, _⟩ => show win0_4.index t (0 : Fin 1) * 256 + 1 * (y 0).val = (y 0).val; rw [e4_0]; omega

theorem block5 (c : Dev nD) (t : Fin cfg0.N) : (iblk m c 5 t : Vec Ideal S3x256x256 .f32) = V m c main_arg5 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg5 _ = V m c main_arg5 y
  refine congrArg (V m c main_arg5) (funext fun a => Fin.ext ?_)
  match a with
    | ⟨0, _⟩ => show win0_5.index t (0 : Fin 3) * 3 + 1 * (y 0).val = (y 0).val; rw [e5_0]; omega
    | ⟨1, _⟩ => show win0_5.index t (1 : Fin 3) * 256 + 1 * (y 1).val = (y 1).val; rw [e5_1]; omega
    | ⟨2, _⟩ => show win0_5.index t (2 : Fin 3) * 256 + 1 * (y 2).val = (y 2).val; rw [e5_2]; omega

theorem block6 (c : Dev nD) (t : Fin cfg0.N) : (iblk m c 6 t : Vec Ideal S3x256 .f32) = V m c main_arg6 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg6 _ = V m c main_arg6 y
  refine congrArg (V m c main_arg6) (funext fun a => Fin.ext ?_)
  match a with
    | ⟨0, _⟩ => show win0_6.index t (0 : Fin 2) * 3 + 1 * (y 0).val = (y 0).val; rw [e6_0]; omega
    | ⟨1, _⟩ => show win0_6.index t (1 : Fin 2) * 256 + 1 * (y 1).val = (y 1).val; rw [e6_1]; omega

theorem block7 (c : Dev nD) (t : Fin cfg0.N) : (iblk m c 7 t : Vec Ideal S3x256x256 .f32) = V m c main_arg7 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg7 _ = V m c main_arg7 y
  refine congrArg (V m c main_arg7) (funext fun a => Fin.ext ?_)
  match a with
    | ⟨0, _⟩ => show win0_7.index t (0 : Fin 3) * 3 + 1 * (y 0).val = (y 0).val; rw [e7_0]; omega
    | ⟨1, _⟩ => show win0_7.index t (1 : Fin 3) * 256 + 1 * (y 1).val = (y 1).val; rw [e7_1]; omega
    | ⟨2, _⟩ => show win0_7.index t (2 : Fin 3) * 256 + 1 * (y 2).val = (y 2).val; rw [e7_2]; omega

theorem block8 (c : Dev nD) (t : Fin cfg0.N) : (iblk m c 8 t : Vec Ideal S3x256 .f32) = V m c main_arg8 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg8 _ = V m c main_arg8 y
  refine congrArg (V m c main_arg8) (funext fun a => Fin.ext ?_)
  match a with
    | ⟨0, _⟩ => show win0_8.index t (0 : Fin 2) * 3 + 1 * (y 0).val = (y 0).val; rw [e8_0]; omega
    | ⟨1, _⟩ => show win0_8.index t (1 : Fin 2) * 256 + 1 * (y 1).val = (y 1).val; rw [e8_1]; omega

theorem block9 (c : Dev nD) (t : Fin cfg0.N) : (iblk m c 9 t : Vec Ideal S3x256x256 .f32) = V m c main_arg9 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg9 _ = V m c main_arg9 y
  refine congrArg (V m c main_arg9) (funext fun a => Fin.ext ?_)
  match a with
    | ⟨0, _⟩ => show win0_9.index t (0 : Fin 3) * 3 + 1 * (y 0).val = (y 0).val; rw [e9_0]; omega
    | ⟨1, _⟩ => show win0_9.index t (1 : Fin 3) * 256 + 1 * (y 1).val = (y 1).val; rw [e9_1]; omega
    | ⟨2, _⟩ => show win0_9.index t (2 : Fin 3) * 256 + 1 * (y 2).val = (y 2).val; rw [e9_2]; omega

theorem block10 (c : Dev nD) (t : Fin cfg0.N) : (iblk m c 10 t : Vec Ideal S3x256 .f32) = V m c main_arg10 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg10 _ = V m c main_arg10 y
  refine congrArg (V m c main_arg10) (funext fun a => Fin.ext ?_)
  match a with
    | ⟨0, _⟩ => show win0_10.index t (0 : Fin 2) * 3 + 1 * (y 0).val = (y 0).val; rw [e10_0]; omega
    | ⟨1, _⟩ => show win0_10.index t (1 : Fin 2) * 256 + 1 * (y 1).val = (y 1).val; rw [e10_1]; omega

theorem block11 (c : Dev nD) (t : Fin cfg0.N) : (iblk m c 11 t : Vec Ideal S256x256 .f32) = V m c main_arg11 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg11 _ = V m c main_arg11 y
  refine congrArg (V m c main_arg11) (funext fun a => Fin.ext ?_)
  match a with
    | ⟨0, _⟩ => show win0_11.index t (0 : Fin 2) * 256 + 1 * (y 0).val = (y 0).val; rw [e11_0]; omega
    | ⟨1, _⟩ => show win0_11.index t (1 : Fin 2) * 256 + 1 * (y 1).val = (y 1).val; rw [e11_1]; omega

theorem block12 (c : Dev nD) (t : Fin cfg0.N) : (iblk m c 12 t : Vec Ideal S256x256 .f32) = V m c main_arg12 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg12 _ = V m c main_arg12 y
  refine congrArg (V m c main_arg12) (funext fun a => Fin.ext ?_)
  match a with
    | ⟨0, _⟩ => show win0_12.index t (0 : Fin 2) * 256 + 1 * (y 0).val = (y 0).val; rw [e12_0]; omega
    | ⟨1, _⟩ => show win0_12.index t (1 : Fin 2) * 256 + 1 * (y 1).val = (y 1).val; rw [e12_1]; omega

theorem block13 (c : Dev nD) (t : Fin cfg0.N) : (iblk m c 13 t : Vec Ideal S256x256 .f32) = V m c main_arg13 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg13 _ = V m c main_arg13 y
  refine congrArg (V m c main_arg13) (funext fun a => Fin.ext ?_)
  match a with
    | ⟨0, _⟩ => show win0_13.index t (0 : Fin 2) * 256 + 1 * (y 0).val = (y 0).val; rw [e13_0]; omega
    | ⟨1, _⟩ => show win0_13.index t (1 : Fin 2) * 256 + 1 * (y 1).val = (y 1).val; rw [e13_1]; omega

theorem block14 (c : Dev nD) (t : Fin cfg0.N) : (iblk m c 14 t : Vec Ideal S256x256 .f32) = V m c main_arg14 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg14 _ = V m c main_arg14 y
  refine congrArg (V m c main_arg14) (funext fun a => Fin.ext ?_)
  match a with
    | ⟨0, _⟩ => show win0_14.index t (0 : Fin 2) * 256 + 1 * (y 0).val = (y 0).val; rw [e14_0]; omega
    | ⟨1, _⟩ => show win0_14.index t (1 : Fin 2) * 256 + 1 * (y 1).val = (y 1).val; rw [e14_1]; omega

theorem block15 (c : Dev nD) (t : Fin cfg0.N) : (iblk m c 15 t : Vec Ideal S256 .f32) = V m c main_arg15 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg15 _ = V m c main_arg15 y
  refine congrArg (V m c main_arg15) (funext fun a => Fin.ext ?_)
  match a with
    | ⟨0, _⟩ => show win0_15.index t (0 : Fin 1) * 256 + 1 * (y 0).val = (y 0).val; rw [e15_0]; omega

theorem block16 (c : Dev nD) (t : Fin cfg0.N) : (iblk m c 16 t : Vec Ideal S256 .f32) = V m c main_arg16 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg16 _ = V m c main_arg16 y
  refine congrArg (V m c main_arg16) (funext fun a => Fin.ext ?_)
  match a with
    | ⟨0, _⟩ => show win0_16.index t (0 : Fin 1) * 256 + 1 * (y 0).val = (y 0).val; rw [e16_0]; omega

theorem block17 (c : Dev nD) (t : Fin cfg0.N) : (iblk m c 17 t : Vec Ideal S256 .f32) = V m c main_arg17 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg17 _ = V m c main_arg17 y
  refine congrArg (V m c main_arg17) (funext fun a => Fin.ext ?_)
  match a with
    | ⟨0, _⟩ => show win0_17.index t (0 : Fin 1) * 256 + 1 * (y 0).val = (y 0).val; rw [e17_0]; omega

theorem block18 (c : Dev nD) (t : Fin cfg0.N) : (iblk m c 18 t : Vec Ideal S256 .f32) = V m c main_arg18 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg18 _ = V m c main_arg18 y
  refine congrArg (V m c main_arg18) (funext fun a => Fin.ext ?_)
  match a with
    | ⟨0, _⟩ => show win0_18.index t (0 : Fin 1) * 256 + 1 * (y 0).val = (y 0).val; rw [e18_0]; omega

theorem block19 (c : Dev nD) (t : Fin cfg0.N) : (iblk m c 19 t : Vec Ideal S256x256 .f32) = V m c main_arg19 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg19 _ = V m c main_arg19 y
  refine congrArg (V m c main_arg19) (funext fun a => Fin.ext ?_)
  match a with
    | ⟨0, _⟩ => show win0_19.index t (0 : Fin 2) * 256 + 1 * (y 0).val = (y 0).val; rw [e19_0]; omega
    | ⟨1, _⟩ => show win0_19.index t (1 : Fin 2) * 256 + 1 * (y 1).val = (y 1).val; rw [e19_1]; omega

theorem block20 (c : Dev nD) (t : Fin cfg0.N) : (iblk m c 20 t : Vec Ideal S256 .f32) = V m c main_arg20 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg20 _ = V m c main_arg20 y
  refine congrArg (V m c main_arg20) (funext fun a => Fin.ext ?_)
  match a with
    | ⟨0, _⟩ => show win0_20.index t (0 : Fin 1) * 256 + 1 * (y 0).val = (y 0).val; rw [e20_0]; omega

theorem block21 (c : Dev nD) (t : Fin cfg0.N) : (iblk m c 21 t : Vec Ideal S256x256 .f32) = V m c main_arg21 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg21 _ = V m c main_arg21 y
  refine congrArg (V m c main_arg21) (funext fun a => Fin.ext ?_)
  match a with
    | ⟨0, _⟩ => show win0_21.index t (0 : Fin 2) * 256 + 1 * (y 0).val = (y 0).val; rw [e21_0]; omega
    | ⟨1, _⟩ => show win0_21.index t (1 : Fin 2) * 256 + 1 * (y 1).val = (y 1).val; rw [e21_1]; omega

theorem block22 (c : Dev nD) (t : Fin cfg0.N) : (iblk m c 22 t : Vec Ideal S256 .f32) = V m c main_arg22 := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  funext y
  unfold iblk
  rw [View.read_apply]
  show V m c main_arg22 _ = V m c main_arg22 y
  refine congrArg (V m c main_arg22) (funext fun a => Fin.ext ?_)
  match a with
    | ⟨0, _⟩ => show win0_22.index t (0 : Fin 1) * 256 + 1 * (y 0).val = (y 0).val; rw [e22_0]; omega

/-! ## The per-sample windows: sample t of the array -/

theorem block_x (c : Dev nD) (t : Fin cfg0.N) (p : Fin 2048) (q : Fin 256) :
    (iblk m c 0 t : Vec Ideal S1x2048x256 .f32) (ix3 (0 : Fin 1) p q) = (V m c main_arg0 : S8x2048x256.Idx → EReal) (ix3 (sample t) p q) := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  unfold iblk
  rw [View.read_apply]
  show V m c main_arg0 _ = V m c main_arg0 _
  refine congrArg (V m c main_arg0) (funext fun a => Fin.ext ?_)
  match a with
    | ⟨0, _⟩ => show win0_0.index t (0 : Fin 3) * 1 + 1 * 0 = t.val; rw [e0_0]; omega
    | ⟨1, _⟩ => show win0_0.index t (1 : Fin 3) * 2048 + 1 * p.val = p.val; rw [e0_1]; omega
    | ⟨2, _⟩ => show win0_0.index t (2 : Fin 3) * 256 + 1 * q.val = q.val; rw [e0_2]; omega

theorem block_adj (c : Dev nD) (t : Fin cfg0.N) (p : Fin 2048) (q : Fin 2048) :
    (iblk m c 1 t : Vec Ideal S1x2048x2048 .bf16) (ix3 (0 : Fin 1) p q) = (V m c main_v0 : S8x2048x2048.Idx → EReal) (ix3 (sample t) p q) := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  unfold iblk
  rw [View.read_apply]
  show V m c main_v0 _ = V m c main_v0 _
  refine congrArg (V m c main_v0) (funext fun a => Fin.ext ?_)
  match a with
    | ⟨0, _⟩ => show win0_1.index t (0 : Fin 3) * 1 + 1 * 0 = t.val; rw [e1_0]; omega
    | ⟨1, _⟩ => show win0_1.index t (1 : Fin 3) * 2048 + 1 * p.val = p.val; rw [e1_1]; omega
    | ⟨2, _⟩ => show win0_1.index t (2 : Fin 3) * 2048 + 1 * q.val = q.val; rw [e1_2]; omega

theorem block_mask (c : Dev nD) (t : Fin cfg0.N) (p : Fin 2048) (q : Fin 1) :
    (iblk m c 2 t : Vec Ideal S1x2048x1 .f32) (ix3 (0 : Fin 1) p q) = (V m c main_v1 : S8x2048x1.Idx → EReal) (ix3 (sample t) p q) := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  unfold iblk
  rw [View.read_apply]
  show V m c main_v1 _ = V m c main_v1 _
  refine congrArg (V m c main_v1) (funext fun a => Fin.ext ?_)
  match a with
    | ⟨0, _⟩ => show win0_2.index t (0 : Fin 3) * 1 + 1 * 0 = t.val; rw [e2_0]; omega
    | ⟨1, _⟩ => show win0_2.index t (1 : Fin 3) * 2048 + 1 * p.val = p.val; rw [e2_1]; omega
    | ⟨2, _⟩ => show win0_2.index t (2 : Fin 3) * 1 + 1 * q.val = q.val; rw [e2_2]; omega

end Cert.KernelReads

end
-- ==== Proof.BlockArray.lean ====
/-
  The result array both programs end with: sample b of the result is the block function of sample b of the
  features, of the adjacency and of the mask, with the weights shared by all samples.
-/
import proofs.«111816_j43181601194857_2_alg».proof.Proof.Views

noncomputable section

namespace Cert.BlockArray

open Idealize.ShloMosaic Idealize.ShloMosaic.ValueIdx Cert.Layers Cert.Views

variable {B N U : ℕ}

/-- The whole result, index by index: entry (b, n, d) is entry (n, d) of the block function on sample b. -/
def result (x : (⟨3, ![B, N, U]⟩ : Shape).Idx → EReal) (adj : (⟨3, ![B, N, N]⟩ : Shape).Idx → EReal)
    (mask : (⟨2, ![B, N]⟩ : Shape).Idx → EReal)
    (Wlin : (⟨2, ![U, U]⟩ : Shape).Idx → EReal) (blin : (⟨1, ![U]⟩ : Shape).Idx → EReal)
    (Wq : (⟨3, ![3, U, U]⟩ : Shape).Idx → EReal) (bq : (⟨2, ![3, U]⟩ : Shape).Idx → EReal)
    (Wk : (⟨3, ![3, U, U]⟩ : Shape).Idx → EReal) (bk : (⟨2, ![3, U]⟩ : Shape).Idx → EReal)
    (Wv : (⟨3, ![3, U, U]⟩ : Shape).Idx → EReal) (bv : (⟨2, ![3, U]⟩ : Shape).Idx → EReal)
    (Wka Wva Wqa Woa : (⟨2, ![U, U]⟩ : Shape).Idx → EReal)
    (γ β mean var : (⟨1, ![U]⟩ : Shape).Idx → EReal)
    (Wproj : (⟨2, ![U, U]⟩ : Shape).Idx → EReal) (bproj : (⟨1, ![U]⟩ : Shape).Idx → EReal)
    (Wres : (⟨2, ![U, U]⟩ : Shape).Idx → EReal) (bres : (⟨1, ![U]⟩ : Shape).Idx → EReal) (ε : EReal) :
    (⟨3, ![B, N, U]⟩ : Shape).Idx → EReal :=
  fun i => block (slab x (i 0)) (slab adj (i 0)) (rowOf mask (i 0)) (mat Wlin) (vec blin) (slab Wq) (rowOf bq) (slab Wk) (rowOf bk)
    (slab Wv) (rowOf bv) (mat Wka) (mat Wva) (mat Wqa) (mat Woa) (vec γ) (vec β) (vec mean) (vec var) (mat Wproj) (vec bproj)
    (mat Wres) (vec bres) ε (i 1) (i 2)

/-- An array whose every slab is the block function of the corresponding sample IS that result. -/
theorem eq_result {x : (⟨3, ![B, N, U]⟩ : Shape).Idx → EReal} {adj : (⟨3, ![B, N, N]⟩ : Shape).Idx → EReal}
    {mask : (⟨2, ![B, N]⟩ : Shape).Idx → EReal}
    {Wlin : (⟨2, ![U, U]⟩ : Shape).Idx → EReal} {blin : (⟨1, ![U]⟩ : Shape).Idx → EReal}
    {Wq : (⟨3, ![3, U, U]⟩ : Shape).Idx → EReal} {bq : (⟨2, ![3, U]⟩ : Shape).Idx → EReal}
    {Wk : (⟨3, ![3, U, U]⟩ : Shape).Idx → EReal} {bk : (⟨2, ![3, U]⟩ : Shape).Idx → EReal}
    {Wv : (⟨3, ![3, U, U]⟩ : Shape).Idx → EReal} {bv : (⟨2, ![3, U]⟩ : Shape).Idx → EReal}
    {Wka Wva Wqa Woa : (⟨2, ![U, U]⟩ : Shape).Idx → EReal}
    {γ β mean var : (⟨1, ![U]⟩ : Shape).Idx → EReal}
    {Wproj : (⟨2, ![U, U]⟩ : Shape).Idx → EReal} {bproj : (⟨1, ![U]⟩ : Shape).Idx → EReal}
    {Wres : (⟨2, ![U, U]⟩ : Shape).Idx → EReal} {bres : (⟨1, ![U]⟩ : Shape).Idx → EReal} {ε : EReal}
    (Y : (⟨3, ![B, N, U]⟩ : Shape).Idx → EReal)
    (h : ∀ b : Fin B, slab Y b = block (slab x b) (slab adj b) (rowOf mask b) (mat Wlin) (vec blin) (slab Wq) (rowOf bq) (slab Wk) (rowOf bk)
      (slab Wv) (rowOf bv) (mat Wka) (mat Wva) (mat Wqa) (mat Woa) (vec γ) (vec β) (vec mean) (vec var) (mat Wproj) (vec bproj)
      (mat Wres) (vec bres) ε) :
    Y = result x adj mask Wlin blin Wq bq Wk bk Wv bv Wka Wva Wqa Woa γ β mean var Wproj bproj Wres bres ε := by
  funext i
  rw [eq_ix3 i]
  exact congrFun (congrFun (h (i 0)) (i 1)) (i 2)

end Cert.BlockArray

end
-- ==== Proof.KernelArray.lean ====
/-
  The launch side, concluded: the output block of point t is sample t of the result, the eight blocks cover the
  result array, so the kernel's run ends with the result array holding the block function of every sample.
-/
import proofs.«111816_j43181601194857_2_alg».proof.Proof.KernelPiece
import proofs.«111816_j43181601194857_2_alg».proof.Proof.KernelReads
import proofs.«111816_j43181601194857_2_alg».proof.Proof.BlockArray
import Idealize.ShloMosaic.Lib.StableHlo.Run

set_option maxRecDepth 16384

noncomputable section

namespace Cert.KernelArray

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.GenP Cert.KernelIdeal.ValueP
open Idealize.ShloMosaic.ValueIdx Cert.Layers Cert.Views Cert.KernelReads

variable (m : (ℓ : Loc nD τ sig) → Buf (Elt Ideal) ℓ) (ρ : Dev nD → PrngReg)

/-! ## The two buffers the host writes before the region -/

/-- The adjacency in the narrower format holds the same exact values. -/
theorem V_adj (c : Dev nD) : (V m c main_v0 : S8x2048x2048.Idx → EReal) = m ((c : Thread nD τ).loc main_arg1) := by
  dsimp only [Gen.V, Gen.hostOps0]
  after_results
  rfl

/-- The mask with a trailing unit axis. -/
theorem V_mask (c : Dev nD) : (V m c main_v1 : S8x2048x1.Idx → EReal)
    = broadcastInDim S8x2048x1 ![0, 1] bcast_S8x2048_S8x2048x1_0_1 (m ((c : Thread nD τ).loc main_arg2)) := by
  dsimp only [Gen.V, Gen.hostOps0]
  after_results

/-! ## What point t reads, as samples of the arguments -/

theorem feat_slab (c : Dev nD) (t : Fin cfg0.N) :
    slab (iblk m c 0 t : Vec Ideal S1x2048x256 .f32) 0 = slab (m ((c : Thread nD τ).loc main_arg0)) (sample t) := by
  funext p q
  exact (block_x m c t p q).trans (congrFun (V_main_arg0 m c) _)

theorem adj_slab (c : Dev nD) (t : Fin cfg0.N) :
    slab (iblk m c 1 t : Vec Ideal S1x2048x2048 .bf16) 0 = slab (m ((c : Thread nD τ).loc main_arg1)) (sample t) := by
  funext p q
  exact (block_adj m c t p q).trans (congrFun (V_adj m c) _)

theorem mask_col (c : Dev nD) (t : Fin cfg0.N) :
    colOf (iblk m c 2 t : Vec Ideal S1x2048x1 .f32) 0 = rowOf (m ((c : Thread nD τ).loc main_arg2)) (sample t) := by
  funext p
  refine (block_mask m c t p 0).trans ((congrFun (V_mask m c) _).trans ?_)
  exact broadcastInDim_apply _ bcast_S8x2048_S8x2048x1_0_1 _ (ix3 (sample t) p (0 : Fin 1)) (ix2 (sample t) p) (fun a => match a with
    | ⟨0, _⟩ => by show t.val = if (8 : Nat) = 1 then 0 else t.val; rw [if_neg (by decide)]
    | ⟨1, _⟩ => by show p.val = if (2048 : Nat) = 1 then 0 else p.val; rw [if_neg (by decide)])

/-! ## The result array -/

/-- The result of the launch contents of the arguments. -/
abbrev R (c : Dev nD) : S8x2048x256.Idx → EReal :=
  Cert.BlockArray.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) Cert.KernelPayloads.eps

/-- What point t writes back is block t of the result. -/
theorem flushed_eq (c : Dev nD) (t : Fin cfg0.N) :
    (dats m 0 c).flushed 23 t = ((cfg0.win 23).blk t).view.read (Elt Ideal) (R m c) := by
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  rw [flushed23_A]
  funext y
  rw [View.read_apply]
  have h0 : (y 0).val < 1 := ((cfg0.win 23).xinj (grid0.coords t) y 0).isLt
  have h1 : (y 1).val < 2048 := ((cfg0.win 23).xinj (grid0.coords t) y 1).isLt
  have h2 : (y 2).val < 256 := ((cfg0.win 23).xinj (grid0.coords t) y 2).isLt
  have hin : (cfg0.win 23).xinj (grid0.coords t) y = ix3 (⟨(y 0).val, h0⟩ : Fin 1) (⟨(y 1).val, h1⟩ : Fin 2048) (⟨(y 2).val, h2⟩ : Fin 256) :=
    funext fun a => Fin.ext (by match a with | ⟨0, _⟩ => rfl | ⟨1, _⟩ => rfl | ⟨2, _⟩ => rfl)
  have hemb : ((cfg0.win 23).blk t).view.emb y = ix3 (sample t) (⟨(y 1).val, h1⟩ : Fin 2048) (⟨(y 2).val, h2⟩ : Fin 256) :=
    funext fun a => Fin.ext (by
      match a with
      | ⟨0, _⟩ => show win0_23.index t (0 : Fin 3) * 1 + 1 * (y 0).val = t.val; rw [e23_0]; omega
      | ⟨1, _⟩ => show win0_23.index t (1 : Fin 3) * 2048 + 1 * (y 1).val = (y 1).val; rw [e23_1]; omega
      | ⟨2, _⟩ => show win0_23.index t (2 : Fin 3) * 256 + 1 * (y 2).val = (y 2).val; rw [e23_2]; omega)
  show out0_A_23 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) ((cfg0.win 23).xinj (grid0.coords t) y) = R m c (((cfg0.win 23).blk t).view.emb y)
  rw [hin, hemb]
  refine (congrFun (congrFun (Cert.KernelPiece.slab_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (⟨(y 0).val, h0⟩ : Fin 1)) (⟨(y 1).val, h1⟩ : Fin 2048)) (⟨(y 2).val, h2⟩ : Fin 256)).trans ?_
  show _ = block _ _ _ _ _ _ _ _ _ _ _ _ _ _ _ _ _ _ _ _ _ _ _ _ (⟨(y 1).val, h1⟩ : Fin 2048) (⟨(y 2).val, h2⟩ : Fin 256)
  rw [feat_slab m c t, adj_slab m c t, mask_col m c t, block3 m c t, V_main_arg3 m c, block4 m c t, V_main_arg4 m c, block5 m c t, V_main_arg5 m c, block6 m c t, V_main_arg6 m c, block7 m c t, V_main_arg7 m c, block8 m c t, V_main_arg8 m c, block9 m c t, V_main_arg9 m c, block10 m c t, V_main_arg10 m c, block11 m c t, V_main_arg11 m c, block12 m c t, V_main_arg12 m c, block13 m c t, V_main_arg13 m c, block14 m c t, V_main_arg14 m c, block15 m c t, V_main_arg15 m c, block16 m c t, V_main_arg16 m c, block17 m c t, V_main_arg17 m c, block18 m c t, V_main_arg18 m c, block19 m c t, V_main_arg19 m c, block20 m c t, V_main_arg20 m c, block21 m c t, V_main_arg21 m c, block22 m c t, V_main_arg22 m c]

/-- Every index of the result array lies in the block of the point that works on its sample. -/
theorem covered (c : Dev nD) (i : S8x2048x256.Idx) :
    ∃ t : Fin cfg0.N, (cfg0.win 23).flush t = true ∧ i ∈ ((cfg0.win 23).blk t).view.set := by
  have hN : cfg0.N = 8 := N_0
  have b0 : (i 0 : Nat) < 8 := (i 0).isLt
  have b1 : (i 1 : Nat) < 2048 := (i 1).isLt
  have b2 : (i 2 : Nat) < 256 := (i 2).isLt
  obtain ⟨t, ht⟩ : ∃ t : Fin cfg0.N, t.val = (i 0 : Nat) := ⟨⟨(i 0 : Nat), by omega⟩, rfl⟩
  obtain ⟨e0_0, e0_1, e0_2, e1_0, e1_1, e1_2, e2_0, e2_1, e2_2, e23_0, e23_1, e23_2, e3_0, e3_1, e4_0, e5_0, e5_1, e5_2, e6_0, e6_1, e7_0, e7_1, e7_2, e8_0, e8_1, e9_0, e9_1, e9_2, e10_0, e10_1, e11_0, e11_1, e12_0, e12_1, e13_0, e13_1, e14_0, e14_1, e15_0, e16_0, e17_0, e18_0, e19_0, e19_1, e20_0, e21_0, e21_1, e22_0⟩ := index_facts t
  refine ⟨t, flush0_23 t, ?_⟩
  show i ∈ ((View.whole main_v2).slice (win0_23.rect t)).set
  rw [View.set_slice_whole, Rect.mem_set_unit]
  intro a
  match a with
  | ⟨0, _⟩ => show win0_23.index t (0 : Fin 3) * 1 ≤ (i 0 : Nat) ∧ (i 0 : Nat) < win0_23.index t (0 : Fin 3) * 1 + 1; rw [e23_0]; omega
  | ⟨1, _⟩ => show win0_23.index t (1 : Fin 3) * 2048 ≤ (i 1 : Nat) ∧ (i 1 : Nat) < win0_23.index t (1 : Fin 3) * 2048 + 2048; rw [e23_1]; omega
  | ⟨2, _⟩ => show win0_23.index t (2 : Fin 3) * 256 ≤ (i 2 : Nat) ∧ (i 2 : Nat) < win0_23.index t (2 : Fin 3) * 256 + 256; rw [e23_2]; omega

/-- So the result array ends holding the result. -/
theorem final (c : Dev nD) : (dats m 0 c).arrAt 23 cfg0.N = R m c :=
  (dats m 0 c).arrAt_eq_of_cover 23 (R m c) (fun t _ => flushed_eq m c t) (covered c)

/-- The kernel's run: it terminates with the result array at the result of its arguments, which it leaves unchanged. -/
theorem run : θ_run defs (onTc (τ := τ) (main (F := Ideal))) ⟨m, fun _ => 0, ρ⟩ fun r => ∀ c : Dev nD,
      r.2.mem ((c : Thread nD τ).loc main_v2) = R m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨(h c).1.trans (final m c), (h c).2⟩) (run_blocks m ρ)

end Cert.KernelArray

end
-- ==== Proof.RefOps.lean ====
/-
  The reference's array operations read as layer operations, sample by sample.

  The reference keeps the batch as a leading axis: a [8, N, U] array is eight N×U matrices, the adjacency eight N×N
  matrices, the key-value contraction eight U×U matrices.  Slab b of each contraction is a matrix product of slabs
  (of a slab with a shared weight matrix when the right operand has no batch axis); a bias repeated over batch and
  nodes is a repeated row, the mask repeated over features a repeated column; one slab of a stacked weight, cut
  out and flattened, is that slab.  The reference spells silu as t · (1 / (1 + e^(-t))), which is the same
  function of t.
-/
import proofs.«111816_j43181601194857_2_alg».proof.ReferenceIdeal
import proofs.«111816_j43181601194857_2_alg».proof.Proof.Gen.ReferenceIdeal
import Idealize.ShloMosaic.Lib.Pipeline.Value
import Idealize.ShloMosaic.Lib.ValueIdx
import Idealize.ShloMosaic.PureOps.Ideal.Laws
import proofs.«111816_j43181601194857_2_alg».proof.Proof.Views
import Idealize.ShloMosaic.Lib.IdealHost

noncomputable section

open scoped BigOperators

namespace Cert.RefOps

open Cert.ReferenceIdeal Cert.ReferenceIdeal.Gen
open Idealize.ShloMosaic Idealize.ShloMosaic.ValueIdx Cert.Layers Cert.Views

/-! ## Which coordinate of an operand each axis of the four contractions reads

For an output index i and a contraction position q: a batch or kept axis reads i's coordinate, the contracted axis reads q. -/

theorem feat_lhs0 (i : S8x2048x256.Idx) (q : dot_S8x2048x256_S256x256_S8x2048x256_2_0_01_1_n_n.contr.Idx) :
    (dot_S8x2048x256_S256x256_S8x2048x256_2_0_01_1_n_n.lhsIdx i q 0).val = (i 0).val := by
  unfold DotDims.lhsIdx
  rw [dif_neg (show ¬(0 : Fin S8x2048x256.rank) ∈ dot_S8x2048x256_S256x256_S8x2048x256_2_0_01_1_n_n.lhsBatch by decide), dif_pos (show (0 : Fin S8x2048x256.rank) ∈ dot_S8x2048x256_S256x256_S8x2048x256_2_0_01_1_n_n.lhsNonContracting by decide)]
  rfl
theorem feat_lhs1 (i : S8x2048x256.Idx) (q : dot_S8x2048x256_S256x256_S8x2048x256_2_0_01_1_n_n.contr.Idx) :
    (dot_S8x2048x256_S256x256_S8x2048x256_2_0_01_1_n_n.lhsIdx i q 1).val = (i 1).val := by
  unfold DotDims.lhsIdx
  rw [dif_neg (show ¬(1 : Fin S8x2048x256.rank) ∈ dot_S8x2048x256_S256x256_S8x2048x256_2_0_01_1_n_n.lhsBatch by decide), dif_pos (show (1 : Fin S8x2048x256.rank) ∈ dot_S8x2048x256_S256x256_S8x2048x256_2_0_01_1_n_n.lhsNonContracting by decide)]
  rfl
theorem feat_lhs2 (i : S8x2048x256.Idx) (q : dot_S8x2048x256_S256x256_S8x2048x256_2_0_01_1_n_n.contr.Idx) :
    (dot_S8x2048x256_S256x256_S8x2048x256_2_0_01_1_n_n.lhsIdx i q 2).val = (q ⟨0, by decide⟩).val :=
  dot_S8x2048x256_S256x256_S8x2048x256_2_0_01_1_n_n.lhsIdx_val_of_single rfl i q
theorem feat_rhs0 (i : S8x2048x256.Idx) (q : dot_S8x2048x256_S256x256_S8x2048x256_2_0_01_1_n_n.contr.Idx) :
    (dot_S8x2048x256_S256x256_S8x2048x256_2_0_01_1_n_n.rhsIdx i q 0).val = (q ⟨0, by decide⟩).val :=
  dot_S8x2048x256_S256x256_S8x2048x256_2_0_01_1_n_n.rhsIdx_val_of_single rfl i q
theorem feat_rhs1 (i : S8x2048x256.Idx) (q : dot_S8x2048x256_S256x256_S8x2048x256_2_0_01_1_n_n.contr.Idx) :
    (dot_S8x2048x256_S256x256_S8x2048x256_2_0_01_1_n_n.rhsIdx i q 1).val = (i 2).val := by
  unfold DotDims.rhsIdx
  rw [dif_neg (show ¬(1 : Fin S256x256.rank) ∈ dot_S8x2048x256_S256x256_S8x2048x256_2_0_01_1_n_n.rhsBatch by decide), dif_pos (show (1 : Fin S256x256.rank) ∈ dot_S8x2048x256_S256x256_S8x2048x256_2_0_01_1_n_n.rhsNonContracting by decide)]
  rfl
theorem adj_lhs0 (i : S8x2048x256.Idx) (q : dot_S8x2048x2048_S8x2048x256_S8x2048x256_2_1_1_2_0_0.contr.Idx) :
    (dot_S8x2048x2048_S8x2048x256_S8x2048x256_2_1_1_2_0_0.lhsIdx i q 0).val = (i 0).val := by
  unfold DotDims.lhsIdx
  rw [dif_pos (show (0 : Fin S8x2048x2048.rank) ∈ dot_S8x2048x2048_S8x2048x256_S8x2048x256_2_1_1_2_0_0.lhsBatch by decide)]
  rfl
theorem adj_lhs1 (i : S8x2048x256.Idx) (q : dot_S8x2048x2048_S8x2048x256_S8x2048x256_2_1_1_2_0_0.contr.Idx) :
    (dot_S8x2048x2048_S8x2048x256_S8x2048x256_2_1_1_2_0_0.lhsIdx i q 1).val = (i 1).val := by
  unfold DotDims.lhsIdx
  rw [dif_neg (show ¬(1 : Fin S8x2048x2048.rank) ∈ dot_S8x2048x2048_S8x2048x256_S8x2048x256_2_1_1_2_0_0.lhsBatch by decide), dif_pos (show (1 : Fin S8x2048x2048.rank) ∈ dot_S8x2048x2048_S8x2048x256_S8x2048x256_2_1_1_2_0_0.lhsNonContracting by decide)]
  rfl
theorem adj_lhs2 (i : S8x2048x256.Idx) (q : dot_S8x2048x2048_S8x2048x256_S8x2048x256_2_1_1_2_0_0.contr.Idx) :
    (dot_S8x2048x2048_S8x2048x256_S8x2048x256_2_1_1_2_0_0.lhsIdx i q 2).val = (q ⟨0, by decide⟩).val :=
  dot_S8x2048x2048_S8x2048x256_S8x2048x256_2_1_1_2_0_0.lhsIdx_val_of_single rfl i q
theorem adj_rhs0 (i : S8x2048x256.Idx) (q : dot_S8x2048x2048_S8x2048x256_S8x2048x256_2_1_1_2_0_0.contr.Idx) :
    (dot_S8x2048x2048_S8x2048x256_S8x2048x256_2_1_1_2_0_0.rhsIdx i q 0).val = (i 0).val := by
  unfold DotDims.rhsIdx
  rw [dif_pos (show (0 : Fin S8x2048x256.rank) ∈ dot_S8x2048x2048_S8x2048x256_S8x2048x256_2_1_1_2_0_0.rhsBatch by decide)]
  rfl
theorem adj_rhs1 (i : S8x2048x256.Idx) (q : dot_S8x2048x2048_S8x2048x256_S8x2048x256_2_1_1_2_0_0.contr.Idx) :
    (dot_S8x2048x2048_S8x2048x256_S8x2048x256_2_1_1_2_0_0.rhsIdx i q 1).val = (q ⟨0, by decide⟩).val :=
  dot_S8x2048x2048_S8x2048x256_S8x2048x256_2_1_1_2_0_0.rhsIdx_val_of_single rfl i q
theorem adj_rhs2 (i : S8x2048x256.Idx) (q : dot_S8x2048x2048_S8x2048x256_S8x2048x256_2_1_1_2_0_0.contr.Idx) :
    (dot_S8x2048x2048_S8x2048x256_S8x2048x256_2_1_1_2_0_0.rhsIdx i q 2).val = (i 2).val := by
  unfold DotDims.rhsIdx
  rw [dif_neg (show ¬(2 : Fin S8x2048x256.rank) ∈ dot_S8x2048x2048_S8x2048x256_S8x2048x256_2_1_1_2_0_0.rhsBatch by decide), dif_pos (show (2 : Fin S8x2048x256.rank) ∈ dot_S8x2048x2048_S8x2048x256_S8x2048x256_2_1_1_2_0_0.rhsNonContracting by decide)]
  rfl
theorem kv_lhs0 (i : S8x256x256.Idx) (q : dot_S8x2048x256_S8x2048x256_S8x256x256_1_1_2_2_0_0.contr.Idx) :
    (dot_S8x2048x256_S8x2048x256_S8x256x256_1_1_2_2_0_0.lhsIdx i q 0).val = (i 0).val := by
  unfold DotDims.lhsIdx
  rw [dif_pos (show (0 : Fin S8x2048x256.rank) ∈ dot_S8x2048x256_S8x2048x256_S8x256x256_1_1_2_2_0_0.lhsBatch by decide)]
  rfl
theorem kv_lhs1 (i : S8x256x256.Idx) (q : dot_S8x2048x256_S8x2048x256_S8x256x256_1_1_2_2_0_0.contr.Idx) :
    (dot_S8x2048x256_S8x2048x256_S8x256x256_1_1_2_2_0_0.lhsIdx i q 1).val = (q ⟨0, by decide⟩).val :=
  dot_S8x2048x256_S8x2048x256_S8x256x256_1_1_2_2_0_0.lhsIdx_val_of_single rfl i q
theorem kv_lhs2 (i : S8x256x256.Idx) (q : dot_S8x2048x256_S8x2048x256_S8x256x256_1_1_2_2_0_0.contr.Idx) :
    (dot_S8x2048x256_S8x2048x256_S8x256x256_1_1_2_2_0_0.lhsIdx i q 2).val = (i 1).val := by
  unfold DotDims.lhsIdx
  rw [dif_neg (show ¬(2 : Fin S8x2048x256.rank) ∈ dot_S8x2048x256_S8x2048x256_S8x256x256_1_1_2_2_0_0.lhsBatch by decide), dif_pos (show (2 : Fin S8x2048x256.rank) ∈ dot_S8x2048x256_S8x2048x256_S8x256x256_1_1_2_2_0_0.lhsNonContracting by decide)]
  rfl
theorem kv_rhs0 (i : S8x256x256.Idx) (q : dot_S8x2048x256_S8x2048x256_S8x256x256_1_1_2_2_0_0.contr.Idx) :
    (dot_S8x2048x256_S8x2048x256_S8x256x256_1_1_2_2_0_0.rhsIdx i q 0).val = (i 0).val := by
  unfold DotDims.rhsIdx
  rw [dif_pos (show (0 : Fin S8x2048x256.rank) ∈ dot_S8x2048x256_S8x2048x256_S8x256x256_1_1_2_2_0_0.rhsBatch by decide)]
  rfl
theorem kv_rhs1 (i : S8x256x256.Idx) (q : dot_S8x2048x256_S8x2048x256_S8x256x256_1_1_2_2_0_0.contr.Idx) :
    (dot_S8x2048x256_S8x2048x256_S8x256x256_1_1_2_2_0_0.rhsIdx i q 1).val = (q ⟨0, by decide⟩).val :=
  dot_S8x2048x256_S8x2048x256_S8x256x256_1_1_2_2_0_0.rhsIdx_val_of_single rfl i q
theorem kv_rhs2 (i : S8x256x256.Idx) (q : dot_S8x2048x256_S8x2048x256_S8x256x256_1_1_2_2_0_0.contr.Idx) :
    (dot_S8x2048x256_S8x2048x256_S8x256x256_1_1_2_2_0_0.rhsIdx i q 2).val = (i 2).val := by
  unfold DotDims.rhsIdx
  rw [dif_neg (show ¬(2 : Fin S8x2048x256.rank) ∈ dot_S8x2048x256_S8x2048x256_S8x256x256_1_1_2_2_0_0.rhsBatch by decide), dif_pos (show (2 : Fin S8x2048x256.rank) ∈ dot_S8x2048x256_S8x2048x256_S8x256x256_1_1_2_2_0_0.rhsNonContracting by decide)]
  rfl
theorem qkv_lhs0 (i : S8x2048x256.Idx) (q : dot_S8x2048x256_S8x256x256_S8x2048x256_2_1_1_2_0_0.contr.Idx) :
    (dot_S8x2048x256_S8x256x256_S8x2048x256_2_1_1_2_0_0.lhsIdx i q 0).val = (i 0).val := by
  unfold DotDims.lhsIdx
  rw [dif_pos (show (0 : Fin S8x2048x256.rank) ∈ dot_S8x2048x256_S8x256x256_S8x2048x256_2_1_1_2_0_0.lhsBatch by decide)]
  rfl
theorem qkv_lhs1 (i : S8x2048x256.Idx) (q : dot_S8x2048x256_S8x256x256_S8x2048x256_2_1_1_2_0_0.contr.Idx) :
    (dot_S8x2048x256_S8x256x256_S8x2048x256_2_1_1_2_0_0.lhsIdx i q 1).val = (i 1).val := by
  unfold DotDims.lhsIdx
  rw [dif_neg (show ¬(1 : Fin S8x2048x256.rank) ∈ dot_S8x2048x256_S8x256x256_S8x2048x256_2_1_1_2_0_0.lhsBatch by decide), dif_pos (show (1 : Fin S8x2048x256.rank) ∈ dot_S8x2048x256_S8x256x256_S8x2048x256_2_1_1_2_0_0.lhsNonContracting by decide)]
  rfl
theorem qkv_lhs2 (i : S8x2048x256.Idx) (q : dot_S8x2048x256_S8x256x256_S8x2048x256_2_1_1_2_0_0.contr.Idx) :
    (dot_S8x2048x256_S8x256x256_S8x2048x256_2_1_1_2_0_0.lhsIdx i q 2).val = (q ⟨0, by decide⟩).val :=
  dot_S8x2048x256_S8x256x256_S8x2048x256_2_1_1_2_0_0.lhsIdx_val_of_single rfl i q
theorem qkv_rhs0 (i : S8x2048x256.Idx) (q : dot_S8x2048x256_S8x256x256_S8x2048x256_2_1_1_2_0_0.contr.Idx) :
    (dot_S8x2048x256_S8x256x256_S8x2048x256_2_1_1_2_0_0.rhsIdx i q 0).val = (i 0).val := by
  unfold DotDims.rhsIdx
  rw [dif_pos (show (0 : Fin S8x256x256.rank) ∈ dot_S8x2048x256_S8x256x256_S8x2048x256_2_1_1_2_0_0.rhsBatch by decide)]
  rfl
theorem qkv_rhs1 (i : S8x2048x256.Idx) (q : dot_S8x2048x256_S8x256x256_S8x2048x256_2_1_1_2_0_0.contr.Idx) :
    (dot_S8x2048x256_S8x256x256_S8x2048x256_2_1_1_2_0_0.rhsIdx i q 1).val = (q ⟨0, by decide⟩).val :=
  dot_S8x2048x256_S8x256x256_S8x2048x256_2_1_1_2_0_0.rhsIdx_val_of_single rfl i q
theorem qkv_rhs2 (i : S8x2048x256.Idx) (q : dot_S8x2048x256_S8x256x256_S8x2048x256_2_1_1_2_0_0.contr.Idx) :
    (dot_S8x2048x256_S8x256x256_S8x2048x256_2_1_1_2_0_0.rhsIdx i q 2).val = (i 2).val := by
  unfold DotDims.rhsIdx
  rw [dif_neg (show ¬(2 : Fin S8x256x256.rank) ∈ dot_S8x2048x256_S8x256x256_S8x2048x256_2_1_1_2_0_0.rhsBatch by decide), dif_pos (show (2 : Fin S8x256x256.rank) ∈ dot_S8x2048x256_S8x256x256_S8x2048x256_2_1_1_2_0_0.rhsNonContracting by decide)]
  rfl

/-! ## The four contractions, read at an index -/

/-- A [8, N, U] array times a shared U×U matrix: entry (b, p, q) sums over the feature k. -/
theorem dotFeat_apply (A : S8x2048x256.Idx → EReal) (X : S256x256.Idx → EReal) (b : Fin 8) (p : Fin 2048) (q : Fin 256) :
    Host.dotGeneral (F := Ideal) (φ₁ := .f32) (φ₂ := .f32) dot_S8x2048x256_S256x256_S8x2048x256_2_0_01_1_n_n none A X (ix3 b p q)
      = ∑ k : Fin 256, A (ix3 b p k) * X (ix2 k q) := by
  simp only [Host.dotGeneral]
  rw [Ideal.dotGeneral_apply, ← Equiv.sum_comp (ValueIdx.contrEquiv1 dot_S8x2048x256_S256x256_S8x2048x256_2_0_01_1_n_n 256 rfl rfl).symm]
  refine Finset.sum_congr rfl fun k _ => ?_
  have hk := ValueIdx.contrEquiv1_symm_val dot_S8x2048x256_S256x256_S8x2048x256_2_0_01_1_n_n 256 rfl rfl k
  have el : dot_S8x2048x256_S256x256_S8x2048x256_2_0_01_1_n_n.lhsIdx (ix3 b p q) ((ValueIdx.contrEquiv1 dot_S8x2048x256_S256x256_S8x2048x256_2_0_01_1_n_n 256 rfl rfl).symm k) = ix3 b p k :=
    funext fun a => Fin.ext (by
      match a with
      | ⟨0, _⟩ => exact feat_lhs0 _ _
      | ⟨1, _⟩ => exact feat_lhs1 _ _
      | ⟨2, _⟩ => exact (feat_lhs2 _ _).trans hk)
  have er : dot_S8x2048x256_S256x256_S8x2048x256_2_0_01_1_n_n.rhsIdx (ix3 b p q) ((ValueIdx.contrEquiv1 dot_S8x2048x256_S256x256_S8x2048x256_2_0_01_1_n_n 256 rfl rfl).symm k) = ix2 k q :=
    funext fun a => Fin.ext (by
      match a with
      | ⟨0, _⟩ => exact (feat_rhs0 _ _).trans hk
      | ⟨1, _⟩ => exact feat_rhs1 _ _)
  rw [el, er]

/-- The adjacency times the features, sample by sample: entry (b, p, q) sums over the neighbour k. -/
theorem dotAdj_apply (A : S8x2048x2048.Idx → EReal) (X : S8x2048x256.Idx → EReal) (b : Fin 8) (p : Fin 2048) (q : Fin 256) :
    Host.dotGeneral (F := Ideal) (φ₁ := .f32) (φ₂ := .f32) dot_S8x2048x2048_S8x2048x256_S8x2048x256_2_1_1_2_0_0 none A X (ix3 b p q)
      = ∑ k : Fin 2048, A (ix3 b p k) * X (ix3 b k q) := by
  simp only [Host.dotGeneral]
  rw [Ideal.dotGeneral_apply, ← Equiv.sum_comp (ValueIdx.contrEquiv1 dot_S8x2048x2048_S8x2048x256_S8x2048x256_2_1_1_2_0_0 2048 rfl rfl).symm]
  refine Finset.sum_congr rfl fun k _ => ?_
  have hk := ValueIdx.contrEquiv1_symm_val dot_S8x2048x2048_S8x2048x256_S8x2048x256_2_1_1_2_0_0 2048 rfl rfl k
  have el : dot_S8x2048x2048_S8x2048x256_S8x2048x256_2_1_1_2_0_0.lhsIdx (ix3 b p q) ((ValueIdx.contrEquiv1 dot_S8x2048x2048_S8x2048x256_S8x2048x256_2_1_1_2_0_0 2048 rfl rfl).symm k) = ix3 b p k :=
    funext fun a => Fin.ext (by
      match a with
      | ⟨0, _⟩ => exact adj_lhs0 _ _
      | ⟨1, _⟩ => exact adj_lhs1 _ _
      | ⟨2, _⟩ => exact (adj_lhs2 _ _).trans hk)
  have er : dot_S8x2048x2048_S8x2048x256_S8x2048x256_2_1_1_2_0_0.rhsIdx (ix3 b p q) ((ValueIdx.contrEquiv1 dot_S8x2048x2048_S8x2048x256_S8x2048x256_2_1_1_2_0_0 2048 rfl rfl).symm k) = ix3 b k q :=
    funext fun a => Fin.ext (by
      match a with
      | ⟨0, _⟩ => exact adj_rhs0 _ _
      | ⟨1, _⟩ => exact (adj_rhs1 _ _).trans hk
      | ⟨2, _⟩ => exact adj_rhs2 _ _)
  rw [el, er]

/-- Keys against values, contracted over the NODES, sample by sample: entry (b, p, q) sums over the node k. -/
theorem dotKV_apply (A : S8x2048x256.Idx → EReal) (X : S8x2048x256.Idx → EReal) (b : Fin 8) (p : Fin 256) (q : Fin 256) :
    Host.dotGeneral (F := Ideal) (φ₁ := .f32) (φ₂ := .f32) dot_S8x2048x256_S8x2048x256_S8x256x256_1_1_2_2_0_0 none A X (ix3 b p q)
      = ∑ k : Fin 2048, A (ix3 b k p) * X (ix3 b k q) := by
  simp only [Host.dotGeneral]
  rw [Ideal.dotGeneral_apply, ← Equiv.sum_comp (ValueIdx.contrEquiv1 dot_S8x2048x256_S8x2048x256_S8x256x256_1_1_2_2_0_0 2048 rfl rfl).symm]
  refine Finset.sum_congr rfl fun k _ => ?_
  have hk := ValueIdx.contrEquiv1_symm_val dot_S8x2048x256_S8x2048x256_S8x256x256_1_1_2_2_0_0 2048 rfl rfl k
  have el : dot_S8x2048x256_S8x2048x256_S8x256x256_1_1_2_2_0_0.lhsIdx (ix3 b p q) ((ValueIdx.contrEquiv1 dot_S8x2048x256_S8x2048x256_S8x256x256_1_1_2_2_0_0 2048 rfl rfl).symm k) = ix3 b k p :=
    funext fun a => Fin.ext (by
      match a with
      | ⟨0, _⟩ => exact kv_lhs0 _ _
      | ⟨1, _⟩ => exact (kv_lhs1 _ _).trans hk
      | ⟨2, _⟩ => exact kv_lhs2 _ _)
  have er : dot_S8x2048x256_S8x2048x256_S8x256x256_1_1_2_2_0_0.rhsIdx (ix3 b p q) ((ValueIdx.contrEquiv1 dot_S8x2048x256_S8x2048x256_S8x256x256_1_1_2_2_0_0 2048 rfl rfl).symm k) = ix3 b k q :=
    funext fun a => Fin.ext (by
      match a with
      | ⟨0, _⟩ => exact kv_rhs0 _ _
      | ⟨1, _⟩ => exact (kv_rhs1 _ _).trans hk
      | ⟨2, _⟩ => exact kv_rhs2 _ _)
  rw [el, er]

/-- Queries times the key-value matrix, sample by sample. -/
theorem dotQKV_apply (A : S8x2048x256.Idx → EReal) (X : S8x256x256.Idx → EReal) (b : Fin 8) (p : Fin 2048) (q : Fin 256) :
    Host.dotGeneral (F := Ideal) (φ₁ := .f32) (φ₂ := .f32) dot_S8x2048x256_S8x256x256_S8x2048x256_2_1_1_2_0_0 none A X (ix3 b p q)
      = ∑ k : Fin 256, A (ix3 b p k) * X (ix3 b k q) := by
  simp only [Host.dotGeneral]
  rw [Ideal.dotGeneral_apply, ← Equiv.sum_comp (ValueIdx.contrEquiv1 dot_S8x2048x256_S8x256x256_S8x2048x256_2_1_1_2_0_0 256 rfl rfl).symm]
  refine Finset.sum_congr rfl fun k _ => ?_
  have hk := ValueIdx.contrEquiv1_symm_val dot_S8x2048x256_S8x256x256_S8x2048x256_2_1_1_2_0_0 256 rfl rfl k
  have el : dot_S8x2048x256_S8x256x256_S8x2048x256_2_1_1_2_0_0.lhsIdx (ix3 b p q) ((ValueIdx.contrEquiv1 dot_S8x2048x256_S8x256x256_S8x2048x256_2_1_1_2_0_0 256 rfl rfl).symm k) = ix3 b p k :=
    funext fun a => Fin.ext (by
      match a with
      | ⟨0, _⟩ => exact qkv_lhs0 _ _
      | ⟨1, _⟩ => exact qkv_lhs1 _ _
      | ⟨2, _⟩ => exact (qkv_lhs2 _ _).trans hk)
  have er : dot_S8x2048x256_S8x256x256_S8x2048x256_2_1_1_2_0_0.rhsIdx (ix3 b p q) ((ValueIdx.contrEquiv1 dot_S8x2048x256_S8x256x256_S8x2048x256_2_1_1_2_0_0 256 rfl rfl).symm k) = ix3 b k q :=
    funext fun a => Fin.ext (by
      match a with
      | ⟨0, _⟩ => exact qkv_rhs0 _ _
      | ⟨1, _⟩ => exact (qkv_rhs1 _ _).trans hk
      | ⟨2, _⟩ => exact qkv_rhs2 _ _)
  rw [el, er]

/-! ## The same, as matrices -/

theorem slab_dotFeat (A : S8x2048x256.Idx → EReal) (W : S256x256.Idx → EReal) (b : Fin 8) :
    slab (Host.dotGeneral (F := Ideal) (φ₁ := .f32) (φ₂ := .f32) dot_S8x2048x256_S256x256_S8x2048x256_2_0_01_1_n_n none A W) b
      = mm (slab A b) (mat W) :=
  funext fun p => funext fun q => dotFeat_apply A W b p q

theorem slab_dotAdj (A : S8x2048x2048.Idx → EReal) (X : S8x2048x256.Idx → EReal) (b : Fin 8) :
    slab (Host.dotGeneral (F := Ideal) (φ₁ := .f32) (φ₂ := .f32) dot_S8x2048x2048_S8x2048x256_S8x2048x256_2_1_1_2_0_0 none A X) b
      = mm (slab A b) (slab X b) :=
  funext fun p => funext fun q => dotAdj_apply A X b p q

theorem slab_dotKV (P V : S8x2048x256.Idx → EReal) (b : Fin 8) :
    slab (Host.dotGeneral (F := Ideal) (φ₁ := .f32) (φ₂ := .f32) dot_S8x2048x256_S8x2048x256_S8x256x256_1_1_2_2_0_0 none P V) b
      = mmT (slab P b) (slab V b) :=
  funext fun p => funext fun q => dotKV_apply P V b p q

theorem slab_dotQKV (Q : S8x2048x256.Idx → EReal) (KV : S8x256x256.Idx → EReal) (b : Fin 8) :
    slab (Host.dotGeneral (F := Ideal) (φ₁ := .f32) (φ₂ := .f32) dot_S8x2048x256_S8x256x256_S8x2048x256_2_1_1_2_0_0 none Q KV) b
      = mm (slab Q b) (slab KV b) :=
  funext fun p => funext fun q => dotQKV_apply Q KV b p q

/-! ## Repeated rows and columns -/

/-- A length-U vector repeated over batch and nodes. -/
theorem slab_biasRepeat (v : S256.Idx → EReal) (b : Fin 8) :
    slab (broadcastInDim S8x2048x256 ![0, 1, 2] bcast_S1x1x256_S8x2048x256_0_1_2
      (broadcastInDim S1x1x256 ![2] bcast_S256_S1x1x256_2 v)) b = rowB (vec v) := by
  funext p q
  refine (broadcastInDim_apply _ bcast_S1x1x256_S8x2048x256_0_1_2 _ (ix3 b p q) (ix3 (0 : Fin 1) (0 : Fin 1) q) (fun a => match a with
      | ⟨0, _⟩ => by show 0 = if (1 : Nat) = 1 then 0 else b.val; rw [if_pos rfl]
      | ⟨1, _⟩ => by show 0 = if (1 : Nat) = 1 then 0 else p.val; rw [if_pos rfl]
      | ⟨2, _⟩ => by show q.val = if (256 : Nat) = 1 then 0 else q.val; rw [if_neg (by decide)])).trans ?_
  exact broadcastInDim_apply _ bcast_S256_S1x1x256_2 v (ix3 (0 : Fin 1) (0 : Fin 1) q) (ix1 q) (fun a => match a with
      | ⟨0, _⟩ => by show q.val = if (256 : Nat) = 1 then 0 else q.val; rw [if_neg (by decide)])

/-- The [8, N] mask repeated over features. -/
theorem slab_maskRepeat (mk : S8x2048.Idx → EReal) (b : Fin 8) :
    slab (broadcastInDim S8x2048x256 ![0, 1, 2] bcast_S8x2048x1_S8x2048x256_0_1_2
      (broadcastInDim S8x2048x1 ![0, 1] bcast_S8x2048_S8x2048x1_0_1 mk)) b = colB (rowOf mk b) := by
  funext p q
  refine (broadcastInDim_apply _ bcast_S8x2048x1_S8x2048x256_0_1_2 _ (ix3 b p q) (ix3 b p (0 : Fin 1)) (fun a => match a with
      | ⟨0, _⟩ => by show b.val = if (8 : Nat) = 1 then 0 else b.val; rw [if_neg (by decide)]
      | ⟨1, _⟩ => by show p.val = if (2048 : Nat) = 1 then 0 else p.val; rw [if_neg (by decide)]
      | ⟨2, _⟩ => by show 0 = if (1 : Nat) = 1 then 0 else q.val; rw [if_pos rfl])).trans ?_
  exact broadcastInDim_apply _ bcast_S8x2048_S8x2048x1_0_1 mk (ix3 b p (0 : Fin 1)) (ix2 b p) (fun a => match a with
      | ⟨0, _⟩ => by show b.val = if (8 : Nat) = 1 then 0 else b.val; rw [if_neg (by decide)]
      | ⟨1, _⟩ => by show p.val = if (2048 : Nat) = 1 then 0 else p.val; rw [if_neg (by decide)])

/-! ## One slab of a stacked weight, one row of a stacked bias -/

theorem mat_weightSlab0 (W : S3x256x256.Idx → EReal) :
    mat (shapeCast S256x256 (extractStridedSlice S1x256x256 ![0, 0, 0] W slices_S3x256x256_S1x256x256_0_0_0)
      shapeCasts_S1x256x256_S256x256) = slab W 0 := by
  funext p q
  show shapeCast S256x256 _ shapeCasts_S1x256x256_S256x256 (ix2 p q) = W (ix3 (0 : Fin 3) p q)
  rw [shapeCast_1ab_ab_apply,
    extractStridedSlice_apply ![0, 0, 0] W slices_S3x256x256_S1x256x256_0_0_0 (ix3 (0 : Fin 1) p q) (ix3 (0 : Fin 3) p q) (fun a => match a with
      | ⟨0, _⟩ => by show 0 = 0 + 0; rfl
      | ⟨1, _⟩ => by show p.val = 0 + p.val; omega
      | ⟨2, _⟩ => by show q.val = 0 + q.val; omega)]

theorem vec_biasRow0 (B : S3x256.Idx → EReal) :
    vec (shapeCast S256 (extractStridedSlice S1x256 ![0, 0] B slices_S3x256_S1x256_0_0) shapeCasts_S1x256_S256)
      = rowOf B 0 := by
  funext d
  show shapeCast S256 _ shapeCasts_S1x256_S256 (ix1 d) = B (ix2 (0 : Fin 3) d)
  rw [shapeCast_1a_a_apply,
    extractStridedSlice_apply ![0, 0] B slices_S3x256_S1x256_0_0 (ix2 (0 : Fin 1) d) (ix2 (0 : Fin 3) d) (fun a => match a with
      | ⟨0, _⟩ => by show 0 = 0 + 0; rfl
      | ⟨1, _⟩ => by show d.val = 0 + d.val; omega)]

theorem mat_weightSlab1 (W : S3x256x256.Idx → EReal) :
    mat (shapeCast S256x256 (extractStridedSlice S1x256x256 ![1, 0, 0] W slices_S3x256x256_S1x256x256_1_0_0)
      shapeCasts_S1x256x256_S256x256) = slab W 1 := by
  funext p q
  show shapeCast S256x256 _ shapeCasts_S1x256x256_S256x256 (ix2 p q) = W (ix3 (1 : Fin 3) p q)
  rw [shapeCast_1ab_ab_apply,
    extractStridedSlice_apply ![1, 0, 0] W slices_S3x256x256_S1x256x256_1_0_0 (ix3 (0 : Fin 1) p q) (ix3 (1 : Fin 3) p q) (fun a => match a with
      | ⟨0, _⟩ => by show 1 = 1 + 0; rfl
      | ⟨1, _⟩ => by show p.val = 0 + p.val; omega
      | ⟨2, _⟩ => by show q.val = 0 + q.val; omega)]

theorem vec_biasRow1 (B : S3x256.Idx → EReal) :
    vec (shapeCast S256 (extractStridedSlice S1x256 ![1, 0] B slices_S3x256_S1x256_1_0) shapeCasts_S1x256_S256)
      = rowOf B 1 := by
  funext d
  show shapeCast S256 _ shapeCasts_S1x256_S256 (ix1 d) = B (ix2 (1 : Fin 3) d)
  rw [shapeCast_1a_a_apply,
    extractStridedSlice_apply ![1, 0] B slices_S3x256_S1x256_1_0 (ix2 (0 : Fin 1) d) (ix2 (1 : Fin 3) d) (fun a => match a with
      | ⟨0, _⟩ => by show 1 = 1 + 0; rfl
      | ⟨1, _⟩ => by show d.val = 0 + d.val; omega)]

theorem mat_weightSlab2 (W : S3x256x256.Idx → EReal) :
    mat (shapeCast S256x256 (extractStridedSlice S1x256x256 ![2, 0, 0] W slices_S3x256x256_S1x256x256_2_0_0)
      shapeCasts_S1x256x256_S256x256) = slab W 2 := by
  funext p q
  show shapeCast S256x256 _ shapeCasts_S1x256x256_S256x256 (ix2 p q) = W (ix3 (2 : Fin 3) p q)
  rw [shapeCast_1ab_ab_apply,
    extractStridedSlice_apply ![2, 0, 0] W slices_S3x256x256_S1x256x256_2_0_0 (ix3 (0 : Fin 1) p q) (ix3 (2 : Fin 3) p q) (fun a => match a with
      | ⟨0, _⟩ => by show 2 = 2 + 0; rfl
      | ⟨1, _⟩ => by show p.val = 0 + p.val; omega
      | ⟨2, _⟩ => by show q.val = 0 + q.val; omega)]

theorem vec_biasRow2 (B : S3x256.Idx → EReal) :
    vec (shapeCast S256 (extractStridedSlice S1x256 ![2, 0] B slices_S3x256_S1x256_2_0) shapeCasts_S1x256_S256)
      = rowOf B 2 := by
  funext d
  show shapeCast S256 _ shapeCasts_S1x256_S256 (ix1 d) = B (ix2 (2 : Fin 3) d)
  rw [shapeCast_1a_a_apply,
    extractStridedSlice_apply ![2, 0] B slices_S3x256_S1x256_2_0 (ix2 (0 : Fin 1) d) (ix2 (2 : Fin 3) d) (fun a => match a with
      | ⟨0, _⟩ => by show 2 = 2 + 0; rfl
      | ⟨1, _⟩ => by show d.val = 0 + d.val; omega)]

/-! ## silu as the reference spells it, and the shifted reciprocal square root -/

/-- t · (1 / (1 + e^(-t))) is silu t: the quotient is the logistic function by definition, the two ones being the
    value 1. -/
theorem slab_siluSpelt (X : S8x2048x256.Idx → EReal) (b : Fin 8) :
    slab (mulf (F := Ideal) (φ := .f32) X (Host.divf (broadcastInDim S8x2048x256 ![] bcast_S_S8x2048x256 (constant (F := Ideal) S_ .f32 0x3F800000#32))
      (addf (broadcastInDim S8x2048x256 ![] bcast_S_S8x2048x256 (constant (F := Ideal) S_ .f32 0x3F800000#32)) (Host.exp (Host.negf X))))) b
      = silu (slab X b) := by
  funext p q
  show X (ix3 b p q) * Ideal.div (broadcastInDim S8x2048x256 ![] bcast_S_S8x2048x256 (constant (F := Ideal) S_ .f32 0x3F800000#32) (ix3 b p q))
      (broadcastInDim S8x2048x256 ![] bcast_S_S8x2048x256 (constant (F := Ideal) S_ .f32 0x3F800000#32) (ix3 b p q) + Ideal.exp (-(X (ix3 b p q))))
    = X (ix3 b p q) * Ideal.logistic (X (ix3 b p q))
  rw [broadcastInDim_scalar_apply]
  show X (ix3 b p q) * Ideal.div (Ideal.ofBits .f32 0x3F800000#32) (Ideal.ofBits .f32 0x3F800000#32 + Ideal.exp (-(X (ix3 b p q)))) = _
  rw [Ideal.ofBits_one_f32]
  rfl

/-- rsqrt (v + ε) with ε a scalar repeated along the vector. -/
theorem vec_rsqrtShift (v : S256.Idx → EReal) (w : BitVec 32) :
    vec (Host.rsqrt (F := Ideal) (φ := .f32) (addf v (broadcastInDim S256 ![] bcast_S_S256 (constant (F := Ideal) S_ .f32 w))))
      = rsqrtShift (vec v) (Ideal.ofBits .f32 w) := by
  funext d
  show Ideal.rsqrt (v (ix1 d) + broadcastInDim S256 ![] bcast_S_S256 (constant (F := Ideal) S_ .f32 w) (ix1 d)) = _
  rw [broadcastInDim_scalar_apply]
  rfl

/-! ## The reference's layers as array functions

The same operations the reference applies, in its order and spelling, grouped into layers; each layer's slab b is
the corresponding matrix layer of the slabs. -/

/-- A length-U vector repeated over batch and nodes. -/
def rowArr (v : S256.Idx → EReal) : S8x2048x256.Idx → EReal :=
  broadcastInDim S8x2048x256 ![0, 1, 2] bcast_S1x1x256_S8x2048x256_0_1_2 (broadcastInDim S1x1x256 ![2] bcast_S256_S1x1x256_2 v)
theorem slab_rowArr (v : S256.Idx → EReal) (b : Fin 8) : slab (rowArr v) b = rowB (vec v) := slab_biasRepeat v b

/-- The mask repeated over features. -/
def colArr (mk : S8x2048.Idx → EReal) : S8x2048x256.Idx → EReal :=
  broadcastInDim S8x2048x256 ![0, 1, 2] bcast_S8x2048x1_S8x2048x256_0_1_2 (broadcastInDim S8x2048x1 ![0, 1] bcast_S8x2048_S8x2048x1_0_1 mk)
theorem slab_colArr (mk : S8x2048.Idx → EReal) (b : Fin 8) : slab (colArr mk) b = colB (rowOf mk b) := slab_maskRepeat mk b

/-- silu as the reference spells it. -/
def siluArr (X : S8x2048x256.Idx → EReal) : S8x2048x256.Idx → EReal :=
  mulf (F := Ideal) (φ := .f32) X (Host.divf (broadcastInDim S8x2048x256 ![] bcast_S_S8x2048x256 (constant (F := Ideal) S_ .f32 0x3F800000#32))
    (addf (broadcastInDim S8x2048x256 ![] bcast_S_S8x2048x256 (constant (F := Ideal) S_ .f32 0x3F800000#32)) (Host.exp (Host.negf X))))
theorem slab_siluArr (X : S8x2048x256.Idx → EReal) (b : Fin 8) : slab (siluArr X) b = silu (slab X b) := slab_siluSpelt X b

/-- h = x · W + bias. -/
def inputArr (x : S8x2048x256.Idx → EReal) (W : S256x256.Idx → EReal) (bias : S256.Idx → EReal) : S8x2048x256.Idx → EReal :=
  addf (F := Ideal) (φ := .f32) (Host.dotGeneral (F := Ideal) (φ₁ := .f32) (φ₂ := .f32) dot_S8x2048x256_S256x256_S8x2048x256_2_0_01_1_n_n none x W) (rowArr bias)
theorem slab_inputArr (x : S8x2048x256.Idx → EReal) (W : S256x256.Idx → EReal) (bias : S256.Idx → EReal) (b : Fin 8) :
    slab (inputArr x W bias) b = add (mm (slab x b) (mat W)) (rowB (vec bias)) := by
  unfold inputArr
  rw [slab_addf, slab_dotFeat, slab_rowArr]

/-- One message-passing step with weight slab 0. -/
def stepArr0 (A : S8x2048x2048.Idx → EReal) (W : S3x256x256.Idx → EReal) (B : S3x256.Idx → EReal) (X : S8x2048x256.Idx → EReal) : S8x2048x256.Idx → EReal :=
  siluArr (addf (F := Ideal) (φ := .f32)
    (Host.dotGeneral (F := Ideal) (φ₁ := .f32) (φ₂ := .f32) dot_S8x2048x256_S256x256_S8x2048x256_2_0_01_1_n_n none (Host.dotGeneral (F := Ideal) (φ₁ := .f32) (φ₂ := .f32) dot_S8x2048x2048_S8x2048x256_S8x2048x256_2_1_1_2_0_0 none A X) (shapeCast S256x256 (extractStridedSlice S1x256x256 ![0, 0, 0] W slices_S3x256x256_S1x256x256_0_0_0) shapeCasts_S1x256x256_S256x256))
    (rowArr (shapeCast S256 (extractStridedSlice S1x256 ![0, 0] B slices_S3x256_S1x256_0_0) shapeCasts_S1x256_S256)))
theorem slab_stepArr0 (A : S8x2048x2048.Idx → EReal) (W : S3x256x256.Idx → EReal) (B : S3x256.Idx → EReal) (X : S8x2048x256.Idx → EReal) (b : Fin 8) :
    slab (stepArr0 A W B X) b = step (slab A b) (slab W 0) (rowOf B 0) (slab X b) := by
  unfold stepArr0 step
  rw [slab_siluArr, slab_addf, slab_dotFeat, slab_dotAdj, slab_rowArr, mat_weightSlab0, vec_biasRow0]

/-- One message-passing step with weight slab 1. -/
def stepArr1 (A : S8x2048x2048.Idx → EReal) (W : S3x256x256.Idx → EReal) (B : S3x256.Idx → EReal) (X : S8x2048x256.Idx → EReal) : S8x2048x256.Idx → EReal :=
  siluArr (addf (F := Ideal) (φ := .f32)
    (Host.dotGeneral (F := Ideal) (φ₁ := .f32) (φ₂ := .f32) dot_S8x2048x256_S256x256_S8x2048x256_2_0_01_1_n_n none (Host.dotGeneral (F := Ideal) (φ₁ := .f32) (φ₂ := .f32) dot_S8x2048x2048_S8x2048x256_S8x2048x256_2_1_1_2_0_0 none A X) (shapeCast S256x256 (extractStridedSlice S1x256x256 ![1, 0, 0] W slices_S3x256x256_S1x256x256_1_0_0) shapeCasts_S1x256x256_S256x256))
    (rowArr (shapeCast S256 (extractStridedSlice S1x256 ![1, 0] B slices_S3x256_S1x256_1_0) shapeCasts_S1x256_S256)))
theorem slab_stepArr1 (A : S8x2048x2048.Idx → EReal) (W : S3x256x256.Idx → EReal) (B : S3x256.Idx → EReal) (X : S8x2048x256.Idx → EReal) (b : Fin 8) :
    slab (stepArr1 A W B X) b = step (slab A b) (slab W 1) (rowOf B 1) (slab X b) := by
  unfold stepArr1 step
  rw [slab_siluArr, slab_addf, slab_dotFeat, slab_dotAdj, slab_rowArr, mat_weightSlab1, vec_biasRow1]

/-- One message-passing step with weight slab 2. -/
def stepArr2 (A : S8x2048x2048.Idx → EReal) (W : S3x256x256.Idx → EReal) (B : S3x256.Idx → EReal) (X : S8x2048x256.Idx → EReal) : S8x2048x256.Idx → EReal :=
  siluArr (addf (F := Ideal) (φ := .f32)
    (Host.dotGeneral (F := Ideal) (φ₁ := .f32) (φ₂ := .f32) dot_S8x2048x256_S256x256_S8x2048x256_2_0_01_1_n_n none (Host.dotGeneral (F := Ideal) (φ₁ := .f32) (φ₂ := .f32) dot_S8x2048x2048_S8x2048x256_S8x2048x256_2_1_1_2_0_0 none A X) (shapeCast S256x256 (extractStridedSlice S1x256x256 ![2, 0, 0] W slices_S3x256x256_S1x256x256_2_0_0) shapeCasts_S1x256x256_S256x256))
    (rowArr (shapeCast S256 (extractStridedSlice S1x256 ![2, 0] B slices_S3x256_S1x256_2_0) shapeCasts_S1x256_S256)))
theorem slab_stepArr2 (A : S8x2048x2048.Idx → EReal) (W : S3x256x256.Idx → EReal) (B : S3x256.Idx → EReal) (X : S8x2048x256.Idx → EReal) (b : Fin 8) :
    slab (stepArr2 A W B X) b = step (slab A b) (slab W 2) (rowOf B 2) (slab X b) := by
  unfold stepArr2 step
  rw [slab_siluArr, slab_addf, slab_dotFeat, slab_dotAdj, slab_rowArr, mat_weightSlab2, vec_biasRow2]

/-- A stack's result times the mask. -/
def maskedArr (X : S8x2048x256.Idx → EReal) (mk : S8x2048.Idx → EReal) : S8x2048x256.Idx → EReal := mulf (F := Ideal) (φ := .f32) X (colArr mk)
theorem slab_maskedArr (X : S8x2048x256.Idx → EReal) (mk : S8x2048.Idx → EReal) (b : Fin 8) : slab (maskedArr X mk) b = mul (slab X b) (colB (rowOf mk b)) := by
  unfold maskedArr
  rw [slab_mulf, slab_colArr]

/-- Linear attention with the residual. -/
def attnArr (q k v x : S8x2048x256.Idx → EReal) (mk : S8x2048.Idx → EReal) (Wk Wv Wq Wo : S256x256.Idx → EReal) : S8x2048x256.Idx → EReal :=
  addf (F := Ideal) (φ := .f32)
    (Host.dotGeneral (F := Ideal) (φ₁ := .f32) (φ₂ := .f32) dot_S8x2048x256_S256x256_S8x2048x256_2_0_01_1_n_n none (Host.dotGeneral (F := Ideal) (φ₁ := .f32) (φ₂ := .f32) dot_S8x2048x256_S8x256x256_S8x2048x256_2_1_1_2_0_0 none (Host.dotGeneral (F := Ideal) (φ₁ := .f32) (φ₂ := .f32) dot_S8x2048x256_S256x256_S8x2048x256_2_0_01_1_n_n none q Wq) (Host.dotGeneral (F := Ideal) (φ₁ := .f32) (φ₂ := .f32) dot_S8x2048x256_S8x2048x256_S8x256x256_1_1_2_2_0_0 none (siluArr (mulf (F := Ideal) (φ := .f32) (Host.dotGeneral (F := Ideal) (φ₁ := .f32) (φ₂ := .f32) dot_S8x2048x256_S256x256_S8x2048x256_2_0_01_1_n_n none k Wk) (colArr mk))) (mulf (F := Ideal) (φ := .f32) (Host.dotGeneral (F := Ideal) (φ₁ := .f32) (φ₂ := .f32) dot_S8x2048x256_S256x256_S8x2048x256_2_0_01_1_n_n none v Wv) (colArr mk)))) Wo) x
theorem slab_attnArr (q k v x : S8x2048x256.Idx → EReal) (mk : S8x2048.Idx → EReal) (Wk Wv Wq Wo : S256x256.Idx → EReal) (b : Fin 8) :
    slab (attnArr q k v x mk Wk Wv Wq Wo) b
      = add (attention (slab q b) (slab k b) (slab v b) (rowOf mk b) (mat Wk) (mat Wv) (mat Wq) (mat Wo)) (slab x b) := by
  unfold attnArr attention
  rw [slab_addf, slab_dotFeat, slab_dotQKV, slab_dotFeat, slab_dotKV, slab_siluArr, slab_mulf, slab_dotFeat, slab_colArr, slab_mulf, slab_dotFeat,
    slab_colArr]

/-- Normalisation with the fixed statistics. -/
def normArr (y : S8x2048x256.Idx → EReal) (γ β mean var : S256.Idx → EReal) (w : BitVec 32) : S8x2048x256.Idx → EReal :=
  addf (F := Ideal) (φ := .f32)
    (mulf (F := Ideal) (φ := .f32) (mulf (F := Ideal) (φ := .f32) (rowArr γ) (subf (F := Ideal) (φ := .f32) y (rowArr mean)))
      (rowArr (Host.rsqrt (F := Ideal) (φ := .f32) (addf var (broadcastInDim S256 ![] bcast_S_S256 (constant (F := Ideal) S_ .f32 w))))))
    (rowArr β)
theorem slab_normArr (y : S8x2048x256.Idx → EReal) (γ β mean var : S256.Idx → EReal) (w : BitVec 32) (b : Fin 8) :
    slab (normArr y γ β mean var w) b = normalise (slab y b) (vec γ) (vec β) (vec mean) (vec var) (Ideal.ofBits .f32 w) := by
  unfold normArr normalise
  rw [slab_addf, slab_mulf, slab_mulf, slab_rowArr, slab_subf, slab_rowArr, slab_rowArr, slab_rowArr, vec_rsqrtShift]

/-- The two output layers and the mask, summed in the reference's order. -/
def outArr (y x : S8x2048x256.Idx → EReal) (mk : S8x2048.Idx → EReal) (Wproj : S256x256.Idx → EReal) (bproj : S256.Idx → EReal) (Wres : S256x256.Idx → EReal) (bres : S256.Idx → EReal) : S8x2048x256.Idx → EReal :=
  mulf (F := Ideal) (φ := .f32)
    (addf (F := Ideal) (φ := .f32) (addf (F := Ideal) (φ := .f32) (siluArr (addf (F := Ideal) (φ := .f32) (Host.dotGeneral (F := Ideal) (φ₁ := .f32) (φ₂ := .f32) dot_S8x2048x256_S256x256_S8x2048x256_2_0_01_1_n_n none y Wproj) (rowArr bproj))) (Host.dotGeneral (F := Ideal) (φ₁ := .f32) (φ₂ := .f32) dot_S8x2048x256_S256x256_S8x2048x256_2_0_01_1_n_n none x Wres)) (rowArr bres))
    (colArr mk)
theorem slab_outArr (y x : S8x2048x256.Idx → EReal) (mk : S8x2048.Idx → EReal) (Wproj : S256x256.Idx → EReal) (bproj : S256.Idx → EReal) (Wres : S256x256.Idx → EReal) (bres : S256.Idx → EReal) (b : Fin 8) :
    slab (outArr y x mk Wproj bproj Wres bres) b
      = mul (add (silu (add (mm (slab y b) (mat Wproj)) (rowB (vec bproj)))) (add (mm (slab x b) (mat Wres)) (rowB (vec bres)))) (colB (rowOf mk b)) := by
  unfold outArr
  rw [slab_mulf, slab_addf, slab_addf, slab_siluArr, slab_addf, slab_dotFeat, slab_rowArr, slab_dotFeat, slab_rowArr, slab_colArr, add_add_rowB]

end Cert.RefOps

end
-- ==== Proof.RefSegments.lean ====
/-
  The reference's operations in twenty short stretches: the input layer; three stacks of six message-passing steps
  (the sixth of each with its mask); the attention, normalisation and output layers.  For each stretch, run from ANY
  contents of the buffers: which buffers it writes, that it leaves every other buffer alone, and what slab b of its
  last buffer is, as a layer of the contents it started from.
-/
import proofs.«111816_j43181601194857_2_alg».proof.ReferenceIdeal
import proofs.«111816_j43181601194857_2_alg».proof.Proof.Gen.ReferenceIdeal
import proofs.«111816_j43181601194857_2_alg».proof.Proof.RefOps
import Idealize.ShloMosaic.Lib.StableHlo.Run

set_option maxRecDepth 16384

noncomputable section

namespace Cert.RefSegments

open Cert.ReferenceIdeal Cert.ReferenceIdeal.Gen Idealize.ShloMosaic Idealize.ShloMosaic.TcCoe Idealize.SL.Sem Idealize.ShloMosaic.StableHlo
open Idealize.ShloMosaic.ValueIdx Cert.Layers Cert.Views Cert.RefOps

variable {F : FTy → Type} [FloatOps F]

/-! ## The stretches -/

/-- Stretch 0 of the reference's operations (it ends by writing `main_v3`). -/
abbrev seg0 : List (HloOp τ sig (Elt F)) :=
  [ binary main_arg0 main_arg3 main_v0 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg4 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v0 main_v2 main_v3 (addf : (⟨S8x2048x256, .f32⟩ : BufTy).Contents (Elt F) → (⟨S8x2048x256, .f32⟩ : BufTy).Contents (Elt F) → (⟨S8x2048x256, .f32⟩ : BufTy).Contents (Elt F)) ]

/-- Stretch 1 of the reference's operations (it ends by writing `main_v13`). -/
abbrev seg1 : List (HloOp τ sig (Elt F)) :=
  [ binary main_arg1 main_v3 main_v4 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg5 main_v5 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v5 main_v6 rfl shapeCasts_S1x256x256_S256x256,
    binary main_v4 main_v6 main_v7 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg6 main_v8 ((extractStridedSlice S1x256 ![0, 0] · slices_S3x256_S1x256_0_0) : (⟨S3x256, .f32⟩ : BufTy).Contents (Elt F) → (⟨S1x256, .f32⟩ : BufTy).Contents (Elt F)),
    reshape main_v8 main_v9 rfl shapeCasts_S1x256_S256,
    unary main_v9 main_v10 (broadcastInDim S1x1x256 ![2] bcast_S256_S1x1x256_2 : (⟨S256, .f32⟩ : BufTy).Contents (Elt F) → (⟨S1x1x256, .f32⟩ : BufTy).Contents (Elt F)),
    unary main_v10 main_v11 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v7 main_v11 main_v12 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v12) (TRef.of (T := ⟨S8x2048x256, .f32⟩) main_call0_v0) Host.negf,
    TRef.unary (TRef.of (T := ⟨S8x2048x256, .f32⟩) main_call0_v0) (TRef.of (T := ⟨S8x2048x256, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S8x2048x256, .f32⟩) main_call0_v2) (broadcastInDim S8x2048x256 ![] bcast_S_S8x2048x256),
    TRef.binary (TRef.of (T := ⟨S8x2048x256, .f32⟩) main_call0_v2) (TRef.of (T := ⟨S8x2048x256, .f32⟩) main_call0_v1) (TRef.of (T := ⟨S8x2048x256, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S8x2048x256, .f32⟩) main_call0_v4) (broadcastInDim S8x2048x256 ![] bcast_S_S8x2048x256),
    TRef.binary (TRef.of (T := ⟨S8x2048x256, .f32⟩) main_call0_v4) (TRef.of (T := ⟨S8x2048x256, .f32⟩) main_call0_v3) (TRef.of (T := ⟨S8x2048x256, .f32⟩) main_call0_v5) Host.divf,
    TRef.binary (TRef.of (T := ⟨S8x2048x256, .f32⟩) main_v12) (TRef.of (T := ⟨S8x2048x256, .f32⟩) main_call0_v5) (TRef.of (T := ⟨S8x2048x256, .f32⟩) main_v13) mulf ]

/-- Stretch 2 of the reference's operations (it ends by writing `main_v23`). -/
abbrev seg2 : List (HloOp τ sig (Elt F)) :=
  [ binary main_arg1 main_v13 main_v14 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg5 main_v15 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v15 main_v16 rfl shapeCasts_S1x256x256_S256x256,
    binary main_v14 main_v16 main_v17 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg6 main_v18 ((extractStridedSlice S1x256 ![0, 0] · slices_S3x256_S1x256_0_0) : (⟨S3x256, .f32⟩ : BufTy).Contents (Elt F) → (⟨S1x256, .f32⟩ : BufTy).Contents (Elt F)),
    reshape main_v18 main_v19 rfl shapeCasts_S1x256_S256,
    unary main_v19 main_v20 (broadcastInDim S1x1x256 ![2] bcast_S256_S1x1x256_2 : (⟨S256, .f32⟩ : BufTy).Contents (Elt F) → (⟨S1x1x256, .f32⟩ : BufTy).Contents (Elt F)),
    unary main_v20 main_v21 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v17 main_v21 main_v22 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v22) (TRef.of (T := ⟨S8x2048x256, .f32⟩) main_call1_v0) Host.negf,
    TRef.unary (TRef.of (T := ⟨S8x2048x256, .f32⟩) main_call1_v0) (TRef.of (T := ⟨S8x2048x256, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S8x2048x256, .f32⟩) main_call1_v2) (broadcastInDim S8x2048x256 ![] bcast_S_S8x2048x256),
    TRef.binary (TRef.of (T := ⟨S8x2048x256, .f32⟩) main_call1_v2) (TRef.of (T := ⟨S8x2048x256, .f32⟩) main_call1_v1) (TRef.of (T := ⟨S8x2048x256, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S8x2048x256, .f32⟩) main_call1_v4) (broadcastInDim S8x2048x256 ![] bcast_S_S8x2048x256),
    TRef.binary (TRef.of (T := ⟨S8x2048x256, .f32⟩) main_call1_v4) (TRef.of (T := ⟨S8x2048x256, .f32⟩) main_call1_v3) (TRef.of (T := ⟨S8x2048x256, .f32⟩) main_call1_v5) Host.divf,
    TRef.binary (TRef.of (T := ⟨S8x2048x256, .f32⟩) main_v22) (TRef.of (T := ⟨S8x2048x256, .f32⟩) main_call1_v5) (TRef.of (T := ⟨S8x2048x256, .f32⟩) main_v23) mulf ]

/-- Stretch 3 of the reference's operations (it ends by writing `main_v33`). -/
abbrev seg3 : List (HloOp τ sig (Elt F)) :=
  [ binary main_arg1 main_v23 main_v24 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg5 main_v25 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v25 main_v26 rfl shapeCasts_S1x256x256_S256x256,
    binary main_v24 main_v26 main_v27 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg6 main_v28 ((extractStridedSlice S1x256 ![1, 0] · slices_S3x256_S1x256_1_0) : (⟨S3x256, .f32⟩ : BufTy).Contents (Elt F) → (⟨S1x256, .f32⟩ : BufTy).Contents (Elt F)),
    reshape main_v28 main_v29 rfl shapeCasts_S1x256_S256,
    unary main_v29 main_v30 (broadcastInDim S1x1x256 ![2] bcast_S256_S1x1x256_2 : (⟨S256, .f32⟩ : BufTy).Contents (Elt F) → (⟨S1x1x256, .f32⟩ : BufTy).Contents (Elt F)),
    unary main_v30 main_v31 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v27 main_v31 main_v32 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v32) (TRef.of (T := ⟨S8x2048x256, .f32⟩) main_call2_v0) Host.negf,
    TRef.unary (TRef.of (T := ⟨S8x2048x256, .f32⟩) main_call2_v0) (TRef.of (T := ⟨S8x2048x256, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S8x2048x256, .f32⟩) main_call2_v2) (broadcastInDim S8x2048x256 ![] bcast_S_S8x2048x256),
    TRef.binary (TRef.of (T := ⟨S8x2048x256, .f32⟩) main_call2_v2) (TRef.of (T := ⟨S8x2048x256, .f32⟩) main_call2_v1) (TRef.of (T := ⟨S8x2048x256, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S8x2048x256, .f32⟩) main_call2_v4) (broadcastInDim S8x2048x256 ![] bcast_S_S8x2048x256),
    TRef.binary (TRef.of (T := ⟨S8x2048x256, .f32⟩) main_call2_v4) (TRef.of (T := ⟨S8x2048x256, .f32⟩) main_call2_v3) (TRef.of (T := ⟨S8x2048x256, .f32⟩) main_call2_v5) Host.divf,
    TRef.binary (TRef.of (T := ⟨S8x2048x256, .f32⟩) main_v32) (TRef.of (T := ⟨S8x2048x256, .f32⟩) main_call2_v5) (TRef.of (T := ⟨S8x2048x256, .f32⟩) main_v33) mulf ]

/-- Stretch 4 of the reference's operations (it ends by writing `main_v43`). -/
abbrev seg4 : List (HloOp τ sig (Elt F)) :=
  [ binary main_arg1 main_v33 main_v34 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg5 main_v35 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v35 main_v36 rfl shapeCasts_S1x256x256_S256x256,
    binary main_v34 main_v36 main_v37 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg6 main_v38 ((extractStridedSlice S1x256 ![1, 0] · slices_S3x256_S1x256_1_0) : (⟨S3x256, .f32⟩ : BufTy).Contents (Elt F) → (⟨S1x256, .f32⟩ : BufTy).Contents (Elt F)),
    reshape main_v38 main_v39 rfl shapeCasts_S1x256_S256,
    unary main_v39 main_v40 (broadcastInDim S1x1x256 ![2] bcast_S256_S1x1x256_2 : (⟨S256, .f32⟩ : BufTy).Contents (Elt F) → (⟨S1x1x256, .f32⟩ : BufTy).Contents (Elt F)),
    unary main_v40 main_v41 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v37 main_v41 main_v42 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v42) (TRef.of (T := ⟨S8x2048x256, .f32⟩) main_call3_v0) Host.negf,
    TRef.unary (TRef.of (T := ⟨S8x2048x256, .f32⟩) main_call3_v0) (TRef.of (T := ⟨S8x2048x256, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S8x2048x256, .f32⟩) main_call3_v2) (broadcastInDim S8x2048x256 ![] bcast_S_S8x2048x256),
    TRef.binary (TRef.of (T := ⟨S8x2048x256, .f32⟩) main_call3_v2) (TRef.of (T := ⟨S8x2048x256, .f32⟩) main_call3_v1) (TRef.of (T := ⟨S8x2048x256, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S8x2048x256, .f32⟩) main_call3_v4) (broadcastInDim S8x2048x256 ![] bcast_S_S8x2048x256),
    TRef.binary (TRef.of (T := ⟨S8x2048x256, .f32⟩) main_call3_v4) (TRef.of (T := ⟨S8x2048x256, .f32⟩) main_call3_v3) (TRef.of (T := ⟨S8x2048x256, .f32⟩) main_call3_v5) Host.divf,
    TRef.binary (TRef.of (T := ⟨S8x2048x256, .f32⟩) main_v42) (TRef.of (T := ⟨S8x2048x256, .f32⟩) main_call3_v5) (TRef.of (T := ⟨S8x2048x256, .f32⟩) main_v43) mulf ]

/-- Stretch 5 of the reference's operations (it ends by writing `main_v53`). -/
abbrev seg5 : List (HloOp τ sig (Elt F)) :=
  [ binary main_arg1 main_v43 main_v44 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg5 main_v45 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v45 main_v46 rfl shapeCasts_S1x256x256_S256x256,
    binary main_v44 main_v46 main_v47 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg6 main_v48 ((extractStridedSlice S1x256 ![2, 0] · slices_S3x256_S1x256_2_0) : (⟨S3x256, .f32⟩ : BufTy).Contents (Elt F) → (⟨S1x256, .f32⟩ : BufTy).Contents (Elt F)),
    reshape main_v48 main_v49 rfl shapeCasts_S1x256_S256,
    unary main_v49 main_v50 (broadcastInDim S1x1x256 ![2] bcast_S256_S1x1x256_2 : (⟨S256, .f32⟩ : BufTy).Contents (Elt F) → (⟨S1x1x256, .f32⟩ : BufTy).Contents (Elt F)),
    unary main_v50 main_v51 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v47 main_v51 main_v52 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v52) (TRef.of (T := ⟨S8x2048x256, .f32⟩) main_call4_v0) Host.negf,
    TRef.unary (TRef.of (T := ⟨S8x2048x256, .f32⟩) main_call4_v0) (TRef.of (T := ⟨S8x2048x256, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S8x2048x256, .f32⟩) main_call4_v2) (broadcastInDim S8x2048x256 ![] bcast_S_S8x2048x256),
    TRef.binary (TRef.of (T := ⟨S8x2048x256, .f32⟩) main_call4_v2) (TRef.of (T := ⟨S8x2048x256, .f32⟩) main_call4_v1) (TRef.of (T := ⟨S8x2048x256, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S8x2048x256, .f32⟩) main_call4_v4) (broadcastInDim S8x2048x256 ![] bcast_S_S8x2048x256),
    TRef.binary (TRef.of (T := ⟨S8x2048x256, .f32⟩) main_call4_v4) (TRef.of (T := ⟨S8x2048x256, .f32⟩) main_call4_v3) (TRef.of (T := ⟨S8x2048x256, .f32⟩) main_call4_v5) Host.divf,
    TRef.binary (TRef.of (T := ⟨S8x2048x256, .f32⟩) main_v52) (TRef.of (T := ⟨S8x2048x256, .f32⟩) main_call4_v5) (TRef.of (T := ⟨S8x2048x256, .f32⟩) main_v53) mulf ]

/-- Stretch 6 of the reference's operations (it ends by writing `main_v66`). -/
abbrev seg6 : List (HloOp τ sig (Elt F)) :=
  [ binary main_arg1 main_v53 main_v54 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg5 main_v55 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v55 main_v56 rfl shapeCasts_S1x256x256_S256x256,
    binary main_v54 main_v56 main_v57 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg6 main_v58 ((extractStridedSlice S1x256 ![2, 0] · slices_S3x256_S1x256_2_0) : (⟨S3x256, .f32⟩ : BufTy).Contents (Elt F) → (⟨S1x256, .f32⟩ : BufTy).Contents (Elt F)),
    reshape main_v58 main_v59 rfl shapeCasts_S1x256_S256,
    unary main_v59 main_v60 (broadcastInDim S1x1x256 ![2] bcast_S256_S1x1x256_2 : (⟨S256, .f32⟩ : BufTy).Contents (Elt F) → (⟨S1x1x256, .f32⟩ : BufTy).Contents (Elt F)),
    unary main_v60 main_v61 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v57 main_v61 main_v62 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v62) (TRef.of (T := ⟨S8x2048x256, .f32⟩) main_call5_v0) Host.negf,
    TRef.unary (TRef.of (T := ⟨S8x2048x256, .f32⟩) main_call5_v0) (TRef.of (T := ⟨S8x2048x256, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S8x2048x256, .f32⟩) main_call5_v2) (broadcastInDim S8x2048x256 ![] bcast_S_S8x2048x256),
    TRef.binary (TRef.of (T := ⟨S8x2048x256, .f32⟩) main_call5_v2) (TRef.of (T := ⟨S8x2048x256, .f32⟩) main_call5_v1) (TRef.of (T := ⟨S8x2048x256, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S8x2048x256, .f32⟩) main_call5_v4) (broadcastInDim S8x2048x256 ![] bcast_S_S8x2048x256),
    TRef.binary (TRef.of (T := ⟨S8x2048x256, .f32⟩) main_call5_v4) (TRef.of (T := ⟨S8x2048x256, .f32⟩) main_call5_v3) (TRef.of (T := ⟨S8x2048x256, .f32⟩) main_call5_v5) Host.divf,
    TRef.binary (TRef.of (T := ⟨S8x2048x256, .f32⟩) main_v62) (TRef.of (T := ⟨S8x2048x256, .f32⟩) main_call5_v5) (TRef.of (T := ⟨S8x2048x256, .f32⟩) main_v63) mulf,
    unary main_arg2 main_v64 (broadcastInDim S8x2048x1 ![0, 1] bcast_S8x2048_S8x2048x1_0_1 : (⟨S8x2048, .f32⟩ : BufTy).Contents (Elt F) → (⟨S8x2048x1, .f32⟩ : BufTy).Contents (Elt F)),
    unary main_v64 main_v65 (broadcastInDim S8x2048x256 ![0, 1, 2] bcast_S8x2048x1_S8x2048x256_0_1_2 : (⟨S8x2048x1, .f32⟩ : BufTy).Contents (Elt F) → (⟨S8x2048x256, .f32⟩ : BufTy).Contents (Elt F)),
    binary main_v63 main_v65 main_v66 (mulf : (⟨S8x2048x256, .f32⟩ : BufTy).Contents (Elt F) → (⟨S8x2048x256, .f32⟩ : BufTy).Contents (Elt F) → (⟨S8x2048x256, .f32⟩ : BufTy).Contents (Elt F)) ]

/-- Stretch 7 of the reference's operations (it ends by writing `main_v76`). -/
abbrev seg7 : List (HloOp τ sig (Elt F)) :=
  [ binary main_arg1 main_v3 main_v67 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg7 main_v68 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v68 main_v69 rfl shapeCasts_S1x256x256_S256x256,
    binary main_v67 main_v69 main_v70 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg8 main_v71 ((extractStridedSlice S1x256 ![0, 0] · slices_S3x256_S1x256_0_0) : (⟨S3x256, .f32⟩ : BufTy).Contents (Elt F) → (⟨S1x256, .f32⟩ : BufTy).Contents (Elt F)),
    reshape main_v71 main_v72 rfl shapeCasts_S1x256_S256,
    unary main_v72 main_v73 (broadcastInDim S1x1x256 ![2] bcast_S256_S1x1x256_2 : (⟨S256, .f32⟩ : BufTy).Contents (Elt F) → (⟨S1x1x256, .f32⟩ : BufTy).Contents (Elt F)),
    unary main_v73 main_v74 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v70 main_v74 main_v75 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v75) (TRef.of (T := ⟨S8x2048x256, .f32⟩) main_call6_v0) Host.negf,
    TRef.unary (TRef.of (T := ⟨S8x2048x256, .f32⟩) main_call6_v0) (TRef.of (T := ⟨S8x2048x256, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S8x2048x256, .f32⟩) main_call6_v2) (broadcastInDim S8x2048x256 ![] bcast_S_S8x2048x256),
    TRef.binary (TRef.of (T := ⟨S8x2048x256, .f32⟩) main_call6_v2) (TRef.of (T := ⟨S8x2048x256, .f32⟩) main_call6_v1) (TRef.of (T := ⟨S8x2048x256, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S8x2048x256, .f32⟩) main_call6_v4) (broadcastInDim S8x2048x256 ![] bcast_S_S8x2048x256),
    TRef.binary (TRef.of (T := ⟨S8x2048x256, .f32⟩) main_call6_v4) (TRef.of (T := ⟨S8x2048x256, .f32⟩) main_call6_v3) (TRef.of (T := ⟨S8x2048x256, .f32⟩) main_call6_v5) Host.divf,
    TRef.binary (TRef.of (T := ⟨S8x2048x256, .f32⟩) main_v75) (TRef.of (T := ⟨S8x2048x256, .f32⟩) main_call6_v5) (TRef.of (T := ⟨S8x2048x256, .f32⟩) main_v76) mulf ]

/-- Stretch 8 of the reference's operations (it ends by writing `main_v86`). -/
abbrev seg8 : List (HloOp τ sig (Elt F)) :=
  [ binary main_arg1 main_v76 main_v77 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg7 main_v78 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v78 main_v79 rfl shapeCasts_S1x256x256_S256x256,
    binary main_v77 main_v79 main_v80 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg8 main_v81 ((extractStridedSlice S1x256 ![0, 0] · slices_S3x256_S1x256_0_0) : (⟨S3x256, .f32⟩ : BufTy).Contents (Elt F) → (⟨S1x256, .f32⟩ : BufTy).Contents (Elt F)),
    reshape main_v81 main_v82 rfl shapeCasts_S1x256_S256,
    unary main_v82 main_v83 (broadcastInDim S1x1x256 ![2] bcast_S256_S1x1x256_2 : (⟨S256, .f32⟩ : BufTy).Contents (Elt F) → (⟨S1x1x256, .f32⟩ : BufTy).Contents (Elt F)),
    unary main_v83 main_v84 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v80 main_v84 main_v85 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v85) (TRef.of (T := ⟨S8x2048x256, .f32⟩) main_call7_v0) Host.negf,
    TRef.unary (TRef.of (T := ⟨S8x2048x256, .f32⟩) main_call7_v0) (TRef.of (T := ⟨S8x2048x256, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S8x2048x256, .f32⟩) main_call7_v2) (broadcastInDim S8x2048x256 ![] bcast_S_S8x2048x256),
    TRef.binary (TRef.of (T := ⟨S8x2048x256, .f32⟩) main_call7_v2) (TRef.of (T := ⟨S8x2048x256, .f32⟩) main_call7_v1) (TRef.of (T := ⟨S8x2048x256, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S8x2048x256, .f32⟩) main_call7_v4) (broadcastInDim S8x2048x256 ![] bcast_S_S8x2048x256),
    TRef.binary (TRef.of (T := ⟨S8x2048x256, .f32⟩) main_call7_v4) (TRef.of (T := ⟨S8x2048x256, .f32⟩) main_call7_v3) (TRef.of (T := ⟨S8x2048x256, .f32⟩) main_call7_v5) Host.divf,
    TRef.binary (TRef.of (T := ⟨S8x2048x256, .f32⟩) main_v85) (TRef.of (T := ⟨S8x2048x256, .f32⟩) main_call7_v5) (TRef.of (T := ⟨S8x2048x256, .f32⟩) main_v86) mulf ]

/-- Stretch 9 of the reference's operations (it ends by writing `main_v96`). -/
abbrev seg9 : List (HloOp τ sig (Elt F)) :=
  [ binary main_arg1 main_v86 main_v87 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg7 main_v88 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v88 main_v89 rfl shapeCasts_S1x256x256_S256x256,
    binary main_v87 main_v89 main_v90 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg8 main_v91 ((extractStridedSlice S1x256 ![1, 0] · slices_S3x256_S1x256_1_0) : (⟨S3x256, .f32⟩ : BufTy).Contents (Elt F) → (⟨S1x256, .f32⟩ : BufTy).Contents (Elt F)),
    reshape main_v91 main_v92 rfl shapeCasts_S1x256_S256,
    unary main_v92 main_v93 (broadcastInDim S1x1x256 ![2] bcast_S256_S1x1x256_2 : (⟨S256, .f32⟩ : BufTy).Contents (Elt F) → (⟨S1x1x256, .f32⟩ : BufTy).Contents (Elt F)),
    unary main_v93 main_v94 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v90 main_v94 main_v95 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v95) (TRef.of (T := ⟨S8x2048x256, .f32⟩) main_call8_v0) Host.negf,
    TRef.unary (TRef.of (T := ⟨S8x2048x256, .f32⟩) main_call8_v0) (TRef.of (T := ⟨S8x2048x256, .f32⟩) main_call8_v1) Host.exp,
    TRef.nullary (TRef.of (T := ⟨S_, .f32⟩) main_call8_cst) (constant S_ .f32 0x3F800000#32),
    TRef.unary (TRef.of (T := ⟨S_, .f32⟩) main_call8_cst) (TRef.of (T := ⟨S8x2048x256, .f32⟩) main_call8_v2) (broadcastInDim S8x2048x256 ![] bcast_S_S8x2048x256),
    TRef.binary (TRef.of (T := ⟨S8x2048x256, .f32⟩) main_call8_v2) (TRef.of (T := ⟨S8x2048x256, .f32⟩) main_call8_v1) (TRef.of (T := ⟨S8x2048x256, .f32⟩) main_call8_v3) addf,
    TRef.nullary (TRef.of (T := ⟨S_, .f32⟩) main_call8_cst_0) (constant S_ .f32 0x3F800000#32),
    TRef.unary (TRef.of (T := ⟨S_, .f32⟩) main_call8_cst_0) (TRef.of (T := ⟨S8x2048x256, .f32⟩) main_call8_v4) (broadcastInDim S8x2048x256 ![] bcast_S_S8x2048x256),
    TRef.binary (TRef.of (T := ⟨S8x2048x256, .f32⟩) main_call8_v4) (TRef.of (T := ⟨S8x2048x256, .f32⟩) main_call8_v3) (TRef.of (T := ⟨S8x2048x256, .f32⟩) main_call8_v5) Host.divf,
    TRef.binary (TRef.of (T := ⟨S8x2048x256, .f32⟩) main_v95) (TRef.of (T := ⟨S8x2048x256, .f32⟩) main_call8_v5) (TRef.of (T := ⟨S8x2048x256, .f32⟩) main_v96) mulf ]

/-- Stretch 10 of the reference's operations (it ends by writing `main_v106`). -/
abbrev seg10 : List (HloOp τ sig (Elt F)) :=
  [ binary main_arg1 main_v96 main_v97 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg7 main_v98 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v98 main_v99 rfl shapeCasts_S1x256x256_S256x256,
    binary main_v97 main_v99 main_v100 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg8 main_v101 ((extractStridedSlice S1x256 ![1, 0] · slices_S3x256_S1x256_1_0) : (⟨S3x256, .f32⟩ : BufTy).Contents (Elt F) → (⟨S1x256, .f32⟩ : BufTy).Contents (Elt F)),
    reshape main_v101 main_v102 rfl shapeCasts_S1x256_S256,
    unary main_v102 main_v103 (broadcastInDim S1x1x256 ![2] bcast_S256_S1x1x256_2 : (⟨S256, .f32⟩ : BufTy).Contents (Elt F) → (⟨S1x1x256, .f32⟩ : BufTy).Contents (Elt F)),
    unary main_v103 main_v104 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v100 main_v104 main_v105 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v105) (TRef.of (T := ⟨S8x2048x256, .f32⟩) main_call9_v0) Host.negf,
    TRef.unary (TRef.of (T := ⟨S8x2048x256, .f32⟩) main_call9_v0) (TRef.of (T := ⟨S8x2048x256, .f32⟩) main_call9_v1) Host.exp,
    TRef.nullary (TRef.of (T := ⟨S_, .f32⟩) main_call9_cst) (constant S_ .f32 0x3F800000#32),
    TRef.unary (TRef.of (T := ⟨S_, .f32⟩) main_call9_cst) (TRef.of (T := ⟨S8x2048x256, .f32⟩) main_call9_v2) (broadcastInDim S8x2048x256 ![] bcast_S_S8x2048x256),
    TRef.binary (TRef.of (T := ⟨S8x2048x256, .f32⟩) main_call9_v2) (TRef.of (T := ⟨S8x2048x256, .f32⟩) main_call9_v1) (TRef.of (T := ⟨S8x2048x256, .f32⟩) main_call9_v3) addf,
    TRef.nullary (TRef.of (T := ⟨S_, .f32⟩) main_call9_cst_0) (constant S_ .f32 0x3F800000#32),
    TRef.unary (TRef.of (T := ⟨S_, .f32⟩) main_call9_cst_0) (TRef.of (T := ⟨S8x2048x256, .f32⟩) main_call9_v4) (broadcastInDim S8x2048x256 ![] bcast_S_S8x2048x256),
    TRef.binary (TRef.of (T := ⟨S8x2048x256, .f32⟩) main_call9_v4) (TRef.of (T := ⟨S8x2048x256, .f32⟩) main_call9_v3) (TRef.of (T := ⟨S8x2048x256, .f32⟩) main_call9_v5) Host.divf,
    TRef.binary (TRef.of (T := ⟨S8x2048x256, .f32⟩) main_v105) (TRef.of (T := ⟨S8x2048x256, .f32⟩) main_call9_v5) (TRef.of (T := ⟨S8x2048x256, .f32⟩) main_v106) mulf ]

/-- Stretch 11 of the reference's operations (it ends by writing `main_v116`). -/
abbrev seg11 : List (HloOp τ sig (Elt F)) :=
  [ binary main_arg1 main_v106 main_v107 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg7 main_v108 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v108 main_v109 rfl shapeCasts_S1x256x256_S256x256,
    binary main_v107 main_v109 main_v110 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg8 main_v111 ((extractStridedSlice S1x256 ![2, 0] · slices_S3x256_S1x256_2_0) : (⟨S3x256, .f32⟩ : BufTy).Contents (Elt F) → (⟨S1x256, .f32⟩ : BufTy).Contents (Elt F)),
    reshape main_v111 main_v112 rfl shapeCasts_S1x256_S256,
    unary main_v112 main_v113 (broadcastInDim S1x1x256 ![2] bcast_S256_S1x1x256_2 : (⟨S256, .f32⟩ : BufTy).Contents (Elt F) → (⟨S1x1x256, .f32⟩ : BufTy).Contents (Elt F)),
    unary main_v113 main_v114 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v110 main_v114 main_v115 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v115) (TRef.of (T := ⟨S8x2048x256, .f32⟩) main_call10_v0) Host.negf,
    TRef.unary (TRef.of (T := ⟨S8x2048x256, .f32⟩) main_call10_v0) (TRef.of (T := ⟨S8x2048x256, .f32⟩) main_call10_v1) Host.exp,
    TRef.nullary (TRef.of (T := ⟨S_, .f32⟩) main_call10_cst) (constant S_ .f32 0x3F800000#32),
    TRef.unary (TRef.of (T := ⟨S_, .f32⟩) main_call10_cst) (TRef.of (T := ⟨S8x2048x256, .f32⟩) main_call10_v2) (broadcastInDim S8x2048x256 ![] bcast_S_S8x2048x256),
    TRef.binary (TRef.of (T := ⟨S8x2048x256, .f32⟩) main_call10_v2) (TRef.of (T := ⟨S8x2048x256, .f32⟩) main_call10_v1) (TRef.of (T := ⟨S8x2048x256, .f32⟩) main_call10_v3) addf,
    TRef.nullary (TRef.of (T := ⟨S_, .f32⟩) main_call10_cst_0) (constant S_ .f32 0x3F800000#32),
    TRef.unary (TRef.of (T := ⟨S_, .f32⟩) main_call10_cst_0) (TRef.of (T := ⟨S8x2048x256, .f32⟩) main_call10_v4) (broadcastInDim S8x2048x256 ![] bcast_S_S8x2048x256),
    TRef.binary (TRef.of (T := ⟨S8x2048x256, .f32⟩) main_call10_v4) (TRef.of (T := ⟨S8x2048x256, .f32⟩) main_call10_v3) (TRef.of (T := ⟨S8x2048x256, .f32⟩) main_call10_v5) Host.divf,
    TRef.binary (TRef.of (T := ⟨S8x2048x256, .f32⟩) main_v115) (TRef.of (T := ⟨S8x2048x256, .f32⟩) main_call10_v5) (TRef.of (T := ⟨S8x2048x256, .f32⟩) main_v116) mulf ]

/-- Stretch 12 of the reference's operations (it ends by writing `main_v129`). -/
abbrev seg12 : List (HloOp τ sig (Elt F)) :=
  [ binary main_arg1 main_v116 main_v117 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg7 main_v118 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v118 main_v119 rfl shapeCasts_S1x256x256_S256x256,
    binary main_v117 main_v119 main_v120 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg8 main_v121 ((extractStridedSlice S1x256 ![2, 0] · slices_S3x256_S1x256_2_0) : (⟨S3x256, .f32⟩ : BufTy).Contents (Elt F) → (⟨S1x256, .f32⟩ : BufTy).Contents (Elt F)),
    reshape main_v121 main_v122 rfl shapeCasts_S1x256_S256,
    unary main_v122 main_v123 (broadcastInDim S1x1x256 ![2] bcast_S256_S1x1x256_2 : (⟨S256, .f32⟩ : BufTy).Contents (Elt F) → (⟨S1x1x256, .f32⟩ : BufTy).Contents (Elt F)),
    unary main_v123 main_v124 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v120 main_v124 main_v125 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v125) (TRef.of (T := ⟨S8x2048x256, .f32⟩) main_call11_v0) Host.negf,
    TRef.unary (TRef.of (T := ⟨S8x2048x256, .f32⟩) main_call11_v0) (TRef.of (T := ⟨S8x2048x256, .f32⟩) main_call11_v1) Host.exp,
    TRef.nullary (TRef.of (T := ⟨S_, .f32⟩) main_call11_cst) (constant S_ .f32 0x3F800000#32),
    TRef.unary (TRef.of (T := ⟨S_, .f32⟩) main_call11_cst) (TRef.of (T := ⟨S8x2048x256, .f32⟩) main_call11_v2) (broadcastInDim S8x2048x256 ![] bcast_S_S8x2048x256),
    TRef.binary (TRef.of (T := ⟨S8x2048x256, .f32⟩) main_call11_v2) (TRef.of (T := ⟨S8x2048x256, .f32⟩) main_call11_v1) (TRef.of (T := ⟨S8x2048x256, .f32⟩) main_call11_v3) addf,
    TRef.nullary (TRef.of (T := ⟨S_, .f32⟩) main_call11_cst_0) (constant S_ .f32 0x3F800000#32),
    TRef.unary (TRef.of (T := ⟨S_, .f32⟩) main_call11_cst_0) (TRef.of (T := ⟨S8x2048x256, .f32⟩) main_call11_v4) (broadcastInDim S8x2048x256 ![] bcast_S_S8x2048x256),
    TRef.binary (TRef.of (T := ⟨S8x2048x256, .f32⟩) main_call11_v4) (TRef.of (T := ⟨S8x2048x256, .f32⟩) main_call11_v3) (TRef.of (T := ⟨S8x2048x256, .f32⟩) main_call11_v5) Host.divf,
    TRef.binary (TRef.of (T := ⟨S8x2048x256, .f32⟩) main_v125) (TRef.of (T := ⟨S8x2048x256, .f32⟩) main_call11_v5) (TRef.of (T := ⟨S8x2048x256, .f32⟩) main_v126) mulf,
    unary main_arg2 main_v127 (broadcastInDim S8x2048x1 ![0, 1] bcast_S8x2048_S8x2048x1_0_1 : (⟨S8x2048, .f32⟩ : BufTy).Contents (Elt F) → (⟨S8x2048x1, .f32⟩ : BufTy).Contents (Elt F)),
    unary main_v127 main_v128 (broadcastInDim S8x2048x256 ![0, 1, 2] bcast_S8x2048x1_S8x2048x256_0_1_2 : (⟨S8x2048x1, .f32⟩ : BufTy).Contents (Elt F) → (⟨S8x2048x256, .f32⟩ : BufTy).Contents (Elt F)),
    binary main_v126 main_v128 main_v129 (mulf : (⟨S8x2048x256, .f32⟩ : BufTy).Contents (Elt F) → (⟨S8x2048x256, .f32⟩ : BufTy).Contents (Elt F) → (⟨S8x2048x256, .f32⟩ : BufTy).Contents (Elt F)) ]

/-- Stretch 13 of the reference's operations (it ends by writing `main_v139`). -/
abbrev seg13 : List (HloOp τ sig (Elt F)) :=
  [ binary main_arg1 main_v3 main_v130 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg9 main_v131 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v131 main_v132 rfl shapeCasts_S1x256x256_S256x256,
    binary main_v130 main_v132 main_v133 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg10 main_v134 ((extractStridedSlice S1x256 ![0, 0] · slices_S3x256_S1x256_0_0) : (⟨S3x256, .f32⟩ : BufTy).Contents (Elt F) → (⟨S1x256, .f32⟩ : BufTy).Contents (Elt F)),
    reshape main_v134 main_v135 rfl shapeCasts_S1x256_S256,
    unary main_v135 main_v136 (broadcastInDim S1x1x256 ![2] bcast_S256_S1x1x256_2 : (⟨S256, .f32⟩ : BufTy).Contents (Elt F) → (⟨S1x1x256, .f32⟩ : BufTy).Contents (Elt F)),
    unary main_v136 main_v137 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v133 main_v137 main_v138 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v138) (TRef.of (T := ⟨S8x2048x256, .f32⟩) main_call12_v0) Host.negf,
    TRef.unary (TRef.of (T := ⟨S8x2048x256, .f32⟩) main_call12_v0) (TRef.of (T := ⟨S8x2048x256, .f32⟩) main_call12_v1) Host.exp,
    TRef.nullary (TRef.of (T := ⟨S_, .f32⟩) main_call12_cst) (constant S_ .f32 0x3F800000#32),
    TRef.unary (TRef.of (T := ⟨S_, .f32⟩) main_call12_cst) (TRef.of (T := ⟨S8x2048x256, .f32⟩) main_call12_v2) (broadcastInDim S8x2048x256 ![] bcast_S_S8x2048x256),
    TRef.binary (TRef.of (T := ⟨S8x2048x256, .f32⟩) main_call12_v2) (TRef.of (T := ⟨S8x2048x256, .f32⟩) main_call12_v1) (TRef.of (T := ⟨S8x2048x256, .f32⟩) main_call12_v3) addf,
    TRef.nullary (TRef.of (T := ⟨S_, .f32⟩) main_call12_cst_0) (constant S_ .f32 0x3F800000#32),
    TRef.unary (TRef.of (T := ⟨S_, .f32⟩) main_call12_cst_0) (TRef.of (T := ⟨S8x2048x256, .f32⟩) main_call12_v4) (broadcastInDim S8x2048x256 ![] bcast_S_S8x2048x256),
    TRef.binary (TRef.of (T := ⟨S8x2048x256, .f32⟩) main_call12_v4) (TRef.of (T := ⟨S8x2048x256, .f32⟩) main_call12_v3) (TRef.of (T := ⟨S8x2048x256, .f32⟩) main_call12_v5) Host.divf,
    TRef.binary (TRef.of (T := ⟨S8x2048x256, .f32⟩) main_v138) (TRef.of (T := ⟨S8x2048x256, .f32⟩) main_call12_v5) (TRef.of (T := ⟨S8x2048x256, .f32⟩) main_v139) mulf ]

/-- Stretch 14 of the reference's operations (it ends by writing `main_v149`). -/
abbrev seg14 : List (HloOp τ sig (Elt F)) :=
  [ binary main_arg1 main_v139 main_v140 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg9 main_v141 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v141 main_v142 rfl shapeCasts_S1x256x256_S256x256,
    binary main_v140 main_v142 main_v143 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg10 main_v144 ((extractStridedSlice S1x256 ![0, 0] · slices_S3x256_S1x256_0_0) : (⟨S3x256, .f32⟩ : BufTy).Contents (Elt F) → (⟨S1x256, .f32⟩ : BufTy).Contents (Elt F)),
    reshape main_v144 main_v145 rfl shapeCasts_S1x256_S256,
    unary main_v145 main_v146 (broadcastInDim S1x1x256 ![2] bcast_S256_S1x1x256_2 : (⟨S256, .f32⟩ : BufTy).Contents (Elt F) → (⟨S1x1x256, .f32⟩ : BufTy).Contents (Elt F)),
    unary main_v146 main_v147 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v143 main_v147 main_v148 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v148) (TRef.of (T := ⟨S8x2048x256, .f32⟩) main_call13_v0) Host.negf,
    TRef.unary (TRef.of (T := ⟨S8x2048x256, .f32⟩) main_call13_v0) (TRef.of (T := ⟨S8x2048x256, .f32⟩) main_call13_v1) Host.exp,
    TRef.nullary (TRef.of (T := ⟨S_, .f32⟩) main_call13_cst) (constant S_ .f32 0x3F800000#32),
    TRef.unary (TRef.of (T := ⟨S_, .f32⟩) main_call13_cst) (TRef.of (T := ⟨S8x2048x256, .f32⟩) main_call13_v2) (broadcastInDim S8x2048x256 ![] bcast_S_S8x2048x256),
    TRef.binary (TRef.of (T := ⟨S8x2048x256, .f32⟩) main_call13_v2) (TRef.of (T := ⟨S8x2048x256, .f32⟩) main_call13_v1) (TRef.of (T := ⟨S8x2048x256, .f32⟩) main_call13_v3) addf,
    TRef.nullary (TRef.of (T := ⟨S_, .f32⟩) main_call13_cst_0) (constant S_ .f32 0x3F800000#32),
    TRef.unary (TRef.of (T := ⟨S_, .f32⟩) main_call13_cst_0) (TRef.of (T := ⟨S8x2048x256, .f32⟩) main_call13_v4) (broadcastInDim S8x2048x256 ![] bcast_S_S8x2048x256),
    TRef.binary (TRef.of (T := ⟨S8x2048x256, .f32⟩) main_call13_v4) (TRef.of (T := ⟨S8x2048x256, .f32⟩) main_call13_v3) (TRef.of (T := ⟨S8x2048x256, .f32⟩) main_call13_v5) Host.divf,
    TRef.binary (TRef.of (T := ⟨S8x2048x256, .f32⟩) main_v148) (TRef.of (T := ⟨S8x2048x256, .f32⟩) main_call13_v5) (TRef.of (T := ⟨S8x2048x256, .f32⟩) main_v149) mulf ]

/-- Stretch 15 of the reference's operations (it ends by writing `main_v159`). -/
abbrev seg15 : List (HloOp τ sig (Elt F)) :=
  [ binary main_arg1 main_v149 main_v150 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg9 main_v151 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v151 main_v152 rfl shapeCasts_S1x256x256_S256x256,
    binary main_v150 main_v152 main_v153 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg10 main_v154 ((extractStridedSlice S1x256 ![1, 0] · slices_S3x256_S1x256_1_0) : (⟨S3x256, .f32⟩ : BufTy).Contents (Elt F) → (⟨S1x256, .f32⟩ : BufTy).Contents (Elt F)),
    reshape main_v154 main_v155 rfl shapeCasts_S1x256_S256,
    unary main_v155 main_v156 (broadcastInDim S1x1x256 ![2] bcast_S256_S1x1x256_2 : (⟨S256, .f32⟩ : BufTy).Contents (Elt F) → (⟨S1x1x256, .f32⟩ : BufTy).Contents (Elt F)),
    unary main_v156 main_v157 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v153 main_v157 main_v158 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v158) (TRef.of (T := ⟨S8x2048x256, .f32⟩) main_call14_v0) Host.negf,
    TRef.unary (TRef.of (T := ⟨S8x2048x256, .f32⟩) main_call14_v0) (TRef.of (T := ⟨S8x2048x256, .f32⟩) main_call14_v1) Host.exp,
    TRef.nullary (TRef.of (T := ⟨S_, .f32⟩) main_call14_cst) (constant S_ .f32 0x3F800000#32),
    TRef.unary (TRef.of (T := ⟨S_, .f32⟩) main_call14_cst) (TRef.of (T := ⟨S8x2048x256, .f32⟩) main_call14_v2) (broadcastInDim S8x2048x256 ![] bcast_S_S8x2048x256),
    TRef.binary (TRef.of (T := ⟨S8x2048x256, .f32⟩) main_call14_v2) (TRef.of (T := ⟨S8x2048x256, .f32⟩) main_call14_v1) (TRef.of (T := ⟨S8x2048x256, .f32⟩) main_call14_v3) addf,
    TRef.nullary (TRef.of (T := ⟨S_, .f32⟩) main_call14_cst_0) (constant S_ .f32 0x3F800000#32),
    TRef.unary (TRef.of (T := ⟨S_, .f32⟩) main_call14_cst_0) (TRef.of (T := ⟨S8x2048x256, .f32⟩) main_call14_v4) (broadcastInDim S8x2048x256 ![] bcast_S_S8x2048x256),
    TRef.binary (TRef.of (T := ⟨S8x2048x256, .f32⟩) main_call14_v4) (TRef.of (T := ⟨S8x2048x256, .f32⟩) main_call14_v3) (TRef.of (T := ⟨S8x2048x256, .f32⟩) main_call14_v5) Host.divf,
    TRef.binary (TRef.of (T := ⟨S8x2048x256, .f32⟩) main_v158) (TRef.of (T := ⟨S8x2048x256, .f32⟩) main_call14_v5) (TRef.of (T := ⟨S8x2048x256, .f32⟩) main_v159) mulf ]

/-- Stretch 16 of the reference's operations (it ends by writing `main_v169`). -/
abbrev seg16 : List (HloOp τ sig (Elt F)) :=
  [ binary main_arg1 main_v159 main_v160 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg9 main_v161 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v161 main_v162 rfl shapeCasts_S1x256x256_S256x256,
    binary main_v160 main_v162 main_v163 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg10 main_v164 ((extractStridedSlice S1x256 ![1, 0] · slices_S3x256_S1x256_1_0) : (⟨S3x256, .f32⟩ : BufTy).Contents (Elt F) → (⟨S1x256, .f32⟩ : BufTy).Contents (Elt F)),
    reshape main_v164 main_v165 rfl shapeCasts_S1x256_S256,
    unary main_v165 main_v166 (broadcastInDim S1x1x256 ![2] bcast_S256_S1x1x256_2 : (⟨S256, .f32⟩ : BufTy).Contents (Elt F) → (⟨S1x1x256, .f32⟩ : BufTy).Contents (Elt F)),
    unary main_v166 main_v167 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v163 main_v167 main_v168 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v168) (TRef.of (T := ⟨S8x2048x256, .f32⟩) main_call15_v0) Host.negf,
    TRef.unary (TRef.of (T := ⟨S8x2048x256, .f32⟩) main_call15_v0) (TRef.of (T := ⟨S8x2048x256, .f32⟩) main_call15_v1) Host.exp,
    TRef.nullary (TRef.of (T := ⟨S_, .f32⟩) main_call15_cst) (constant S_ .f32 0x3F800000#32),
    TRef.unary (TRef.of (T := ⟨S_, .f32⟩) main_call15_cst) (TRef.of (T := ⟨S8x2048x256, .f32⟩) main_call15_v2) (broadcastInDim S8x2048x256 ![] bcast_S_S8x2048x256),
    TRef.binary (TRef.of (T := ⟨S8x2048x256, .f32⟩) main_call15_v2) (TRef.of (T := ⟨S8x2048x256, .f32⟩) main_call15_v1) (TRef.of (T := ⟨S8x2048x256, .f32⟩) main_call15_v3) addf,
    TRef.nullary (TRef.of (T := ⟨S_, .f32⟩) main_call15_cst_0) (constant S_ .f32 0x3F800000#32),
    TRef.unary (TRef.of (T := ⟨S_, .f32⟩) main_call15_cst_0) (TRef.of (T := ⟨S8x2048x256, .f32⟩) main_call15_v4) (broadcastInDim S8x2048x256 ![] bcast_S_S8x2048x256),
    TRef.binary (TRef.of (T := ⟨S8x2048x256, .f32⟩) main_call15_v4) (TRef.of (T := ⟨S8x2048x256, .f32⟩) main_call15_v3) (TRef.of (T := ⟨S8x2048x256, .f32⟩) main_call15_v5) Host.divf,
    TRef.binary (TRef.of (T := ⟨S8x2048x256, .f32⟩) main_v168) (TRef.of (T := ⟨S8x2048x256, .f32⟩) main_call15_v5) (TRef.of (T := ⟨S8x2048x256, .f32⟩) main_v169) mulf ]

/-- Stretch 17 of the reference's operations (it ends by writing `main_v179`). -/
abbrev seg17 : List (HloOp τ sig (Elt F)) :=
  [ binary main_arg1 main_v169 main_v170 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg9 main_v171 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v171 main_v172 rfl shapeCasts_S1x256x256_S256x256,
    binary main_v170 main_v172 main_v173 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg10 main_v174 ((extractStridedSlice S1x256 ![2, 0] · slices_S3x256_S1x256_2_0) : (⟨S3x256, .f32⟩ : BufTy).Contents (Elt F) → (⟨S1x256, .f32⟩ : BufTy).Contents (Elt F)),
    reshape main_v174 main_v175 rfl shapeCasts_S1x256_S256,
    unary main_v175 main_v176 (broadcastInDim S1x1x256 ![2] bcast_S256_S1x1x256_2 : (⟨S256, .f32⟩ : BufTy).Contents (Elt F) → (⟨S1x1x256, .f32⟩ : BufTy).Contents (Elt F)),
    unary main_v176 main_v177 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v173 main_v177 main_v178 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v178) (TRef.of (T := ⟨S8x2048x256, .f32⟩) main_call16_v0) Host.negf,
    TRef.unary (TRef.of (T := ⟨S8x2048x256, .f32⟩) main_call16_v0) (TRef.of (T := ⟨S8x2048x256, .f32⟩) main_call16_v1) Host.exp,
    TRef.nullary (TRef.of (T := ⟨S_, .f32⟩) main_call16_cst) (constant S_ .f32 0x3F800000#32),
    TRef.unary (TRef.of (T := ⟨S_, .f32⟩) main_call16_cst) (TRef.of (T := ⟨S8x2048x256, .f32⟩) main_call16_v2) (broadcastInDim S8x2048x256 ![] bcast_S_S8x2048x256),
    TRef.binary (TRef.of (T := ⟨S8x2048x256, .f32⟩) main_call16_v2) (TRef.of (T := ⟨S8x2048x256, .f32⟩) main_call16_v1) (TRef.of (T := ⟨S8x2048x256, .f32⟩) main_call16_v3) addf,
    TRef.nullary (TRef.of (T := ⟨S_, .f32⟩) main_call16_cst_0) (constant S_ .f32 0x3F800000#32),
    TRef.unary (TRef.of (T := ⟨S_, .f32⟩) main_call16_cst_0) (TRef.of (T := ⟨S8x2048x256, .f32⟩) main_call16_v4) (broadcastInDim S8x2048x256 ![] bcast_S_S8x2048x256),
    TRef.binary (TRef.of (T := ⟨S8x2048x256, .f32⟩) main_call16_v4) (TRef.of (T := ⟨S8x2048x256, .f32⟩) main_call16_v3) (TRef.of (T := ⟨S8x2048x256, .f32⟩) main_call16_v5) Host.divf,
    TRef.binary (TRef.of (T := ⟨S8x2048x256, .f32⟩) main_v178) (TRef.of (T := ⟨S8x2048x256, .f32⟩) main_call16_v5) (TRef.of (T := ⟨S8x2048x256, .f32⟩) main_v179) mulf ]

/-- Stretch 18 of the reference's operations (it ends by writing `main_v192`). -/
abbrev seg18 : List (HloOp τ sig (Elt F)) :=
  [ binary main_arg1 main_v179 main_v180 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg9 main_v181 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v181 main_v182 rfl shapeCasts_S1x256x256_S256x256,
    binary main_v180 main_v182 main_v183 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg10 main_v184 ((extractStridedSlice S1x256 ![2, 0] · slices_S3x256_S1x256_2_0) : (⟨S3x256, .f32⟩ : BufTy).Contents (Elt F) → (⟨S1x256, .f32⟩ : BufTy).Contents (Elt F)),
    reshape main_v184 main_v185 rfl shapeCasts_S1x256_S256,
    unary main_v185 main_v186 (broadcastInDim S1x1x256 ![2] bcast_S256_S1x1x256_2 : (⟨S256, .f32⟩ : BufTy).Contents (Elt F) → (⟨S1x1x256, .f32⟩ : BufTy).Contents (Elt F)),
    unary main_v186 main_v187 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v183 main_v187 main_v188 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v188) (TRef.of (T := ⟨S8x2048x256, .f32⟩) main_call17_v0) Host.negf,
    TRef.unary (TRef.of (T := ⟨S8x2048x256, .f32⟩) main_call17_v0) (TRef.of (T := ⟨S8x2048x256, .f32⟩) main_call17_v1) Host.exp,
    TRef.nullary (TRef.of (T := ⟨S_, .f32⟩) main_call17_cst) (constant S_ .f32 0x3F800000#32),
    TRef.unary (TRef.of (T := ⟨S_, .f32⟩) main_call17_cst) (TRef.of (T := ⟨S8x2048x256, .f32⟩) main_call17_v2) (broadcastInDim S8x2048x256 ![] bcast_S_S8x2048x256),
    TRef.binary (TRef.of (T := ⟨S8x2048x256, .f32⟩) main_call17_v2) (TRef.of (T := ⟨S8x2048x256, .f32⟩) main_call17_v1) (TRef.of (T := ⟨S8x2048x256, .f32⟩) main_call17_v3) addf,
    TRef.nullary (TRef.of (T := ⟨S_, .f32⟩) main_call17_cst_0) (constant S_ .f32 0x3F800000#32),
    TRef.unary (TRef.of (T := ⟨S_, .f32⟩) main_call17_cst_0) (TRef.of (T := ⟨S8x2048x256, .f32⟩) main_call17_v4) (broadcastInDim S8x2048x256 ![] bcast_S_S8x2048x256),
    TRef.binary (TRef.of (T := ⟨S8x2048x256, .f32⟩) main_call17_v4) (TRef.of (T := ⟨S8x2048x256, .f32⟩) main_call17_v3) (TRef.of (T := ⟨S8x2048x256, .f32⟩) main_call17_v5) Host.divf,
    TRef.binary (TRef.of (T := ⟨S8x2048x256, .f32⟩) main_v188) (TRef.of (T := ⟨S8x2048x256, .f32⟩) main_call17_v5) (TRef.of (T := ⟨S8x2048x256, .f32⟩) main_v189) mulf,
    unary main_arg2 main_v190 (broadcastInDim S8x2048x1 ![0, 1] bcast_S8x2048_S8x2048x1_0_1 : (⟨S8x2048, .f32⟩ : BufTy).Contents (Elt F) → (⟨S8x2048x1, .f32⟩ : BufTy).Contents (Elt F)),
    unary main_v190 main_v191 (broadcastInDim S8x2048x256 ![0, 1, 2] bcast_S8x2048x1_S8x2048x256_0_1_2 : (⟨S8x2048x1, .f32⟩ : BufTy).Contents (Elt F) → (⟨S8x2048x256, .f32⟩ : BufTy).Contents (Elt F)),
    binary main_v189 main_v191 main_v192 (mulf : (⟨S8x2048x256, .f32⟩ : BufTy).Contents (Elt F) → (⟨S8x2048x256, .f32⟩ : BufTy).Contents (Elt F) → (⟨S8x2048x256, .f32⟩ : BufTy).Contents (Elt F)) ]

/-- Stretch 19 of the reference's operations (it ends by writing `main_v233`). -/
abbrev seg19 : List (HloOp τ sig (Elt F)) :=
  [ unary main_arg2 main_v193 (broadcastInDim S8x2048x1 ![0, 1] bcast_S8x2048_S8x2048x1_0_1 : (⟨S8x2048, .f32⟩ : BufTy).Contents (Elt F) → (⟨S8x2048x1, .f32⟩ : BufTy).Contents (Elt F)),
    binary main_v129 main_arg11 main_v194 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_v193 main_v195 (broadcastInDim S8x2048x256 ![0, 1, 2] bcast_S8x2048x1_S8x2048x256_0_1_2 : (⟨S8x2048x1, .f32⟩ : BufTy).Contents (Elt F) → (⟨S8x2048x256, .f32⟩ : BufTy).Contents (Elt F)),
    binary main_v194 main_v195 main_v196 (mulf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v196) (TRef.of (T := ⟨S8x2048x256, .f32⟩) main_call18_v0) Host.negf,
    TRef.unary (TRef.of (T := ⟨S8x2048x256, .f32⟩) main_call18_v0) (TRef.of (T := ⟨S8x2048x256, .f32⟩) main_call18_v1) Host.exp,
    TRef.nullary (TRef.of (T := ⟨S_, .f32⟩) main_call18_cst) (constant S_ .f32 0x3F800000#32),
    TRef.unary (TRef.of (T := ⟨S_, .f32⟩) main_call18_cst) (TRef.of (T := ⟨S8x2048x256, .f32⟩) main_call18_v2) (broadcastInDim S8x2048x256 ![] bcast_S_S8x2048x256),
    TRef.binary (TRef.of (T := ⟨S8x2048x256, .f32⟩) main_call18_v2) (TRef.of (T := ⟨S8x2048x256, .f32⟩) main_call18_v1) (TRef.of (T := ⟨S8x2048x256, .f32⟩) main_call18_v3) addf,
    TRef.nullary (TRef.of (T := ⟨S_, .f32⟩) main_call18_cst_0) (constant S_ .f32 0x3F800000#32),
    TRef.unary (TRef.of (T := ⟨S_, .f32⟩) main_call18_cst_0) (TRef.of (T := ⟨S8x2048x256, .f32⟩) main_call18_v4) (broadcastInDim S8x2048x256 ![] bcast_S_S8x2048x256),
    TRef.binary (TRef.of (T := ⟨S8x2048x256, .f32⟩) main_call18_v4) (TRef.of (T := ⟨S8x2048x256, .f32⟩) main_call18_v3) (TRef.of (T := ⟨S8x2048x256, .f32⟩) main_call18_v5) Host.divf,
    TRef.binary (TRef.of (T := ⟨S8x2048x256, .f32⟩) main_v196) (TRef.of (T := ⟨S8x2048x256, .f32⟩) main_call18_v5) (TRef.of (T := ⟨S8x2048x256, .f32⟩) main_v197) mulf,
    binary main_v192 main_arg12 main_v198 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_v193 main_v199 (broadcastInDim S8x2048x256 ![0, 1, 2] bcast_S8x2048x1_S8x2048x256_0_1_2 : (⟨S8x2048x1, .f32⟩ : BufTy).Contents (Elt F) → (⟨S8x2048x256, .f32⟩ : BufTy).Contents (Elt F)),
    binary main_v198 main_v199 main_v200 (mulf : (⟨S8x2048x256, .f32⟩ : BufTy).Contents (Elt F) → (⟨S8x2048x256, .f32⟩ : BufTy).Contents (Elt F) → (⟨S8x2048x256, .f32⟩ : BufTy).Contents (Elt F)),
    binary main_v66 main_arg13 main_v201 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    binary main_v197 main_v200 main_v202 ((fun l r => Host.dotGeneral dot_S8x2048x256_S8x2048x256_S8x256x256_1_1_2_2_0_0 none l r) : (⟨S8x2048x256, .f32⟩ : BufTy).Contents (Elt F) → (⟨S8x2048x256, .f32⟩ : BufTy).Contents (Elt F) → (⟨S8x256x256, .f32⟩ : BufTy).Contents (Elt F)),
    binary main_v201 main_v202 main_v203 ((fun l r => Host.dotGeneral dot_S8x2048x256_S8x256x256_S8x2048x256_2_1_1_2_0_0 none l r) : (⟨S8x2048x256, .f32⟩ : BufTy).Contents (Elt F) → (⟨S8x256x256, .f32⟩ : BufTy).Contents (Elt F) → (⟨S8x2048x256, .f32⟩ : BufTy).Contents (Elt F)),
    binary main_v203 main_arg14 main_v204 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    binary main_v204 main_arg0 main_v205 (addf : (⟨S8x2048x256, .f32⟩ : BufTy).Contents (Elt F) → (⟨S8x2048x256, .f32⟩ : BufTy).Contents (Elt F) → (⟨S8x2048x256, .f32⟩ : BufTy).Contents (Elt F)),
    unary main_arg17 main_v206 (broadcastInDim S1x1x256 ![2] bcast_S256_S1x1x256_2 : (⟨S256, .f32⟩ : BufTy).Contents (Elt F) → (⟨S1x1x256, .f32⟩ : BufTy).Contents (Elt F)),
    unary main_v206 main_v207 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v205 main_v207 main_v208 (subf : (⟨S8x2048x256, .f32⟩ : BufTy).Contents (Elt F) → (⟨S8x2048x256, .f32⟩ : BufTy).Contents (Elt F) → (⟨S8x2048x256, .f32⟩ : BufTy).Contents (Elt F)),
    unary main_arg15 main_v209 (broadcastInDim S1x1x256 ![2] bcast_S256_S1x1x256_2 : (⟨S256, .f32⟩ : BufTy).Contents (Elt F) → (⟨S1x1x256, .f32⟩ : BufTy).Contents (Elt F)),
    unary main_v209 main_v210 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v210 main_v208 main_v211 (mulf : (⟨S8x2048x256, .f32⟩ : BufTy).Contents (Elt F) → (⟨S8x2048x256, .f32⟩ : BufTy).Contents (Elt F) → (⟨S8x2048x256, .f32⟩ : BufTy).Contents (Elt F)),
    nullary main_cst (constant S_ .f32 0x3A83126F#32),
    unary main_cst main_v212 (broadcastInDim S256 ![] bcast_S_S256 : (⟨S_, .f32⟩ : BufTy).Contents (Elt F) → (⟨S256, .f32⟩ : BufTy).Contents (Elt F)),
    binary main_arg18 main_v212 main_v213 (addf : (⟨S256, .f32⟩ : BufTy).Contents (Elt F) → (⟨S256, .f32⟩ : BufTy).Contents (Elt F) → (⟨S256, .f32⟩ : BufTy).Contents (Elt F)),
    unary main_v213 main_v214 (Host.rsqrt : (⟨S256, .f32⟩ : BufTy).Contents (Elt F) → (⟨S256, .f32⟩ : BufTy).Contents (Elt F)),
    unary main_v214 main_v215 (broadcastInDim S1x1x256 ![2] bcast_S256_S1x1x256_2 : (⟨S256, .f32⟩ : BufTy).Contents (Elt F) → (⟨S1x1x256, .f32⟩ : BufTy).Contents (Elt F)),
    unary main_v215 main_v216 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v211 main_v216 main_v217 (mulf : (⟨S8x2048x256, .f32⟩ : BufTy).Contents (Elt F) → (⟨S8x2048x256, .f32⟩ : BufTy).Contents (Elt F) → (⟨S8x2048x256, .f32⟩ : BufTy).Contents (Elt F)),
    unary main_arg16 main_v218 (broadcastInDim S1x1x256 ![2] bcast_S256_S1x1x256_2 : (⟨S256, .f32⟩ : BufTy).Contents (Elt F) → (⟨S1x1x256, .f32⟩ : BufTy).Contents (Elt F)),
    unary main_v218 main_v219 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v217 main_v219 main_v220 (addf : (⟨S8x2048x256, .f32⟩ : BufTy).Contents (Elt F) → (⟨S8x2048x256, .f32⟩ : BufTy).Contents (Elt F) → (⟨S8x2048x256, .f32⟩ : BufTy).Contents (Elt F)),
    binary main_v220 main_arg19 main_v221 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg20 main_v222 (broadcastInDim S1x1x256 ![2] bcast_S256_S1x1x256_2 : (⟨S256, .f32⟩ : BufTy).Contents (Elt F) → (⟨S1x1x256, .f32⟩ : BufTy).Contents (Elt F)),
    unary main_v222 main_v223 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v221 main_v223 main_v224 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v224) (TRef.of (T := ⟨S8x2048x256, .f32⟩) main_call19_v0) Host.negf,
    TRef.unary (TRef.of (T := ⟨S8x2048x256, .f32⟩) main_call19_v0) (TRef.of (T := ⟨S8x2048x256, .f32⟩) main_call19_v1) Host.exp,
    TRef.nullary (TRef.of (T := ⟨S_, .f32⟩) main_call19_cst) (constant S_ .f32 0x3F800000#32),
    TRef.unary (TRef.of (T := ⟨S_, .f32⟩) main_call19_cst) (TRef.of (T := ⟨S8x2048x256, .f32⟩) main_call19_v2) (broadcastInDim S8x2048x256 ![] bcast_S_S8x2048x256),
    TRef.binary (TRef.of (T := ⟨S8x2048x256, .f32⟩) main_call19_v2) (TRef.of (T := ⟨S8x2048x256, .f32⟩) main_call19_v1) (TRef.of (T := ⟨S8x2048x256, .f32⟩) main_call19_v3) addf,
    TRef.nullary (TRef.of (T := ⟨S_, .f32⟩) main_call19_cst_0) (constant S_ .f32 0x3F800000#32),
    TRef.unary (TRef.of (T := ⟨S_, .f32⟩) main_call19_cst_0) (TRef.of (T := ⟨S8x2048x256, .f32⟩) main_call19_v4) (broadcastInDim S8x2048x256 ![] bcast_S_S8x2048x256),
    TRef.binary (TRef.of (T := ⟨S8x2048x256, .f32⟩) main_call19_v4) (TRef.of (T := ⟨S8x2048x256, .f32⟩) main_call19_v3) (TRef.of (T := ⟨S8x2048x256, .f32⟩) main_call19_v5) Host.divf,
    TRef.binary (TRef.of (T := ⟨S8x2048x256, .f32⟩) main_v224) (TRef.of (T := ⟨S8x2048x256, .f32⟩) main_call19_v5) (TRef.of (T := ⟨S8x2048x256, .f32⟩) main_v225) mulf,
    binary main_arg0 main_arg21 main_v226 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    binary main_v225 main_v226 main_v227 (addf : (⟨S8x2048x256, .f32⟩ : BufTy).Contents (Elt F) → (⟨S8x2048x256, .f32⟩ : BufTy).Contents (Elt F) → (⟨S8x2048x256, .f32⟩ : BufTy).Contents (Elt F)),
    unary main_arg22 main_v228 (broadcastInDim S1x1x256 ![2] bcast_S256_S1x1x256_2 : (⟨S256, .f32⟩ : BufTy).Contents (Elt F) → (⟨S1x1x256, .f32⟩ : BufTy).Contents (Elt F)),
    unary main_v228 main_v229 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v227 main_v229 main_v230 (addf : (⟨S8x2048x256, .f32⟩ : BufTy).Contents (Elt F) → (⟨S8x2048x256, .f32⟩ : BufTy).Contents (Elt F) → (⟨S8x2048x256, .f32⟩ : BufTy).Contents (Elt F)),
    unary main_arg2 main_v231 (broadcastInDim S8x2048x1 ![0, 1] bcast_S8x2048_S8x2048x1_0_1 : (⟨S8x2048, .f32⟩ : BufTy).Contents (Elt F) → (⟨S8x2048x1, .f32⟩ : BufTy).Contents (Elt F)),
    unary main_v231 main_v232 (broadcastInDim S8x2048x256 ![0, 1, 2] bcast_S8x2048x1_S8x2048x256_0_1_2 : (⟨S8x2048x1, .f32⟩ : BufTy).Contents (Elt F) → (⟨S8x2048x256, .f32⟩ : BufTy).Contents (Elt F)),
    binary main_v230 main_v232 main_v233 (mulf : (⟨S8x2048x256, .f32⟩ : BufTy).Contents (Elt F) → (⟨S8x2048x256, .f32⟩ : BufTy).Contents (Elt F) → (⟨S8x2048x256, .f32⟩ : BufTy).Contents (Elt F)) ]

/-! ## A line whose k-th operation writes the k-th buffer of a list writes only into that list -/

theorem writes_sub_of {Val : EltTy → Type} {l : List (HloOp τ sig Val)} {ys : List (Ref sig .tc)}
    (h : List.Forall₂ (fun op y => op.writes = {Proc.devRef (τ := τ) .tc y}) l ys) :
    l.Forall fun op => op.writes ⊆ (ys.map (Proc.devRef (τ := τ) .tc)).toFinset := by
  induction h with
  | nil => exact trivial
  | @cons op y l ys hxy _ ih =>
    rw [List.forall_cons]
    refine ⟨?_, ih.imp fun o hsub => hsub.trans ?_⟩
    · rw [hxy]
      exact Finset.singleton_subset_iff.mpr (List.mem_toFinset.mpr (List.mem_map.mpr ⟨y, List.mem_cons_self, rfl⟩))
    · intro d hd
      obtain ⟨z, hz, e⟩ := List.mem_map.mp (List.mem_toFinset.mp hd)
      exact List.mem_toFinset.mpr (List.mem_map.mpr ⟨z, List.mem_cons_of_mem _ hz, e⟩)

/-! ## Stretch by stretch -/

/-! ### Stretch 0 -/

/-- What stretch 0 writes. -/
abbrev written0 : List (Ref sig .tc) := [main_v0, main_v1, main_v2, main_v3]

theorem writes0 : (seg0 (F := Ideal)).Forall fun op => op.writes ⊆ (written0.map (Proc.devRef (τ := τ) .tc)).toFinset :=
  writes_sub_of ((.cons rfl (.cons rfl (.cons rfl (.cons rfl .nil)))))

/-- It leaves every other buffer as it was. -/
theorem keeps0 (V : Valuation τ sig (Elt Ideal)) {r : Ref sig .tc} (hr : r ∉ written0) :
    after (seg0 (F := Ideal)) V (no_index (Proc.devRef .tc r)) = V (Proc.devRef .tc r) :=
  after_of_writes_sub _ V writes0 hr

/-- Its last buffer, as a layer of the contents it started from. -/
theorem value0 (V : Valuation τ sig (Elt Ideal)) :
    after (seg0 (F := Ideal)) V (Proc.devRef .tc main_v3)
      = inputArr (V (Proc.devRef .tc main_arg0)) (V (Proc.devRef .tc main_arg3)) (V (Proc.devRef .tc main_arg4)) := by
  after_results_simp <;> rfl

/-! ### Stretch 1 -/

/-- What stretch 1 writes. -/
abbrev written1 : List (Ref sig .tc) := [main_v4, main_v5, main_v6, main_v7, main_v8, main_v9, main_v10, main_v11, main_v12, main_call0_v0, main_call0_v1, main_call0_cst, main_call0_v2, main_call0_v3, main_call0_cst_0, main_call0_v4, main_call0_v5, main_v13]

theorem writes1 : (seg1 (F := Ideal)).Forall fun op => op.writes ⊆ (written1.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))

/-- It leaves every other buffer as it was. -/
theorem keeps1 (V : Valuation τ sig (Elt Ideal)) {r : Ref sig .tc} (hr : r ∉ written1) :
    after (seg1 (F := Ideal)) V (no_index (Proc.devRef .tc r)) = V (Proc.devRef .tc r) :=
  after_of_writes_sub _ V writes1 hr

/-- Its last buffer, as a layer of the contents it started from. -/
theorem value1 (V : Valuation τ sig (Elt Ideal)) :
    after (seg1 (F := Ideal)) V (Proc.devRef .tc main_v13)
      = stepArr0 (V (Proc.devRef .tc main_arg1)) (V (Proc.devRef .tc main_arg5)) (V (Proc.devRef .tc main_arg6)) (V (Proc.devRef .tc main_v3)) := by
  after_results_simp <;> rfl

/-! ### Stretch 2 -/

/-- What stretch 2 writes. -/
abbrev written2 : List (Ref sig .tc) := [main_v14, main_v15, main_v16, main_v17, main_v18, main_v19, main_v20, main_v21, main_v22, main_call1_v0, main_call1_v1, main_call1_cst, main_call1_v2, main_call1_v3, main_call1_cst_0, main_call1_v4, main_call1_v5, main_v23]

theorem writes2 : (seg2 (F := Ideal)).Forall fun op => op.writes ⊆ (written2.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))

/-- It leaves every other buffer as it was. -/
theorem keeps2 (V : Valuation τ sig (Elt Ideal)) {r : Ref sig .tc} (hr : r ∉ written2) :
    after (seg2 (F := Ideal)) V (no_index (Proc.devRef .tc r)) = V (Proc.devRef .tc r) :=
  after_of_writes_sub _ V writes2 hr

/-- Its last buffer, as a layer of the contents it started from. -/
theorem value2 (V : Valuation τ sig (Elt Ideal)) :
    after (seg2 (F := Ideal)) V (Proc.devRef .tc main_v23)
      = stepArr0 (V (Proc.devRef .tc main_arg1)) (V (Proc.devRef .tc main_arg5)) (V (Proc.devRef .tc main_arg6)) (V (Proc.devRef .tc main_v13)) := by
  after_results_simp <;> rfl

/-! ### Stretch 3 -/

/-- What stretch 3 writes. -/
abbrev written3 : List (Ref sig .tc) := [main_v24, main_v25, main_v26, main_v27, main_v28, main_v29, main_v30, main_v31, main_v32, main_call2_v0, main_call2_v1, main_call2_cst, main_call2_v2, main_call2_v3, main_call2_cst_0, main_call2_v4, main_call2_v5, main_v33]

theorem writes3 : (seg3 (F := Ideal)).Forall fun op => op.writes ⊆ (written3.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))

/-- It leaves every other buffer as it was. -/
theorem keeps3 (V : Valuation τ sig (Elt Ideal)) {r : Ref sig .tc} (hr : r ∉ written3) :
    after (seg3 (F := Ideal)) V (no_index (Proc.devRef .tc r)) = V (Proc.devRef .tc r) :=
  after_of_writes_sub _ V writes3 hr

/-- Its last buffer, as a layer of the contents it started from. -/
theorem value3 (V : Valuation τ sig (Elt Ideal)) :
    after (seg3 (F := Ideal)) V (Proc.devRef .tc main_v33)
      = stepArr1 (V (Proc.devRef .tc main_arg1)) (V (Proc.devRef .tc main_arg5)) (V (Proc.devRef .tc main_arg6)) (V (Proc.devRef .tc main_v23)) := by
  after_results_simp <;> rfl

/-! ### Stretch 4 -/

/-- What stretch 4 writes. -/
abbrev written4 : List (Ref sig .tc) := [main_v34, main_v35, main_v36, main_v37, main_v38, main_v39, main_v40, main_v41, main_v42, main_call3_v0, main_call3_v1, main_call3_cst, main_call3_v2, main_call3_v3, main_call3_cst_0, main_call3_v4, main_call3_v5, main_v43]

theorem writes4 : (seg4 (F := Ideal)).Forall fun op => op.writes ⊆ (written4.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))

/-- It leaves every other buffer as it was. -/
theorem keeps4 (V : Valuation τ sig (Elt Ideal)) {r : Ref sig .tc} (hr : r ∉ written4) :
    after (seg4 (F := Ideal)) V (no_index (Proc.devRef .tc r)) = V (Proc.devRef .tc r) :=
  after_of_writes_sub _ V writes4 hr

/-- Its last buffer, as a layer of the contents it started from. -/
theorem value4 (V : Valuation τ sig (Elt Ideal)) :
    after (seg4 (F := Ideal)) V (Proc.devRef .tc main_v43)
      = stepArr1 (V (Proc.devRef .tc main_arg1)) (V (Proc.devRef .tc main_arg5)) (V (Proc.devRef .tc main_arg6)) (V (Proc.devRef .tc main_v33)) := by
  after_results_simp <;> rfl

/-! ### Stretch 5 -/

/-- What stretch 5 writes. -/
abbrev written5 : List (Ref sig .tc) := [main_v44, main_v45, main_v46, main_v47, main_v48, main_v49, main_v50, main_v51, main_v52, main_call4_v0, main_call4_v1, main_call4_cst, main_call4_v2, main_call4_v3, main_call4_cst_0, main_call4_v4, main_call4_v5, main_v53]

theorem writes5 : (seg5 (F := Ideal)).Forall fun op => op.writes ⊆ (written5.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))

/-- It leaves every other buffer as it was. -/
theorem keeps5 (V : Valuation τ sig (Elt Ideal)) {r : Ref sig .tc} (hr : r ∉ written5) :
    after (seg5 (F := Ideal)) V (no_index (Proc.devRef .tc r)) = V (Proc.devRef .tc r) :=
  after_of_writes_sub _ V writes5 hr

/-- Its last buffer, as a layer of the contents it started from. -/
theorem value5 (V : Valuation τ sig (Elt Ideal)) :
    after (seg5 (F := Ideal)) V (Proc.devRef .tc main_v53)
      = stepArr2 (V (Proc.devRef .tc main_arg1)) (V (Proc.devRef .tc main_arg5)) (V (Proc.devRef .tc main_arg6)) (V (Proc.devRef .tc main_v43)) := by
  after_results_simp <;> rfl

/-! ### Stretch 6 -/

/-- What stretch 6 writes. -/
abbrev written6 : List (Ref sig .tc) := [main_v54, main_v55, main_v56, main_v57, main_v58, main_v59, main_v60, main_v61, main_v62, main_call5_v0, main_call5_v1, main_call5_cst, main_call5_v2, main_call5_v3, main_call5_cst_0, main_call5_v4, main_call5_v5, main_v63, main_v64, main_v65, main_v66]

theorem writes6 : (seg6 (F := Ideal)).Forall fun op => op.writes ⊆ (written6.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))

/-- It leaves every other buffer as it was. -/
theorem keeps6 (V : Valuation τ sig (Elt Ideal)) {r : Ref sig .tc} (hr : r ∉ written6) :
    after (seg6 (F := Ideal)) V (no_index (Proc.devRef .tc r)) = V (Proc.devRef .tc r) :=
  after_of_writes_sub _ V writes6 hr

/-- Its last buffer, as a layer of the contents it started from. -/
theorem value6 (V : Valuation τ sig (Elt Ideal)) :
    after (seg6 (F := Ideal)) V (Proc.devRef .tc main_v66)
      = maskedArr (stepArr2 (V (Proc.devRef .tc main_arg1)) (V (Proc.devRef .tc main_arg5)) (V (Proc.devRef .tc main_arg6)) (V (Proc.devRef .tc main_v53))) (V (Proc.devRef .tc main_arg2)) := by
  after_results_simp <;> rfl

/-! ### Stretch 7 -/

/-- What stretch 7 writes. -/
abbrev written7 : List (Ref sig .tc) := [main_v67, main_v68, main_v69, main_v70, main_v71, main_v72, main_v73, main_v74, main_v75, main_call6_v0, main_call6_v1, main_call6_cst, main_call6_v2, main_call6_v3, main_call6_cst_0, main_call6_v4, main_call6_v5, main_v76]

theorem writes7 : (seg7 (F := Ideal)).Forall fun op => op.writes ⊆ (written7.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))

/-- It leaves every other buffer as it was. -/
theorem keeps7 (V : Valuation τ sig (Elt Ideal)) {r : Ref sig .tc} (hr : r ∉ written7) :
    after (seg7 (F := Ideal)) V (no_index (Proc.devRef .tc r)) = V (Proc.devRef .tc r) :=
  after_of_writes_sub _ V writes7 hr

/-- Its last buffer, as a layer of the contents it started from. -/
theorem value7 (V : Valuation τ sig (Elt Ideal)) :
    after (seg7 (F := Ideal)) V (Proc.devRef .tc main_v76)
      = stepArr0 (V (Proc.devRef .tc main_arg1)) (V (Proc.devRef .tc main_arg7)) (V (Proc.devRef .tc main_arg8)) (V (Proc.devRef .tc main_v3)) := by
  after_results_simp <;> rfl

/-! ### Stretch 8 -/

/-- What stretch 8 writes. -/
abbrev written8 : List (Ref sig .tc) := [main_v77, main_v78, main_v79, main_v80, main_v81, main_v82, main_v83, main_v84, main_v85, main_call7_v0, main_call7_v1, main_call7_cst, main_call7_v2, main_call7_v3, main_call7_cst_0, main_call7_v4, main_call7_v5, main_v86]

theorem writes8 : (seg8 (F := Ideal)).Forall fun op => op.writes ⊆ (written8.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))

/-- It leaves every other buffer as it was. -/
theorem keeps8 (V : Valuation τ sig (Elt Ideal)) {r : Ref sig .tc} (hr : r ∉ written8) :
    after (seg8 (F := Ideal)) V (no_index (Proc.devRef .tc r)) = V (Proc.devRef .tc r) :=
  after_of_writes_sub _ V writes8 hr

/-- Its last buffer, as a layer of the contents it started from. -/
theorem value8 (V : Valuation τ sig (Elt Ideal)) :
    after (seg8 (F := Ideal)) V (Proc.devRef .tc main_v86)
      = stepArr0 (V (Proc.devRef .tc main_arg1)) (V (Proc.devRef .tc main_arg7)) (V (Proc.devRef .tc main_arg8)) (V (Proc.devRef .tc main_v76)) := by
  after_results_simp <;> rfl

/-! ### Stretch 9 -/

/-- What stretch 9 writes. -/
abbrev written9 : List (Ref sig .tc) := [main_v87, main_v88, main_v89, main_v90, main_v91, main_v92, main_v93, main_v94, main_v95, main_call8_v0, main_call8_v1, main_call8_cst, main_call8_v2, main_call8_v3, main_call8_cst_0, main_call8_v4, main_call8_v5, main_v96]

theorem writes9 : (seg9 (F := Ideal)).Forall fun op => op.writes ⊆ (written9.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))

/-- It leaves every other buffer as it was. -/
theorem keeps9 (V : Valuation τ sig (Elt Ideal)) {r : Ref sig .tc} (hr : r ∉ written9) :
    after (seg9 (F := Ideal)) V (no_index (Proc.devRef .tc r)) = V (Proc.devRef .tc r) :=
  after_of_writes_sub _ V writes9 hr

/-- Its last buffer, as a layer of the contents it started from. -/
theorem value9 (V : Valuation τ sig (Elt Ideal)) :
    after (seg9 (F := Ideal)) V (Proc.devRef .tc main_v96)
      = stepArr1 (V (Proc.devRef .tc main_arg1)) (V (Proc.devRef .tc main_arg7)) (V (Proc.devRef .tc main_arg8)) (V (Proc.devRef .tc main_v86)) := by
  after_results_simp <;> rfl

/-! ### Stretch 10 -/

/-- What stretch 10 writes. -/
abbrev written10 : List (Ref sig .tc) := [main_v97, main_v98, main_v99, main_v100, main_v101, main_v102, main_v103, main_v104, main_v105, main_call9_v0, main_call9_v1, main_call9_cst, main_call9_v2, main_call9_v3, main_call9_cst_0, main_call9_v4, main_call9_v5, main_v106]

theorem writes10 : (seg10 (F := Ideal)).Forall fun op => op.writes ⊆ (written10.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))

/-- It leaves every other buffer as it was. -/
theorem keeps10 (V : Valuation τ sig (Elt Ideal)) {r : Ref sig .tc} (hr : r ∉ written10) :
    after (seg10 (F := Ideal)) V (no_index (Proc.devRef .tc r)) = V (Proc.devRef .tc r) :=
  after_of_writes_sub _ V writes10 hr

/-- Its last buffer, as a layer of the contents it started from. -/
theorem value10 (V : Valuation τ sig (Elt Ideal)) :
    after (seg10 (F := Ideal)) V (Proc.devRef .tc main_v106)
      = stepArr1 (V (Proc.devRef .tc main_arg1)) (V (Proc.devRef .tc main_arg7)) (V (Proc.devRef .tc main_arg8)) (V (Proc.devRef .tc main_v96)) := by
  after_results_simp <;> rfl

/-! ### Stretch 11 -/

/-- What stretch 11 writes. -/
abbrev written11 : List (Ref sig .tc) := [main_v107, main_v108, main_v109, main_v110, main_v111, main_v112, main_v113, main_v114, main_v115, main_call10_v0, main_call10_v1, main_call10_cst, main_call10_v2, main_call10_v3, main_call10_cst_0, main_call10_v4, main_call10_v5, main_v116]

theorem writes11 : (seg11 (F := Ideal)).Forall fun op => op.writes ⊆ (written11.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))

/-- It leaves every other buffer as it was. -/
theorem keeps11 (V : Valuation τ sig (Elt Ideal)) {r : Ref sig .tc} (hr : r ∉ written11) :
    after (seg11 (F := Ideal)) V (no_index (Proc.devRef .tc r)) = V (Proc.devRef .tc r) :=
  after_of_writes_sub _ V writes11 hr

/-- Its last buffer, as a layer of the contents it started from. -/
theorem value11 (V : Valuation τ sig (Elt Ideal)) :
    after (seg11 (F := Ideal)) V (Proc.devRef .tc main_v116)
      = stepArr2 (V (Proc.devRef .tc main_arg1)) (V (Proc.devRef .tc main_arg7)) (V (Proc.devRef .tc main_arg8)) (V (Proc.devRef .tc main_v106)) := by
  after_results_simp <;> rfl

/-! ### Stretch 12 -/

/-- What stretch 12 writes. -/
abbrev written12 : List (Ref sig .tc) := [main_v117, main_v118, main_v119, main_v120, main_v121, main_v122, main_v123, main_v124, main_v125, main_call11_v0, main_call11_v1, main_call11_cst, main_call11_v2, main_call11_v3, main_call11_cst_0, main_call11_v4, main_call11_v5, main_v126, main_v127, main_v128, main_v129]

theorem writes12 : (seg12 (F := Ideal)).Forall fun op => op.writes ⊆ (written12.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))

/-- It leaves every other buffer as it was. -/
theorem keeps12 (V : Valuation τ sig (Elt Ideal)) {r : Ref sig .tc} (hr : r ∉ written12) :
    after (seg12 (F := Ideal)) V (no_index (Proc.devRef .tc r)) = V (Proc.devRef .tc r) :=
  after_of_writes_sub _ V writes12 hr

/-- Its last buffer, as a layer of the contents it started from. -/
theorem value12 (V : Valuation τ sig (Elt Ideal)) :
    after (seg12 (F := Ideal)) V (Proc.devRef .tc main_v129)
      = maskedArr (stepArr2 (V (Proc.devRef .tc main_arg1)) (V (Proc.devRef .tc main_arg7)) (V (Proc.devRef .tc main_arg8)) (V (Proc.devRef .tc main_v116))) (V (Proc.devRef .tc main_arg2)) := by
  after_results_simp <;> rfl

/-! ### Stretch 13 -/

/-- What stretch 13 writes. -/
abbrev written13 : List (Ref sig .tc) := [main_v130, main_v131, main_v132, main_v133, main_v134, main_v135, main_v136, main_v137, main_v138, main_call12_v0, main_call12_v1, main_call12_cst, main_call12_v2, main_call12_v3, main_call12_cst_0, main_call12_v4, main_call12_v5, main_v139]

theorem writes13 : (seg13 (F := Ideal)).Forall fun op => op.writes ⊆ (written13.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))

/-- It leaves every other buffer as it was. -/
theorem keeps13 (V : Valuation τ sig (Elt Ideal)) {r : Ref sig .tc} (hr : r ∉ written13) :
    after (seg13 (F := Ideal)) V (no_index (Proc.devRef .tc r)) = V (Proc.devRef .tc r) :=
  after_of_writes_sub _ V writes13 hr

/-- Its last buffer, as a layer of the contents it started from. -/
theorem value13 (V : Valuation τ sig (Elt Ideal)) :
    after (seg13 (F := Ideal)) V (Proc.devRef .tc main_v139)
      = stepArr0 (V (Proc.devRef .tc main_arg1)) (V (Proc.devRef .tc main_arg9)) (V (Proc.devRef .tc main_arg10)) (V (Proc.devRef .tc main_v3)) := by
  after_results_simp <;> rfl

/-! ### Stretch 14 -/

/-- What stretch 14 writes. -/
abbrev written14 : List (Ref sig .tc) := [main_v140, main_v141, main_v142, main_v143, main_v144, main_v145, main_v146, main_v147, main_v148, main_call13_v0, main_call13_v1, main_call13_cst, main_call13_v2, main_call13_v3, main_call13_cst_0, main_call13_v4, main_call13_v5, main_v149]

theorem writes14 : (seg14 (F := Ideal)).Forall fun op => op.writes ⊆ (written14.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))

/-- It leaves every other buffer as it was. -/
theorem keeps14 (V : Valuation τ sig (Elt Ideal)) {r : Ref sig .tc} (hr : r ∉ written14) :
    after (seg14 (F := Ideal)) V (no_index (Proc.devRef .tc r)) = V (Proc.devRef .tc r) :=
  after_of_writes_sub _ V writes14 hr

/-- Its last buffer, as a layer of the contents it started from. -/
theorem value14 (V : Valuation τ sig (Elt Ideal)) :
    after (seg14 (F := Ideal)) V (Proc.devRef .tc main_v149)
      = stepArr0 (V (Proc.devRef .tc main_arg1)) (V (Proc.devRef .tc main_arg9)) (V (Proc.devRef .tc main_arg10)) (V (Proc.devRef .tc main_v139)) := by
  after_results_simp <;> rfl

/-! ### Stretch 15 -/

/-- What stretch 15 writes. -/
abbrev written15 : List (Ref sig .tc) := [main_v150, main_v151, main_v152, main_v153, main_v154, main_v155, main_v156, main_v157, main_v158, main_call14_v0, main_call14_v1, main_call14_cst, main_call14_v2, main_call14_v3, main_call14_cst_0, main_call14_v4, main_call14_v5, main_v159]

theorem writes15 : (seg15 (F := Ideal)).Forall fun op => op.writes ⊆ (written15.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))

/-- It leaves every other buffer as it was. -/
theorem keeps15 (V : Valuation τ sig (Elt Ideal)) {r : Ref sig .tc} (hr : r ∉ written15) :
    after (seg15 (F := Ideal)) V (no_index (Proc.devRef .tc r)) = V (Proc.devRef .tc r) :=
  after_of_writes_sub _ V writes15 hr

/-- Its last buffer, as a layer of the contents it started from. -/
theorem value15 (V : Valuation τ sig (Elt Ideal)) :
    after (seg15 (F := Ideal)) V (Proc.devRef .tc main_v159)
      = stepArr1 (V (Proc.devRef .tc main_arg1)) (V (Proc.devRef .tc main_arg9)) (V (Proc.devRef .tc main_arg10)) (V (Proc.devRef .tc main_v149)) := by
  after_results_simp <;> rfl

/-! ### Stretch 16 -/

/-- What stretch 16 writes. -/
abbrev written16 : List (Ref sig .tc) := [main_v160, main_v161, main_v162, main_v163, main_v164, main_v165, main_v166, main_v167, main_v168, main_call15_v0, main_call15_v1, main_call15_cst, main_call15_v2, main_call15_v3, main_call15_cst_0, main_call15_v4, main_call15_v5, main_v169]

theorem writes16 : (seg16 (F := Ideal)).Forall fun op => op.writes ⊆ (written16.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))

/-- It leaves every other buffer as it was. -/
theorem keeps16 (V : Valuation τ sig (Elt Ideal)) {r : Ref sig .tc} (hr : r ∉ written16) :
    after (seg16 (F := Ideal)) V (no_index (Proc.devRef .tc r)) = V (Proc.devRef .tc r) :=
  after_of_writes_sub _ V writes16 hr

/-- Its last buffer, as a layer of the contents it started from. -/
theorem value16 (V : Valuation τ sig (Elt Ideal)) :
    after (seg16 (F := Ideal)) V (Proc.devRef .tc main_v169)
      = stepArr1 (V (Proc.devRef .tc main_arg1)) (V (Proc.devRef .tc main_arg9)) (V (Proc.devRef .tc main_arg10)) (V (Proc.devRef .tc main_v159)) := by
  after_results_simp <;> rfl

/-! ### Stretch 17 -/

/-- What stretch 17 writes. -/
abbrev written17 : List (Ref sig .tc) := [main_v170, main_v171, main_v172, main_v173, main_v174, main_v175, main_v176, main_v177, main_v178, main_call16_v0, main_call16_v1, main_call16_cst, main_call16_v2, main_call16_v3, main_call16_cst_0, main_call16_v4, main_call16_v5, main_v179]

theorem writes17 : (seg17 (F := Ideal)).Forall fun op => op.writes ⊆ (written17.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))

/-- It leaves every other buffer as it was. -/
theorem keeps17 (V : Valuation τ sig (Elt Ideal)) {r : Ref sig .tc} (hr : r ∉ written17) :
    after (seg17 (F := Ideal)) V (no_index (Proc.devRef .tc r)) = V (Proc.devRef .tc r) :=
  after_of_writes_sub _ V writes17 hr

/-- Its last buffer, as a layer of the contents it started from. -/
theorem value17 (V : Valuation τ sig (Elt Ideal)) :
    after (seg17 (F := Ideal)) V (Proc.devRef .tc main_v179)
      = stepArr2 (V (Proc.devRef .tc main_arg1)) (V (Proc.devRef .tc main_arg9)) (V (Proc.devRef .tc main_arg10)) (V (Proc.devRef .tc main_v169)) := by
  after_results_simp <;> rfl

/-! ### Stretch 18 -/

/-- What stretch 18 writes. -/
abbrev written18 : List (Ref sig .tc) := [main_v180, main_v181, main_v182, main_v183, main_v184, main_v185, main_v186, main_v187, main_v188, main_call17_v0, main_call17_v1, main_call17_cst, main_call17_v2, main_call17_v3, main_call17_cst_0, main_call17_v4, main_call17_v5, main_v189, main_v190, main_v191, main_v192]

theorem writes18 : (seg18 (F := Ideal)).Forall fun op => op.writes ⊆ (written18.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))

/-- It leaves every other buffer as it was. -/
theorem keeps18 (V : Valuation τ sig (Elt Ideal)) {r : Ref sig .tc} (hr : r ∉ written18) :
    after (seg18 (F := Ideal)) V (no_index (Proc.devRef .tc r)) = V (Proc.devRef .tc r) :=
  after_of_writes_sub _ V writes18 hr

/-- Its last buffer, as a layer of the contents it started from. -/
theorem value18 (V : Valuation τ sig (Elt Ideal)) :
    after (seg18 (F := Ideal)) V (Proc.devRef .tc main_v192)
      = maskedArr (stepArr2 (V (Proc.devRef .tc main_arg1)) (V (Proc.devRef .tc main_arg9)) (V (Proc.devRef .tc main_arg10)) (V (Proc.devRef .tc main_v179))) (V (Proc.devRef .tc main_arg2)) := by
  after_results_simp <;> rfl

/-! ### Stretch 19 -/

/-- What stretch 19 writes. -/
abbrev written19 : List (Ref sig .tc) := [main_v193, main_v194, main_v195, main_v196, main_call18_v0, main_call18_v1, main_call18_cst, main_call18_v2, main_call18_v3, main_call18_cst_0, main_call18_v4, main_call18_v5, main_v197, main_v198, main_v199, main_v200, main_v201, main_v202, main_v203, main_v204, main_v205, main_v206, main_v207, main_v208, main_v209, main_v210, main_v211, main_cst, main_v212, main_v213, main_v214, main_v215, main_v216, main_v217, main_v218, main_v219, main_v220, main_v221, main_v222, main_v223, main_v224, main_call19_v0, main_call19_v1, main_call19_cst, main_call19_v2, main_call19_v3, main_call19_cst_0, main_call19_v4, main_call19_v5, main_v225, main_v226, main_v227, main_v228, main_v229, main_v230, main_v231, main_v232, main_v233]

theorem writes19 : (seg19 (F := Ideal)).Forall fun op => op.writes ⊆ (written19.map (Proc.devRef (τ := τ) .tc)).toFinset :=
  writes_sub_of ((.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))))))))))))))))))))))))))))))))))))))))

/-- It leaves every other buffer as it was. -/
theorem keeps19 (V : Valuation τ sig (Elt Ideal)) {r : Ref sig .tc} (hr : r ∉ written19) :
    after (seg19 (F := Ideal)) V (no_index (Proc.devRef .tc r)) = V (Proc.devRef .tc r) :=
  after_of_writes_sub _ V writes19 hr

/-- Its last buffer, as a layer of the contents it started from. -/
theorem value19 (V : Valuation τ sig (Elt Ideal)) :
    after (seg19 (F := Ideal)) V (Proc.devRef .tc main_v233)
      = outArr (normArr (attnArr (V (Proc.devRef .tc main_v66)) (V (Proc.devRef .tc main_v129)) (V (Proc.devRef .tc main_v192)) (V (Proc.devRef .tc main_arg0)) (V (Proc.devRef .tc main_arg2)) (V (Proc.devRef .tc main_arg11)) (V (Proc.devRef .tc main_arg12)) (V (Proc.devRef .tc main_arg13)) (V (Proc.devRef .tc main_arg14)))
        (V (Proc.devRef .tc main_arg15)) (V (Proc.devRef .tc main_arg16)) (V (Proc.devRef .tc main_arg17)) (V (Proc.devRef .tc main_arg18)) 0x3A83126F#32)
      (V (Proc.devRef .tc main_arg0)) (V (Proc.devRef .tc main_arg2)) (V (Proc.devRef .tc main_arg19)) (V (Proc.devRef .tc main_arg20)) (V (Proc.devRef .tc main_arg21)) (V (Proc.devRef .tc main_arg22)) := by
  after_results_simp <;> rfl

end Cert.RefSegments

end
-- ==== Proof.RefProgram.lean ====
/-
  The reference as a straight line of array operations.  Its entry point runs four printed parts one after the
  other; each part is a concatenation of the short stretches (two stretches straddle a part boundary and are cut
  there), so the entry point is the whole concatenation run in sequence, and the run library's conclusion applies:
  every weakly fair execution terminates with every buffer at the fold of the operations' results over the launch
  contents.
-/
import proofs.«111816_j43181601194857_2_alg».proof.Proof.RefSegments

set_option maxRecDepth 16384

noncomputable section

namespace Cert.RefProgram

open Cert.ReferenceIdeal Cert.ReferenceIdeal.Gen Idealize.ShloMosaic Idealize.ShloMosaic.TcCoe Idealize.SL.Sem Idealize.ShloMosaic.StableHlo
open Cert.RefSegments

variable {F : FTy → Type} [FloatOps F]

/-! ## The two stretches that straddle a part boundary, cut there -/

abbrev seg6a : List (HloOp τ sig (Elt F)) :=
  [ binary main_arg1 main_v53 main_v54 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg5 main_v55 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v55 main_v56 rfl shapeCasts_S1x256x256_S256x256,
    binary main_v54 main_v56 main_v57 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg6 main_v58 ((extractStridedSlice S1x256 ![2, 0] · slices_S3x256_S1x256_2_0) : (⟨S3x256, .f32⟩ : BufTy).Contents (Elt F) → (⟨S1x256, .f32⟩ : BufTy).Contents (Elt F)),
    reshape main_v58 main_v59 rfl shapeCasts_S1x256_S256 ]

abbrev seg6b : List (HloOp τ sig (Elt F)) :=
  [ unary main_v59 main_v60 (broadcastInDim S1x1x256 ![2] bcast_S256_S1x1x256_2 : (⟨S256, .f32⟩ : BufTy).Contents (Elt F) → (⟨S1x1x256, .f32⟩ : BufTy).Contents (Elt F)),
    unary main_v60 main_v61 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v57 main_v61 main_v62 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v62) (TRef.of (T := ⟨S8x2048x256, .f32⟩) main_call5_v0) Host.negf,
    TRef.unary (TRef.of (T := ⟨S8x2048x256, .f32⟩) main_call5_v0) (TRef.of (T := ⟨S8x2048x256, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S8x2048x256, .f32⟩) main_call5_v2) (broadcastInDim S8x2048x256 ![] bcast_S_S8x2048x256),
    TRef.binary (TRef.of (T := ⟨S8x2048x256, .f32⟩) main_call5_v2) (TRef.of (T := ⟨S8x2048x256, .f32⟩) main_call5_v1) (TRef.of (T := ⟨S8x2048x256, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S8x2048x256, .f32⟩) main_call5_v4) (broadcastInDim S8x2048x256 ![] bcast_S_S8x2048x256),
    TRef.binary (TRef.of (T := ⟨S8x2048x256, .f32⟩) main_call5_v4) (TRef.of (T := ⟨S8x2048x256, .f32⟩) main_call5_v3) (TRef.of (T := ⟨S8x2048x256, .f32⟩) main_call5_v5) Host.divf,
    TRef.binary (TRef.of (T := ⟨S8x2048x256, .f32⟩) main_v62) (TRef.of (T := ⟨S8x2048x256, .f32⟩) main_call5_v5) (TRef.of (T := ⟨S8x2048x256, .f32⟩) main_v63) mulf,
    unary main_arg2 main_v64 (broadcastInDim S8x2048x1 ![0, 1] bcast_S8x2048_S8x2048x1_0_1 : (⟨S8x2048, .f32⟩ : BufTy).Contents (Elt F) → (⟨S8x2048x1, .f32⟩ : BufTy).Contents (Elt F)),
    unary main_v64 main_v65 (broadcastInDim S8x2048x256 ![0, 1, 2] bcast_S8x2048x1_S8x2048x256_0_1_2 : (⟨S8x2048x1, .f32⟩ : BufTy).Contents (Elt F) → (⟨S8x2048x256, .f32⟩ : BufTy).Contents (Elt F)),
    binary main_v63 main_v65 main_v66 (mulf : (⟨S8x2048x256, .f32⟩ : BufTy).Contents (Elt F) → (⟨S8x2048x256, .f32⟩ : BufTy).Contents (Elt F) → (⟨S8x2048x256, .f32⟩ : BufTy).Contents (Elt F)) ]

abbrev seg12a : List (HloOp τ sig (Elt F)) :=
  [ binary main_arg1 main_v116 main_v117 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    unary main_arg7 main_v118 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v118 main_v119 rfl shapeCasts_S1x256x256_S256x256 ]

abbrev seg12b : List (HloOp τ sig (Elt F)) :=
  [ binary main_v117 main_v119 main_v120 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    unary main_arg8 main_v121 ((extractStridedSlice S1x256 ![2, 0] · slices_S3x256_S1x256_2_0) : (⟨S3x256, .f32⟩ : BufTy).Contents (Elt F) → (⟨S1x256, .f32⟩ : BufTy).Contents (Elt F)),
    reshape main_v121 main_v122 rfl shapeCasts_S1x256_S256,
    unary main_v122 main_v123 (broadcastInDim S1x1x256 ![2] bcast_S256_S1x1x256_2 : (⟨S256, .f32⟩ : BufTy).Contents (Elt F) → (⟨S1x1x256, .f32⟩ : BufTy).Contents (Elt F)),
    unary main_v123 main_v124 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v120 main_v124 main_v125 (addf : (⟨S8x2048x256, .f32⟩ : BufTy).Contents (Elt F) → (⟨S8x2048x256, .f32⟩ : BufTy).Contents (Elt F) → (⟨S8x2048x256, .f32⟩ : BufTy).Contents (Elt F)),
    TRef.unary (TRef.of (T := ⟨S8x2048x256, .f32⟩) main_v125) (TRef.of (T := ⟨S8x2048x256, .f32⟩) main_call11_v0) Host.negf,
    TRef.unary (TRef.of (T := ⟨S8x2048x256, .f32⟩) main_call11_v0) (TRef.of (T := ⟨S8x2048x256, .f32⟩) main_call11_v1) Host.exp,
    TRef.nullary (TRef.of (T := ⟨S_, .f32⟩) main_call11_cst) (constant S_ .f32 0x3F800000#32),
    TRef.unary (TRef.of (T := ⟨S_, .f32⟩) main_call11_cst) (TRef.of (T := ⟨S8x2048x256, .f32⟩) main_call11_v2) (broadcastInDim S8x2048x256 ![] bcast_S_S8x2048x256),
    TRef.binary (TRef.of (T := ⟨S8x2048x256, .f32⟩) main_call11_v2) (TRef.of (T := ⟨S8x2048x256, .f32⟩) main_call11_v1) (TRef.of (T := ⟨S8x2048x256, .f32⟩) main_call11_v3) addf,
    TRef.nullary (TRef.of (T := ⟨S_, .f32⟩) main_call11_cst_0) (constant S_ .f32 0x3F800000#32),
    TRef.unary (TRef.of (T := ⟨S_, .f32⟩) main_call11_cst_0) (TRef.of (T := ⟨S8x2048x256, .f32⟩) main_call11_v4) (broadcastInDim S8x2048x256 ![] bcast_S_S8x2048x256),
    TRef.binary (TRef.of (T := ⟨S8x2048x256, .f32⟩) main_call11_v4) (TRef.of (T := ⟨S8x2048x256, .f32⟩) main_call11_v3) (TRef.of (T := ⟨S8x2048x256, .f32⟩) main_call11_v5) Host.divf,
    TRef.binary (TRef.of (T := ⟨S8x2048x256, .f32⟩) main_v125) (TRef.of (T := ⟨S8x2048x256, .f32⟩) main_call11_v5) (TRef.of (T := ⟨S8x2048x256, .f32⟩) main_v126) mulf,
    unary main_arg2 main_v127 (broadcastInDim S8x2048x1 ![0, 1] bcast_S8x2048_S8x2048x1_0_1 : (⟨S8x2048, .f32⟩ : BufTy).Contents (Elt F) → (⟨S8x2048x1, .f32⟩ : BufTy).Contents (Elt F)),
    unary main_v127 main_v128 (broadcastInDim S8x2048x256 ![0, 1, 2] bcast_S8x2048x1_S8x2048x256_0_1_2 : (⟨S8x2048x1, .f32⟩ : BufTy).Contents (Elt F) → (⟨S8x2048x256, .f32⟩ : BufTy).Contents (Elt F)),
    binary main_v126 main_v128 main_v129 (mulf : (⟨S8x2048x256, .f32⟩ : BufTy).Contents (Elt F) → (⟨S8x2048x256, .f32⟩ : BufTy).Contents (Elt F) → (⟨S8x2048x256, .f32⟩ : BufTy).Contents (Elt F)) ]

theorem seg6_cut : (seg6 : List (HloOp τ sig (Elt F))) = seg6a ++ seg6b := rfl
theorem seg12_cut : (seg12 : List (HloOp τ sig (Elt F))) = seg12a ++ seg12b := rfl

/-! ## The parts and the whole line -/

abbrev part0 : List (HloOp τ sig (Elt F)) := seg0 ++ (seg1 ++ (seg2 ++ (seg3 ++ (seg4 ++ (seg5 ++ (seg6a))))))
abbrev part1 : List (HloOp τ sig (Elt F)) := seg6b ++ (seg7 ++ (seg8 ++ (seg9 ++ (seg10 ++ (seg11 ++ (seg12a))))))
abbrev part2 : List (HloOp τ sig (Elt F)) := seg12b ++ (seg13 ++ (seg14 ++ (seg15 ++ (seg16 ++ (seg17)))))
abbrev part3 : List (HloOp τ sig (Elt F)) := seg18 ++ (seg19)

/-- All the operations, in order. -/
abbrev ops : List (HloOp τ sig (Elt F)) := part0 ++ (part1 ++ (part2 ++ part3))

set_option maxHeartbeats 4000000 in
theorem part0_eq (d : Dev nD) : main_part0 (F := F) d = seq part0 := rfl
set_option maxHeartbeats 4000000 in
theorem part1_eq (d : Dev nD) : main_part1 (F := F) d = seq part1 := rfl
set_option maxHeartbeats 4000000 in
theorem part2_eq (d : Dev nD) : main_part2 (F := F) d = seq part2 := rfl
set_option maxHeartbeats 4000000 in
theorem part3_eq (d : Dev nD) : main_part3 (F := F) d = seq part3 := rfl

/-- The entry point is the whole line run in sequence. -/
theorem main_eq (d : Dev nD) : main (F := F) d = seq ops := by
  show _ = seq (part0 ++ (part1 ++ (part2 ++ part3)))
  rw [seq_append part0, seq_append part1, seq_append part2, ← part0_eq d, ← part1_eq d, ← part2_eq d, ← part3_eq d]
  rfl

/-- The whole line is the twenty stretches in order. -/
theorem ops_eq_segs : (ops : List (HloOp τ sig (Elt F)))
    = seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19))))))))))))))))))) := by
  simp only [ops, part0, part1, part2, part3, seg6_cut, seg12_cut, List.append_assoc]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only and determines its results -/

theorem sub_seg0 : (seg0 : List (HloOp τ sig (Elt F))).Forall fun op => op.bufs ⊆ tcRefs τ sig :=
  ⟨binary_bufs_sub .., unary_bufs_sub .., unary_bufs_sub .., binary_bufs_sub ..⟩
theorem fresh_seg0 : (seg0 : List (HloOp τ sig (Elt F))).Forall fun op => op.fresh = ∅ :=
  ⟨rfl, rfl, rfl, rfl⟩
theorem sub_seg1 : (seg1 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem fresh_seg1 : (seg1 : List (HloOp τ sig (Elt F))).Forall fun op => op.fresh = ∅ :=
  ⟨rfl, rfl, rfl, rfl, rfl, rfl, rfl, rfl, rfl, rfl, rfl, rfl, rfl, rfl, rfl, rfl, rfl, rfl⟩
theorem sub_seg2 : (seg2 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem fresh_seg2 : (seg2 : List (HloOp τ sig (Elt F))).Forall fun op => op.fresh = ∅ :=
  ⟨rfl, rfl, rfl, rfl, rfl, rfl, rfl, rfl, rfl, rfl, rfl, rfl, rfl, rfl, rfl, rfl, rfl, rfl⟩
theorem sub_seg3 : (seg3 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem fresh_seg3 : (seg3 : List (HloOp τ sig (Elt F))).Forall fun op => op.fresh = ∅ :=
  ⟨rfl, rfl, rfl, rfl, rfl, rfl, rfl, rfl, rfl, rfl, rfl, rfl, rfl, rfl, rfl, rfl, rfl, rfl⟩
theorem sub_seg4 : (seg4 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem fresh_seg4 : (seg4 : List (HloOp τ sig (Elt F))).Forall fun op => op.fresh = ∅ :=
  ⟨rfl, rfl, rfl, rfl, rfl, rfl, rfl, rfl, rfl, rfl, rfl, rfl, rfl, rfl, rfl, rfl, rfl, rfl⟩
theorem sub_seg5 : (seg5 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem fresh_seg5 : (seg5 : List (HloOp τ sig (Elt F))).Forall fun op => op.fresh = ∅ :=
  ⟨rfl, rfl, rfl, rfl, rfl, rfl, rfl, rfl, rfl, rfl, rfl, rfl, rfl, rfl, rfl, rfl, rfl, rfl⟩
theorem sub_seg6a : (seg6a : List (HloOp τ sig (Elt F))).Forall fun op => op.bufs ⊆ tcRefs τ sig :=
  ⟨binary_bufs_sub .., unary_bufs_sub .., reshape_bufs_sub .., binary_bufs_sub .., unary_bufs_sub .., reshape_bufs_sub ..⟩
theorem fresh_seg6a : (seg6a : List (HloOp τ sig (Elt F))).Forall fun op => op.fresh = ∅ :=
  ⟨rfl, rfl, rfl, rfl, rfl, rfl⟩
theorem sub_seg6b : (seg6b : List (HloOp τ sig (Elt F))).Forall fun op => op.bufs ⊆ tcRefs τ sig :=
  ⟨unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub ..⟩
theorem fresh_seg6b : (seg6b : List (HloOp τ sig (Elt F))).Forall fun op => op.fresh = ∅ :=
  ⟨rfl, rfl, rfl, rfl, rfl, rfl, rfl, rfl, rfl, rfl, rfl, rfl, rfl, rfl, rfl⟩
theorem sub_seg7 : (seg7 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem fresh_seg7 : (seg7 : List (HloOp τ sig (Elt F))).Forall fun op => op.fresh = ∅ :=
  ⟨rfl, rfl, rfl, rfl, rfl, rfl, rfl, rfl, rfl, rfl, rfl, rfl, rfl, rfl, rfl, rfl, rfl, rfl⟩
theorem sub_seg8 : (seg8 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem fresh_seg8 : (seg8 : List (HloOp τ sig (Elt F))).Forall fun op => op.fresh = ∅ :=
  ⟨rfl, rfl, rfl, rfl, rfl, rfl, rfl, rfl, rfl, rfl, rfl, rfl, rfl, rfl, rfl, rfl, rfl, rfl⟩
theorem sub_seg9 : (seg9 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem fresh_seg9 : (seg9 : List (HloOp τ sig (Elt F))).Forall fun op => op.fresh = ∅ :=
  ⟨rfl, rfl, rfl, rfl, rfl, rfl, rfl, rfl, rfl, rfl, rfl, rfl, rfl, rfl, rfl, rfl, rfl, rfl⟩
theorem sub_seg10 : (seg10 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem fresh_seg10 : (seg10 : List (HloOp τ sig (Elt F))).Forall fun op => op.fresh = ∅ :=
  ⟨rfl, rfl, rfl, rfl, rfl, rfl, rfl, rfl, rfl, rfl, rfl, rfl, rfl, rfl, rfl, rfl, rfl, rfl⟩
theorem sub_seg11 : (seg11 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem fresh_seg11 : (seg11 : List (HloOp τ sig (Elt F))).Forall fun op => op.fresh = ∅ :=
  ⟨rfl, rfl, rfl, rfl, rfl, rfl, rfl, rfl, rfl, rfl, rfl, rfl, rfl, rfl, rfl, rfl, rfl, rfl⟩
theorem sub_seg12a : (seg12a : List (HloOp τ sig (Elt F))).Forall fun op => op.bufs ⊆ tcRefs τ sig :=
  ⟨binary_bufs_sub .., unary_bufs_sub .., reshape_bufs_sub ..⟩
theorem fresh_seg12a : (seg12a : List (HloOp τ sig (Elt F))).Forall fun op => op.fresh = ∅ :=
  ⟨rfl, rfl, rfl⟩
theorem sub_seg12b : (seg12b : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub ..⟩
theorem fresh_seg12b : (seg12b : List (HloOp τ sig (Elt F))).Forall fun op => op.fresh = ∅ :=
  ⟨rfl, rfl, rfl, rfl, rfl, rfl, rfl, rfl, rfl, rfl, rfl, rfl, rfl, rfl, rfl, rfl, rfl, rfl⟩
theorem sub_seg13 : (seg13 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem fresh_seg13 : (seg13 : List (HloOp τ sig (Elt F))).Forall fun op => op.fresh = ∅ :=
  ⟨rfl, rfl, rfl, rfl, rfl, rfl, rfl, rfl, rfl, rfl, rfl, rfl, rfl, rfl, rfl, rfl, rfl, rfl⟩
theorem sub_seg14 : (seg14 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem fresh_seg14 : (seg14 : List (HloOp τ sig (Elt F))).Forall fun op => op.fresh = ∅ :=
  ⟨rfl, rfl, rfl, rfl, rfl, rfl, rfl, rfl, rfl, rfl, rfl, rfl, rfl, rfl, rfl, rfl, rfl, rfl⟩
theorem sub_seg15 : (seg15 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem fresh_seg15 : (seg15 : List (HloOp τ sig (Elt F))).Forall fun op => op.fresh = ∅ :=
  ⟨rfl, rfl, rfl, rfl, rfl, rfl, rfl, rfl, rfl, rfl, rfl, rfl, rfl, rfl, rfl, rfl, rfl, rfl⟩
theorem sub_seg16 : (seg16 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem fresh_seg16 : (seg16 : List (HloOp τ sig (Elt F))).Forall fun op => op.fresh = ∅ :=
  ⟨rfl, rfl, rfl, rfl, rfl, rfl, rfl, rfl, rfl, rfl, rfl, rfl, rfl, rfl, rfl, rfl, rfl, rfl⟩
theorem sub_seg17 : (seg17 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem fresh_seg17 : (seg17 : List (HloOp τ sig (Elt F))).Forall fun op => op.fresh = ∅ :=
  ⟨rfl, rfl, rfl, rfl, rfl, rfl, rfl, rfl, rfl, rfl, rfl, rfl, rfl, rfl, rfl, rfl, rfl, rfl⟩
theorem sub_seg18 : (seg18 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub ..⟩
theorem fresh_seg18 : (seg18 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem sub_seg19 : (seg19 : List (HloOp τ sig (Elt F))).Forall fun op => op.bufs ⊆ tcRefs τ sig :=
  ⟨unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., binary_bufs_sub .., binary_bufs_sub .., binary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., unary_bufs_sub .., unary_bufs_sub .., binary_bufs_sub ..⟩
theorem fresh_seg19 : (seg19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig := by
  simp only [ops, part0, part1, part2, part3, List.forall_append]
  exact ⟨⟨sub_seg0, ⟨sub_seg1, ⟨sub_seg2, ⟨sub_seg3, ⟨sub_seg4, ⟨sub_seg5, sub_seg6a⟩⟩⟩⟩⟩⟩, ⟨sub_seg6b, ⟨sub_seg7, ⟨sub_seg8, ⟨sub_seg9, ⟨sub_seg10, ⟨sub_seg11, sub_seg12a⟩⟩⟩⟩⟩⟩, ⟨sub_seg12b, ⟨sub_seg13, ⟨sub_seg14, ⟨sub_seg15, ⟨sub_seg16, sub_seg17⟩⟩⟩⟩⟩, ⟨sub_seg18, sub_seg19⟩⟩

theorem ops_fresh : (ops : List (HloOp τ sig (Elt F))).Forall fun op => op.fresh = ∅ := by
  simp only [ops, part0, part1, part2, part3, List.forall_append]
  exact ⟨⟨fresh_seg0, ⟨fresh_seg1, ⟨fresh_seg2, ⟨fresh_seg3, ⟨fresh_seg4, ⟨fresh_seg5, fresh_seg6a⟩⟩⟩⟩⟩⟩, ⟨fresh_seg6b, ⟨fresh_seg7, ⟨fresh_seg8, ⟨fresh_seg9, ⟨fresh_seg10, ⟨fresh_seg11, fresh_seg12a⟩⟩⟩⟩⟩⟩, ⟨fresh_seg12b, ⟨fresh_seg13, ⟨fresh_seg14, ⟨fresh_seg15, ⟨fresh_seg16, fresh_seg17⟩⟩⟩⟩⟩, ⟨fresh_seg18, fresh_seg19⟩⟩

/-- Every weakly fair execution terminates with every buffer at the fold of the operations over the launch contents. -/
theorem folded (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

end Cert.RefProgram

end
-- ==== Proof.RefRun.lean ====
/-
  The reference's run.

  The fold of the twenty stretches over the launch contents is peeled stretch by stretch: each stretch's last buffer
  is a layer of what it started from, and it leaves the other buffers alone, so the result buffer is the composition
  of the layers on the launch contents of the arguments, and each of its slabs is the block function of that sample.
  The arguments are buffers no operation writes.
-/
import proofs.«111816_j43181601194857_2_alg».proof.Proof.RefProgram
import proofs.«111816_j43181601194857_2_alg».proof.Proof.BlockArray

set_option maxRecDepth 16384

noncomputable section

namespace Cert.RefRun

open Cert.ReferenceIdeal Cert.ReferenceIdeal.Gen Idealize.ShloMosaic Idealize.ShloMosaic.TcCoe Idealize.SL.Sem Idealize.ShloMosaic.StableHlo
open Idealize.ShloMosaic.ValueIdx Cert.Layers Cert.Views Cert.RefOps Cert.RefSegments Cert.RefProgram

/-- The value the reference adds to the variance before the reciprocal square root. -/
abbrev eps : EReal := Ideal.ofBits .f32 0x3A83126F#32

/-- The fold of a concatenation is the fold of the second line from the fold of the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The layers, composed, on the launch contents: the result buffer after the fold. -/
def composed (m : (ℓ : Loc nD τ sig) → Buf (Elt Ideal) ℓ) (c : Dev nD) : S8x2048x256.Idx → EReal :=
  outArr (normArr (attnArr
      (maskedArr (stepArr2 (launchContents m c (Proc.devRef .tc main_arg1)) (launchContents m c (Proc.devRef .tc main_arg5)) (launchContents m c (Proc.devRef .tc main_arg6)) (stepArr2 (launchContents m c (Proc.devRef .tc main_arg1)) (launchContents m c (Proc.devRef .tc main_arg5)) (launchContents m c (Proc.devRef .tc main_arg6)) (stepArr1 (launchContents m c (Proc.devRef .tc main_arg1)) (launchContents m c (Proc.devRef .tc main_arg5)) (launchContents m c (Proc.devRef .tc main_arg6)) (stepArr1 (launchContents m c (Proc.devRef .tc main_arg1)) (launchContents m c (Proc.devRef .tc main_arg5)) (launchContents m c (Proc.devRef .tc main_arg6))
        (stepArr0 (launchContents m c (Proc.devRef .tc main_arg1)) (launchContents m c (Proc.devRef .tc main_arg5)) (launchContents m c (Proc.devRef .tc main_arg6)) (stepArr0 (launchContents m c (Proc.devRef .tc main_arg1)) (launchContents m c (Proc.devRef .tc main_arg5)) (launchContents m c (Proc.devRef .tc main_arg6)) (inputArr (launchContents m c (Proc.devRef .tc main_arg0)) (launchContents m c (Proc.devRef .tc main_arg3)) (launchContents m c (Proc.devRef .tc main_arg4))))))))) (launchContents m c (Proc.devRef .tc main_arg2)))
      (maskedArr (stepArr2 (launchContents m c (Proc.devRef .tc main_arg1)) (launchContents m c (Proc.devRef .tc main_arg7)) (launchContents m c (Proc.devRef .tc main_arg8)) (stepArr2 (launchContents m c (Proc.devRef .tc main_arg1)) (launchContents m c (Proc.devRef .tc main_arg7)) (launchContents m c (Proc.devRef .tc main_arg8)) (stepArr1 (launchContents m c (Proc.devRef .tc main_arg1)) (launchContents m c (Proc.devRef .tc main_arg7)) (launchContents m c (Proc.devRef .tc main_arg8)) (stepArr1 (launchContents m c (Proc.devRef .tc main_arg1)) (launchContents m c (Proc.devRef .tc main_arg7)) (launchContents m c (Proc.devRef .tc main_arg8))
        (stepArr0 (launchContents m c (Proc.devRef .tc main_arg1)) (launchContents m c (Proc.devRef .tc main_arg7)) (launchContents m c (Proc.devRef .tc main_arg8)) (stepArr0 (launchContents m c (Proc.devRef .tc main_arg1)) (launchContents m c (Proc.devRef .tc main_arg7)) (launchContents m c (Proc.devRef .tc main_arg8)) (inputArr (launchContents m c (Proc.devRef .tc main_arg0)) (launchContents m c (Proc.devRef .tc main_arg3)) (launchContents m c (Proc.devRef .tc main_arg4))))))))) (launchContents m c (Proc.devRef .tc main_arg2)))
      (maskedArr (stepArr2 (launchContents m c (Proc.devRef .tc main_arg1)) (launchContents m c (Proc.devRef .tc main_arg9)) (launchContents m c (Proc.devRef .tc main_arg10)) (stepArr2 (launchContents m c (Proc.devRef .tc main_arg1)) (launchContents m c (Proc.devRef .tc main_arg9)) (launchContents m c (Proc.devRef .tc main_arg10)) (stepArr1 (launchContents m c (Proc.devRef .tc main_arg1)) (launchContents m c (Proc.devRef .tc main_arg9)) (launchContents m c (Proc.devRef .tc main_arg10)) (stepArr1 (launchContents m c (Proc.devRef .tc main_arg1)) (launchContents m c (Proc.devRef .tc main_arg9)) (launchContents m c (Proc.devRef .tc main_arg10))
        (stepArr0 (launchContents m c (Proc.devRef .tc main_arg1)) (launchContents m c (Proc.devRef .tc main_arg9)) (launchContents m c (Proc.devRef .tc main_arg10)) (stepArr0 (launchContents m c (Proc.devRef .tc main_arg1)) (launchContents m c (Proc.devRef .tc main_arg9)) (launchContents m c (Proc.devRef .tc main_arg10)) (inputArr (launchContents m c (Proc.devRef .tc main_arg0)) (launchContents m c (Proc.devRef .tc main_arg3)) (launchContents m c (Proc.devRef .tc main_arg4))))))))) (launchContents m c (Proc.devRef .tc main_arg2)))
      (launchContents m c (Proc.devRef .tc main_arg0)) (launchContents m c (Proc.devRef .tc main_arg2)) (launchContents m c (Proc.devRef .tc main_arg11)) (launchContents m c (Proc.devRef .tc main_arg12)) (launchContents m c (Proc.devRef .tc main_arg13)) (launchContents m c (Proc.devRef .tc main_arg14)))
    (launchContents m c (Proc.devRef .tc main_arg15)) (launchContents m c (Proc.devRef .tc main_arg16)) (launchContents m c (Proc.devRef .tc main_arg17)) (launchContents m c (Proc.devRef .tc main_arg18)) 0x3A83126F#32)
    (launchContents m c (Proc.devRef .tc main_arg0)) (launchContents m c (Proc.devRef .tc main_arg2)) (launchContents m c (Proc.devRef .tc main_arg19)) (launchContents m c (Proc.devRef .tc main_arg20)) (launchContents m c (Proc.devRef .tc main_arg21)) (launchContents m c (Proc.devRef .tc main_arg22))

/-! The stretches' value statements, with the buffer left un-indexed so that one rewriting pass finds them. -/

theorem value0' (V : Valuation τ sig (Elt Ideal)) :
    after (seg0 (F := Ideal)) V (no_index (Proc.devRef .tc main_v3))
      = inputArr (V (Proc.devRef .tc main_arg0)) (V (Proc.devRef .tc main_arg3)) (V (Proc.devRef .tc main_arg4)) := value0 V
theorem value1' (V : Valuation τ sig (Elt Ideal)) :
    after (seg1 (F := Ideal)) V (no_index (Proc.devRef .tc main_v13))
      = stepArr0 (V (Proc.devRef .tc main_arg1)) (V (Proc.devRef .tc main_arg5)) (V (Proc.devRef .tc main_arg6)) (V (Proc.devRef .tc main_v3)) := value1 V
theorem value2' (V : Valuation τ sig (Elt Ideal)) :
    after (seg2 (F := Ideal)) V (no_index (Proc.devRef .tc main_v23))
      = stepArr0 (V (Proc.devRef .tc main_arg1)) (V (Proc.devRef .tc main_arg5)) (V (Proc.devRef .tc main_arg6)) (V (Proc.devRef .tc main_v13)) := value2 V
theorem value3' (V : Valuation τ sig (Elt Ideal)) :
    after (seg3 (F := Ideal)) V (no_index (Proc.devRef .tc main_v33))
      = stepArr1 (V (Proc.devRef .tc main_arg1)) (V (Proc.devRef .tc main_arg5)) (V (Proc.devRef .tc main_arg6)) (V (Proc.devRef .tc main_v23)) := value3 V
theorem value4' (V : Valuation τ sig (Elt Ideal)) :
    after (seg4 (F := Ideal)) V (no_index (Proc.devRef .tc main_v43))
      = stepArr1 (V (Proc.devRef .tc main_arg1)) (V (Proc.devRef .tc main_arg5)) (V (Proc.devRef .tc main_arg6)) (V (Proc.devRef .tc main_v33)) := value4 V
theorem value5' (V : Valuation τ sig (Elt Ideal)) :
    after (seg5 (F := Ideal)) V (no_index (Proc.devRef .tc main_v53))
      = stepArr2 (V (Proc.devRef .tc main_arg1)) (V (Proc.devRef .tc main_arg5)) (V (Proc.devRef .tc main_arg6)) (V (Proc.devRef .tc main_v43)) := value5 V
theorem value6' (V : Valuation τ sig (Elt Ideal)) :
    after (seg6 (F := Ideal)) V (no_index (Proc.devRef .tc main_v66))
      = maskedArr (stepArr2 (V (Proc.devRef .tc main_arg1)) (V (Proc.devRef .tc main_arg5)) (V (Proc.devRef .tc main_arg6)) (V (Proc.devRef .tc main_v53))) (V (Proc.devRef .tc main_arg2)) := value6 V
theorem value7' (V : Valuation τ sig (Elt Ideal)) :
    after (seg7 (F := Ideal)) V (no_index (Proc.devRef .tc main_v76))
      = stepArr0 (V (Proc.devRef .tc main_arg1)) (V (Proc.devRef .tc main_arg7)) (V (Proc.devRef .tc main_arg8)) (V (Proc.devRef .tc main_v3)) := value7 V
theorem value8' (V : Valuation τ sig (Elt Ideal)) :
    after (seg8 (F := Ideal)) V (no_index (Proc.devRef .tc main_v86))
      = stepArr0 (V (Proc.devRef .tc main_arg1)) (V (Proc.devRef .tc main_arg7)) (V (Proc.devRef .tc main_arg8)) (V (Proc.devRef .tc main_v76)) := value8 V
theorem value9' (V : Valuation τ sig (Elt Ideal)) :
    after (seg9 (F := Ideal)) V (no_index (Proc.devRef .tc main_v96))
      = stepArr1 (V (Proc.devRef .tc main_arg1)) (V (Proc.devRef .tc main_arg7)) (V (Proc.devRef .tc main_arg8)) (V (Proc.devRef .tc main_v86)) := value9 V
theorem value10' (V : Valuation τ sig (Elt Ideal)) :
    after (seg10 (F := Ideal)) V (no_index (Proc.devRef .tc main_v106))
      = stepArr1 (V (Proc.devRef .tc main_arg1)) (V (Proc.devRef .tc main_arg7)) (V (Proc.devRef .tc main_arg8)) (V (Proc.devRef .tc main_v96)) := value10 V
theorem value11' (V : Valuation τ sig (Elt Ideal)) :
    after (seg11 (F := Ideal)) V (no_index (Proc.devRef .tc main_v116))
      = stepArr2 (V (Proc.devRef .tc main_arg1)) (V (Proc.devRef .tc main_arg7)) (V (Proc.devRef .tc main_arg8)) (V (Proc.devRef .tc main_v106)) := value11 V
theorem value12' (V : Valuation τ sig (Elt Ideal)) :
    after (seg12 (F := Ideal)) V (no_index (Proc.devRef .tc main_v129))
      = maskedArr (stepArr2 (V (Proc.devRef .tc main_arg1)) (V (Proc.devRef .tc main_arg7)) (V (Proc.devRef .tc main_arg8)) (V (Proc.devRef .tc main_v116))) (V (Proc.devRef .tc main_arg2)) := value12 V
theorem value13' (V : Valuation τ sig (Elt Ideal)) :
    after (seg13 (F := Ideal)) V (no_index (Proc.devRef .tc main_v139))
      = stepArr0 (V (Proc.devRef .tc main_arg1)) (V (Proc.devRef .tc main_arg9)) (V (Proc.devRef .tc main_arg10)) (V (Proc.devRef .tc main_v3)) := value13 V
theorem value14' (V : Valuation τ sig (Elt Ideal)) :
    after (seg14 (F := Ideal)) V (no_index (Proc.devRef .tc main_v149))
      = stepArr0 (V (Proc.devRef .tc main_arg1)) (V (Proc.devRef .tc main_arg9)) (V (Proc.devRef .tc main_arg10)) (V (Proc.devRef .tc main_v139)) := value14 V
theorem value15' (V : Valuation τ sig (Elt Ideal)) :
    after (seg15 (F := Ideal)) V (no_index (Proc.devRef .tc main_v159))
      = stepArr1 (V (Proc.devRef .tc main_arg1)) (V (Proc.devRef .tc main_arg9)) (V (Proc.devRef .tc main_arg10)) (V (Proc.devRef .tc main_v149)) := value15 V
theorem value16' (V : Valuation τ sig (Elt Ideal)) :
    after (seg16 (F := Ideal)) V (no_index (Proc.devRef .tc main_v169))
      = stepArr1 (V (Proc.devRef .tc main_arg1)) (V (Proc.devRef .tc main_arg9)) (V (Proc.devRef .tc main_arg10)) (V (Proc.devRef .tc main_v159)) := value16 V
theorem value17' (V : Valuation τ sig (Elt Ideal)) :
    after (seg17 (F := Ideal)) V (no_index (Proc.devRef .tc main_v179))
      = stepArr2 (V (Proc.devRef .tc main_arg1)) (V (Proc.devRef .tc main_arg9)) (V (Proc.devRef .tc main_arg10)) (V (Proc.devRef .tc main_v169)) := value17 V
theorem value18' (V : Valuation τ sig (Elt Ideal)) :
    after (seg18 (F := Ideal)) V (no_index (Proc.devRef .tc main_v192))
      = maskedArr (stepArr2 (V (Proc.devRef .tc main_arg1)) (V (Proc.devRef .tc main_arg9)) (V (Proc.devRef .tc main_arg10)) (V (Proc.devRef .tc main_v179))) (V (Proc.devRef .tc main_arg2)) := value18 V
theorem value19' (V : Valuation τ sig (Elt Ideal)) :
    after (seg19 (F := Ideal)) V (no_index (Proc.devRef .tc main_v233))
      = outArr (normArr (attnArr (V (Proc.devRef .tc main_v66)) (V (Proc.devRef .tc main_v129)) (V (Proc.devRef .tc main_v192)) (V (Proc.devRef .tc main_arg0)) (V (Proc.devRef .tc main_arg2)) (V (Proc.devRef .tc main_arg11)) (V (Proc.devRef .tc main_arg12)) (V (Proc.devRef .tc main_arg13)) (V (Proc.devRef .tc main_arg14)))
        (V (Proc.devRef .tc main_arg15)) (V (Proc.devRef .tc main_arg16)) (V (Proc.devRef .tc main_arg17)) (V (Proc.devRef .tc main_arg18)) 0x3A83126F#32)
      (V (Proc.devRef .tc main_arg0)) (V (Proc.devRef .tc main_arg2)) (V (Proc.devRef .tc main_arg19)) (V (Proc.devRef .tc main_arg20)) (V (Proc.devRef .tc main_arg21)) (V (Proc.devRef .tc main_arg22)) := value19 V

set_option maxHeartbeats 4000000 in
/-- The result buffer after the fold is the composed layers. -/
theorem result_composed (m : (ℓ : Loc nD τ sig) → Buf (Elt Ideal) ℓ) (c : Dev nD) :
    after (ops (F := Ideal)) (launchContents m c) (Proc.devRef .tc main_v233) = composed m c := by
  rw [ops_eq_segs]
  simp (disch := decide) only [after_append, value0', value1', value2', value3', value4', value5', value6', value7', value8', value9', value10', value11', value12', value13', value14', value15', value16', value17', value18', value19',
    keeps0, keeps1, keeps2, keeps3, keeps4, keeps5, keeps6, keeps7, keeps8, keeps9, keeps10, keeps11, keeps12, keeps13, keeps14, keeps15, keeps16, keeps17, keeps18, keeps19]
  rfl

/-- Each slab of the composed layers is the block function of that sample. -/
theorem slab_composed (m : (ℓ : Loc nD τ sig) → Buf (Elt Ideal) ℓ) (c : Dev nD) (b : Fin 8) :
    slab (composed m c) b
      = block (slab (launchContents m c (Proc.devRef .tc main_arg0)) b) (slab (launchContents m c (Proc.devRef .tc main_arg1)) b) (rowOf (launchContents m c (Proc.devRef .tc main_arg2)) b) (mat (launchContents m c (Proc.devRef .tc main_arg3))) (vec (launchContents m c (Proc.devRef .tc main_arg4))) (slab (launchContents m c (Proc.devRef .tc main_arg5))) (rowOf (launchContents m c (Proc.devRef .tc main_arg6))) (slab (launchContents m c (Proc.devRef .tc main_arg7))) (rowOf (launchContents m c (Proc.devRef .tc main_arg8)))
        (slab (launchContents m c (Proc.devRef .tc main_arg9))) (rowOf (launchContents m c (Proc.devRef .tc main_arg10))) (mat (launchContents m c (Proc.devRef .tc main_arg11))) (mat (launchContents m c (Proc.devRef .tc main_arg12))) (mat (launchContents m c (Proc.devRef .tc main_arg13))) (mat (launchContents m c (Proc.devRef .tc main_arg14))) (vec (launchContents m c (Proc.devRef .tc main_arg15))) (vec (launchContents m c (Proc.devRef .tc main_arg16))) (vec (launchContents m c (Proc.devRef .tc main_arg17))) (vec (launchContents m c (Proc.devRef .tc main_arg18)))
        (mat (launchContents m c (Proc.devRef .tc main_arg19))) (vec (launchContents m c (Proc.devRef .tc main_arg20))) (mat (launchContents m c (Proc.devRef .tc main_arg21))) (vec (launchContents m c (Proc.devRef .tc main_arg22))) eps := by
  unfold composed
  simp only [slab_outArr, slab_normArr, slab_attnArr, slab_maskedArr, slab_stepArr0, slab_stepArr1, slab_stepArr2, slab_inputArr, block, stack]

/-- So the result buffer after the fold is the shared result of the launch contents of the arguments. -/
theorem result_eq (m : (ℓ : Loc nD τ sig) → Buf (Elt Ideal) ℓ) (c : Dev nD) :
    after (ops (F := Ideal)) (launchContents m c) (Proc.devRef .tc main_v233)
      = Cert.BlockArray.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) eps := by
  rw [result_composed]
  exact Cert.BlockArray.eq_result _ (fun b => slab_composed m c b)

/-! ## The arguments are never written -/

/-- The buffers the operations write: those of the twenty stretches. -/
theorem arg_kept (V : Valuation τ sig (Elt Ideal)) {r : Ref sig .tc}
    (h0 : r ∉ written0) (h1 : r ∉ written1) (h2 : r ∉ written2) (h3 : r ∉ written3) (h4 : r ∉ written4) (h5 : r ∉ written5) (h6 : r ∉ written6) (h7 : r ∉ written7) (h8 : r ∉ written8) (h9 : r ∉ written9) (h10 : r ∉ written10) (h11 : r ∉ written11) (h12 : r ∉ written12) (h13 : r ∉ written13) (h14 : r ∉ written14) (h15 : r ∉ written15) (h16 : r ∉ written16) (h17 : r ∉ written17) (h18 : r ∉ written18) (h19 : r ∉ written19) :
    after (ops (F := Ideal)) V (Proc.devRef .tc r) = V (Proc.devRef .tc r) := by
  rw [ops_eq_segs]
  simp only [after_append, keeps0 _ h0, keeps1 _ h1, keeps2 _ h2, keeps3 _ h3, keeps4 _ h4, keeps5 _ h5, keeps6 _ h6, keeps7 _ h7, keeps8 _ h8, keeps9 _ h9, keeps10 _ h10, keeps11 _ h11, keeps12 _ h12, keeps13 _ h13, keeps14 _ h14, keeps15 _ h15, keeps16 _ h16, keeps17 _ h17, keeps18 _ h18, keeps19 _ h19]

theorem kept0 (V : Valuation τ sig (Elt Ideal)) : after (ops (F := Ideal)) V (Proc.devRef .tc main_arg0) = V (Proc.devRef .tc main_arg0) :=
  arg_kept V (by decide) (by decide) (by decide) (by decide) (by decide) (by decide) (by decide) (by decide) (by decide) (by decide) (by decide) (by decide) (by decide) (by decide) (by decide) (by decide) (by decide) (by decide) (by decide) (by decide)
theorem kept1 (V : Valuation τ sig (Elt Ideal)) : after (ops (F := Ideal)) V (Proc.devRef .tc main_arg1) = V (Proc.devRef .tc main_arg1) :=
  arg_kept V (by decide) (by decide) (by decide) (by decide) (by decide) (by decide) (by decide) (by decide) (by decide) (by decide) (by decide) (by decide) (by decide) (by decide) (by decide) (by decide) (by decide) (by decide) (by decide) (by decide)
theorem kept2 (V : Valuation τ sig (Elt Ideal)) : after (ops (F := Ideal)) V (Proc.devRef .tc main_arg2) = V (Proc.devRef .tc main_arg2) :=
  arg_kept V (by decide) (by decide) (by decide) (by decide) (by decide) (by decide) (by decide) (by decide) (by decide) (by decide) (by decide) (by decide) (by decide) (by decide) (by decide) (by decide) (by decide) (by decide) (by decide) (by decide)
theorem kept3 (V : Valuation τ sig (Elt Ideal)) : after (ops (F := Ideal)) V (Proc.devRef .tc main_arg3) = V (Proc.devRef .tc main_arg3) :=
  arg_kept V (by decide) (by decide) (by decide) (by decide) (by decide) (by decide) (by decide) (by decide) (by decide) (by decide) (by decide) (by decide) (by decide) (by decide) (by decide) (by decide) (by decide) (by decide) (by decide) (by decide)
theorem kept4 (V : Valuation τ sig (Elt Ideal)) : after (ops (F := Ideal)) V (Proc.devRef .tc main_arg4) = V (Proc.devRef .tc main_arg4) :=
  arg_kept V (by decide) (by decide) (by decide) (by decide) (by decide) (by decide) (by decide) (by decide) (by decide) (by decide) (by decide) (by decide) (by decide) (by decide) (by decide) (by decide) (by decide) (by decide) (by decide) (by decide)
theorem kept5 (V : Valuation τ sig (Elt Ideal)) : after (ops (F := Ideal)) V (Proc.devRef .tc main_arg5) = V (Proc.devRef .tc main_arg5) :=
  arg_kept V (by decide) (by decide) (by decide) (by decide) (by decide) (by decide) (by decide) (by decide) (by decide) (by decide) (by decide) (by decide) (by decide) (by decide) (by decide) (by decide) (by decide) (by decide) (by decide) (by decide)
theorem kept6 (V : Valuation τ sig (Elt Ideal)) : after (ops (F := Ideal)) V (Proc.devRef .tc main_arg6) = V (Proc.devRef .tc main_arg6) :=
  arg_kept V (by decide) (by decide) (by decide) (by decide) (by decide) (by decide) (by decide) (by decide) (by decide) (by decide) (by decide) (by decide) (by decide) (by decide) (by decide) (by decide) (by decide) (by decide) (by decide) (by decide)
theorem kept7 (V : Valuation τ sig (Elt Ideal)) : after (ops (F := Ideal)) V (Proc.devRef .tc main_arg7) = V (Proc.devRef .tc main_arg7) :=
  arg_kept V (by decide) (by decide) (by decide) (by decide) (by decide) (by decide) (by decide) (by decide) (by decide) (by decide) (by decide) (by decide) (by decide) (by decide) (by decide) (by decide) (by decide) (by decide) (by decide) (by decide)
theorem kept8 (V : Valuation τ sig (Elt Ideal)) : after (ops (F := Ideal)) V (Proc.devRef .tc main_arg8) = V (Proc.devRef .tc main_arg8) :=
  arg_kept V (by decide) (by decide) (by decide) (by decide) (by decide) (by decide) (by decide) (by decide) (by decide) (by decide) (by decide) (by decide) (by decide) (by decide) (by decide) (by decide) (by decide) (by decide) (by decide) (by decide)
theorem kept9 (V : Valuation τ sig (Elt Ideal)) : after (ops (F := Ideal)) V (Proc.devRef .tc main_arg9) = V (Proc.devRef .tc main_arg9) :=
  arg_kept V (by decide) (by decide) (by decide) (by decide) (by decide) (by decide) (by decide) (by decide) (by decide) (by decide) (by decide) (by decide) (by decide) (by decide) (by decide) (by decide) (by decide) (by decide) (by decide) (by decide)
theorem kept10 (V : Valuation τ sig (Elt Ideal)) : after (ops (F := Ideal)) V (Proc.devRef .tc main_arg10) = V (Proc.devRef .tc main_arg10) :=
  arg_kept V (by decide) (by decide) (by decide) (by decide) (by decide) (by decide) (by decide) (by decide) (by decide) (by decide) (by decide) (by decide) (by decide) (by decide) (by decide) (by decide) (by decide) (by decide) (by decide) (by decide)
theorem kept11 (V : Valuation τ sig (Elt Ideal)) : after (ops (F := Ideal)) V (Proc.devRef .tc main_arg11) = V (Proc.devRef .tc main_arg11) :=
  arg_kept V (by decide) (by decide) (by decide) (by decide) (by decide) (by decide) (by decide) (by decide) (by decide) (by decide) (by decide) (by decide) (by decide) (by decide) (by decide) (by decide) (by decide) (by decide) (by decide) (by decide)
theorem kept12 (V : Valuation τ sig (Elt Ideal)) : after (ops (F := Ideal)) V (Proc.devRef .tc main_arg12) = V (Proc.devRef .tc main_arg12) :=
  arg_kept V (by decide) (by decide) (by decide) (by decide) (by decide) (by decide) (by decide) (by decide) (by decide) (by decide) (by decide) (by decide) (by decide) (by decide) (by decide) (by decide) (by decide) (by decide) (by decide) (by decide)
theorem kept13 (V : Valuation τ sig (Elt Ideal)) : after (ops (F := Ideal)) V (Proc.devRef .tc main_arg13) = V (Proc.devRef .tc main_arg13) :=
  arg_kept V (by decide) (by decide) (by decide) (by decide) (by decide) (by decide) (by decide) (by decide) (by decide) (by decide) (by decide) (by decide) (by decide) (by decide) (by decide) (by decide) (by decide) (by decide) (by decide) (by decide)
theorem kept14 (V : Valuation τ sig (Elt Ideal)) : after (ops (F := Ideal)) V (Proc.devRef .tc main_arg14) = V (Proc.devRef .tc main_arg14) :=
  arg_kept V (by decide) (by decide) (by decide) (by decide) (by decide) (by decide) (by decide) (by decide) (by decide) (by decide) (by decide) (by decide) (by decide) (by decide) (by decide) (by decide) (by decide) (by decide) (by decide) (by decide)
theorem kept15 (V : Valuation τ sig (Elt Ideal)) : after (ops (F := Ideal)) V (Proc.devRef .tc main_arg15) = V (Proc.devRef .tc main_arg15) :=
  arg_kept V (by decide) (by decide) (by decide) (by decide) (by decide) (by decide) (by decide) (by decide) (by decide) (by decide) (by decide) (by decide) (by decide) (by decide) (by decide) (by decide) (by decide) (by decide) (by decide) (by decide)
theorem kept16 (V : Valuation τ sig (Elt Ideal)) : after (ops (F := Ideal)) V (Proc.devRef .tc main_arg16) = V (Proc.devRef .tc main_arg16) :=
  arg_kept V (by decide) (by decide) (by decide) (by decide) (by decide) (by decide) (by decide) (by decide) (by decide) (by decide) (by decide) (by decide) (by decide) (by decide) (by decide) (by decide) (by decide) (by decide) (by decide) (by decide)
theorem kept17 (V : Valuation τ sig (Elt Ideal)) : after (ops (F := Ideal)) V (Proc.devRef .tc main_arg17) = V (Proc.devRef .tc main_arg17) :=
  arg_kept V (by decide) (by decide) (by decide) (by decide) (by decide) (by decide) (by decide) (by decide) (by decide) (by decide) (by decide) (by decide) (by decide) (by decide) (by decide) (by decide) (by decide) (by decide) (by decide) (by decide)
theorem kept18 (V : Valuation τ sig (Elt Ideal)) : after (ops (F := Ideal)) V (Proc.devRef .tc main_arg18) = V (Proc.devRef .tc main_arg18) :=
  arg_kept V (by decide) (by decide) (by decide) (by decide) (by decide) (by decide) (by decide) (by decide) (by decide) (by decide) (by decide) (by decide) (by decide) (by decide) (by decide) (by decide) (by decide) (by decide) (by decide) (by decide)
theorem kept19 (V : Valuation τ sig (Elt Ideal)) : after (ops (F := Ideal)) V (Proc.devRef .tc main_arg19) = V (Proc.devRef .tc main_arg19) :=
  arg_kept V (by decide) (by decide) (by decide) (by decide) (by decide) (by decide) (by decide) (by decide) (by decide) (by decide) (by decide) (by decide) (by decide) (by decide) (by decide) (by decide) (by decide) (by decide) (by decide) (by decide)
theorem kept20 (V : Valuation τ sig (Elt Ideal)) : after (ops (F := Ideal)) V (Proc.devRef .tc main_arg20) = V (Proc.devRef .tc main_arg20) :=
  arg_kept V (by decide) (by decide) (by decide) (by decide) (by decide) (by decide) (by decide) (by decide) (by decide) (by decide) (by decide) (by decide) (by decide) (by decide) (by decide) (by decide) (by decide) (by decide) (by decide) (by decide)
theorem kept21 (V : Valuation τ sig (Elt Ideal)) : after (ops (F := Ideal)) V (Proc.devRef .tc main_arg21) = V (Proc.devRef .tc main_arg21) :=
  arg_kept V (by decide) (by decide) (by decide) (by decide) (by decide) (by decide) (by decide) (by decide) (by decide) (by decide) (by decide) (by decide) (by decide) (by decide) (by decide) (by decide) (by decide) (by decide) (by decide) (by decide)
theorem kept22 (V : Valuation τ sig (Elt Ideal)) : after (ops (F := Ideal)) V (Proc.devRef .tc main_arg22) = V (Proc.devRef .tc main_arg22) :=
  arg_kept V (by decide) (by decide) (by decide) (by decide) (by decide) (by decide) (by decide) (by decide) (by decide) (by decide) (by decide) (by decide) (by decide) (by decide) (by decide) (by decide) (by decide) (by decide) (by decide) (by decide)

/-! ## The run -/

/-- Every weakly fair execution of the reference terminates with the result buffer at the shared result of its
    arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v233)
        = Cert.BlockArray.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) eps
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun r h c => ⟨(h c main_v233).trans (result_eq m c),
      (h c main_arg0).trans (kept0 (launchContents m c)),
      (h c main_arg1).trans (kept1 (launchContents m c)),
      (h c main_arg2).trans (kept2 (launchContents m c)),
      (h c main_arg3).trans (kept3 (launchContents m c)),
      (h c main_arg4).trans (kept4 (launchContents m c)),
      (h c main_arg5).trans (kept5 (launchContents m c)),
      (h c main_arg6).trans (kept6 (launchContents m c)),
      (h c main_arg7).trans (kept7 (launchContents m c)),
      (h c main_arg8).trans (kept8 (launchContents m c)),
      (h c main_arg9).trans (kept9 (launchContents m c)),
      (h c main_arg10).trans (kept10 (launchContents m c)),
      (h c main_arg11).trans (kept11 (launchContents m c)),
      (h c main_arg12).trans (kept12 (launchContents m c)),
      (h c main_arg13).trans (kept13 (launchContents m c)),
      (h c main_arg14).trans (kept14 (launchContents m c)),
      (h c main_arg15).trans (kept15 (launchContents m c)),
      (h c main_arg16).trans (kept16 (launchContents m c)),
      (h c main_arg17).trans (kept17 (launchContents m c)),
      (h c main_arg18).trans (kept18 (launchContents m c)),
      (h c main_arg19).trans (kept19 (launchContents m c)),
      (h c main_arg20).trans (kept20 (launchContents m c)),
      (h c main_arg21).trans (kept21 (launchContents m c)),
      (h c main_arg22).trans (kept22 (launchContents m c))⟩)
    (folded m ρ)

end Cert.RefRun

end
-- ==== Proof.lean ====
/-
  A fused graph-attention block, eight samples at a time, against its plain array-language reference.

  On each sample both programs compute the same chain of layers on extended reals.  An input layer
  h = x · W_lin + b_lin feeds three message-passing stacks (queries, keys, values): six steps
  X ↦ silu ((A · X) · W_j + b_j) with the adjacency A and weight slabs j = 0, 0, 1, 1, 2, 2, then the node mask.
  Linear attention contracts keys against values over the nodes, (q W_q) · (silu (k W_k ∘ mask)ᵀ · (v W_v ∘ mask)) · W_o;
  its sum with x is normalised feature by feature, γ · (y − mean) · rsqrt (var + ε) + β with one shared ε, sent
  through a silu projection, added to x · W_res + b_res, and masked.

  The kernel runs one grid point per sample and keeps everything of a sample on chip; the reference keeps the batch
  as a leading axis.  At exact values a change of number format is the identity, a product into a zero accumulator
  is the matrix product, the kernel's logistic and the reference's 1 / (1 + e^(-t)) are one function, and every sum
  is over the same index set in the same arrangement.  The one rearrangement is the association of the last sum,
  (s + r) + b = s + (r + b), which holds on the extended reals without any finiteness: the precondition is never
  opened.  Both runs therefore end with the result array at the same function of the arguments
  (Cert.BlockArray.result), the kernel's by the cover of the result by its eight blocks (Cert.KernelArray.run), the
  reference's by peeling its operations stretch by stretch (Cert.RefRun.run).
-/
import proofs.«111816_j43181601194857_2_alg».proof.Defs
import proofs.«111816_j43181601194857_2_alg».proof.Proof.Gen.Kernel
import proofs.«111816_j43181601194857_2_alg».proof.Proof.Gen.KernelIdeal
import proofs.«111816_j43181601194857_2_alg».proof.Proof.Gen.ReferenceIdeal
import proofs.«111816_j43181601194857_2_alg».proof.Proof.Gen.Pre_finite_inputs
import proofs.«111816_j43181601194857_2_alg».proof.Proof.KernelFrame
import proofs.«111816_j43181601194857_2_alg».proof.Proof.KernelIdealFrame
import proofs.«111816_j43181601194857_2_alg».proof.Proof.KernelIdealValue
import proofs.«111816_j43181601194857_2_alg».proof.Proof.KernelArray
import proofs.«111816_j43181601194857_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.GenP.frame m ρ

/-- So does the kernel at exact values. -/
theorem frame_kernelIdeal : Cert.frame_KernelIdeal := fun m ρ _ => Cert.KernelIdeal.GenP.frame m ρ

/-- The reference's frame is its run with the result dropped. -/
theorem frame_reference : Cert.frame_ReferenceIdeal := fun m ρ _ =>
  (θ_run Cert.ReferenceIdeal.defs _ _).mono (fun _ h c => (h c).2) (Cert.RefRun.run m ρ)

/-- At exact values the two programs, run from memories that agree on the arguments, end with the same result array:
    the result of the arguments. -/
theorem algebraic : Cert.algebraic_KernelIdeal_ReferenceIdeal := by
  intro m ρ m' ρ' _ hagree
  refine ⟨fun c => Cert.KernelArray.R m c, Cert.KernelArray.run m ρ, ?_⟩
  refine (θ_run Cert.ReferenceIdeal.defs _ _).mono (fun _ h c => ⟨(h c).1.trans ?_, (h c).2⟩)
    (Cert.RefRun.run m' ρ')
  obtain ⟨a0, a1, a2, a3, a4, a5, a6, a7, a8, a9, a10, a11, a12, a13, a14, a15, a16, a17, a18, a19, a20, a21, a22⟩ := hagree c
  rw [a0, a1, a2, a3, a4, a5, a6, a7, a8, a9, a10, a11, a12, a13, a14, a15, a16, a17, a18, a19, a20, a21, a22]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
